-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S64x128 : Shape := ⟨2, ![64, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg5 : FVec F S128 .f32) (main_arg6 : FVec F S128x10 .f32) (main_arg7 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x10 .f32 := Host.absf main_arg6
  let main_cst_8 : FVec F S_ .f32 := constant S_ .f32 0x7F800000#32
  let main_v25 : FVec F S128x10 .f32 := broadcastInDim S128x10 ![] bcast_S_S128x10 main_cst_8
  let main_v26 : IVec S128x10 1 := cmpf .olt main_v24 main_v25
  let main_c_9 : IVec S_ 1 := constantI S_ 1 1#1
  let main_v27 : IVec S_ 1 := (fun x v => Host.reduce IntOp.andi x v reducesTo_S128x10_S_d0_1 h_S_) main_v26 main_c_9
  let main_v28 : IVec S_ 1 := andi main_v23 main_v27
  let main_v29 : FVec F S10 .f32 := Host.absf main_arg7
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S100000x64 .f32) (main_arg1 : IVec S2x1000000 32) (main_arg2 : FVec F S64x128 .f32) (main_arg3 : FVec F S128 .f32) (main_arg4 : FVec F S128x128 .f32) (main_arg5 : FVec F S128 .f32) (main_arg6 : FVec F S128x10 .f32) (main_arg7 : FVec F S10 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x64 : Shape := ⟨2, ![100000, 64]⟩
abbrev S2x1000000 : Shape := ⟨2, ![2, 1000000]⟩
abbrev S64x128 : Shape := ⟨2, ![64, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S100000 : Shape := ⟨1, ![100000]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S100000x128 : Shape := ⟨2, ![100000, 128]⟩
abbrev S2000x64 : Shape := ⟨2, ![2000, 64]⟩
abbrev S2000x128 : Shape := ⟨2, ![2000, 128]⟩
abbrev S1100000x128 : Shape := ⟨2, ![1100000, 128]⟩
abbrev S1x128 : Shape := ⟨2, ![1, 128]⟩
abbrev S1x10 : Shape := ⟨2, ![1, 10]⟩
abbrev S100000x10 : Shape := ⟨2, ![100000, 10]⟩
abbrev S2000x10 : Shape := ⟨2, ![2000, 10]⟩
abbrev S2000 : Shape := ⟨1, ![2000]⟩
abbrev S2000x1 : Shape := ⟨2, ![2000, 1]⟩

abbrev nBuf : Space → Nat
  | .hbm => 88
  | .vmem => 26
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x10, .f32⟩
  | .hbm, ⟨7, _⟩ => ⟨S10, .f32⟩
  | .hbm, ⟨8, _⟩ => ⟨S100000, .i32⟩
  | .hbm, ⟨9, _⟩ => ⟨S1x1000000, .i32⟩
  | .hbm, ⟨10, _⟩ => ⟨S1000000, .i32⟩
  | .hbm, ⟨11, _⟩ => ⟨S1100000, .i32⟩
  | .hbm, ⟨12, _⟩ => ⟨S1x1000000, .i32⟩
  | .hbm, ⟨13, _⟩ => ⟨S1000000, .i32⟩
  | .hbm, ⟨14, _⟩ => ⟨S1100000, .i32⟩
  | .hbm, ⟨15, _⟩ => ⟨S_, .f32⟩
  | .hbm, ⟨16, _⟩ => ⟨S1100000, .f32⟩
  | .hbm, ⟨17, _⟩ => ⟨S_, .f32⟩
  | .hbm, ⟨18, _⟩ => ⟨S100000, .f32⟩
  | .hbm, ⟨19, _⟩ => ⟨S1100000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1100000, .i32⟩
  | .hbm, ⟨31, _⟩ => ⟨S1100000, .i1⟩
  | .hbm, ⟨32, _⟩ => ⟨S_, .i32⟩
  | .hbm, ⟨33, _⟩ => ⟨S1100000, .i32⟩
  | .hbm, ⟨34, _⟩ => ⟨S1100000, .i32⟩
  | .hbm, ⟨35, _⟩ => ⟨S1100000, .i32⟩
  | .hbm, ⟨36, _⟩ => ⟨S1100000x1, .i32⟩
  | .hbm, ⟨37, _⟩ => ⟨S1100000, .f32⟩
  | .hbm, ⟨38, _⟩ => ⟨S_, .i32⟩
  | .hbm, ⟨39, _⟩ => ⟨S1100000, .i32⟩
  | .hbm, ⟨40, _⟩ => ⟨S1100000, .i1⟩
  | .hbm, ⟨41, _⟩ => ⟨S_, .i32⟩
  | .hbm, ⟨42, _⟩ => ⟨S1100000, .i32⟩
  | .hbm, ⟨43, _⟩ => ⟨S1100000, .i32⟩
  | .hbm, ⟨44, _⟩ => ⟨S1100000, .i32⟩
  | .hbm, ⟨45, _⟩ => ⟨S1100000x1, .i32⟩
  | .hbm, ⟨46, _⟩ => ⟨S1100000, .f32⟩
  | .hbm, ⟨47, _⟩ => ⟨S1100000, .f32⟩
  | .hbm, ⟨48, _⟩ => ⟨S100000x128, .f32⟩
  | .hbm, ⟨49, _⟩ => ⟨S_, .i32⟩
  | .hbm, ⟨50, _⟩ => ⟨S1100000, .i32⟩
  | .hbm, ⟨51, _⟩ => ⟨S1100000, .i1⟩
  | .hbm, ⟨52, _⟩ => ⟨S_, .i32⟩
  | .hbm, ⟨53, _⟩ => ⟨S1100000, .i32⟩
  | .hbm, ⟨54, _⟩ => ⟨S1100000, .i32⟩
  | .hbm, ⟨55, _⟩ => ⟨S1100000, .i32⟩
  | .hbm, ⟨56, _⟩ => ⟨S1100000x1, .i32⟩
  | .hbm, ⟨57, _⟩ => ⟨S1100000x128, .f32⟩
  | .hbm, ⟨58, _⟩ => ⟨S1100000x1, .f32⟩
  | .hbm, ⟨59, _⟩ => ⟨S1100000x128, .f32⟩
  | .hbm, ⟨60, _⟩ => ⟨S1100000x128, .f32⟩
  | .hbm, ⟨61, _⟩ => ⟨S_, .f32⟩
  | .hbm, ⟨62, _⟩ => ⟨S100000x128, .f32⟩
  | .hbm, ⟨63, _⟩ => ⟨S1100000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .i32⟩
  | .hbm, ⟨69, _⟩ => ⟨S1100000, .i32⟩
  | .hbm, ⟨70, _⟩ => ⟨S1100000, .i1⟩
  | .hbm, ⟨71, _⟩ => ⟨S_, .i32⟩
  | .hbm, ⟨72, _⟩ => ⟨S1100000, .i32⟩
  | .hbm, ⟨73, _⟩ => ⟨S1100000, .i32⟩
  | .hbm, ⟨74, _⟩ => ⟨S1100000, .i32⟩
  | .hbm, ⟨75, _⟩ => ⟨S1100000x1, .i32⟩
  | .hbm, ⟨76, _⟩ => ⟨S1100000x128, .f32⟩
  | .hbm, ⟨77, _⟩ => ⟨S1100000x1, .f32⟩
  | .hbm, ⟨78, _⟩ => ⟨S1100000x128, .f32⟩
  | .hbm, ⟨79, _⟩ => ⟨S1100000x128, .f32⟩
  | .hbm, ⟨80, _⟩ => ⟨S_, .f32⟩
  | .hbm, ⟨81, _⟩ => ⟨S100000x128, .f32⟩
  | .hbm, ⟨82, _⟩ => ⟨S1100000x1, .i32⟩
  | .hbm, ⟨83, _⟩ => ⟨S100000x128, .f32⟩
  | .hbm, ⟨84, _⟩ => ⟨S1x128, .f32⟩
  | .hbm, ⟨85, _⟩ => ⟨S100000x128, .f32⟩
  | .hbm, ⟨86, _⟩ => ⟨S1x10, .f32⟩
  | .hbm, ⟨87, _⟩ => ⟨S100000x10, .f32⟩
  | .local _ .vmem, ⟨0, _⟩ => ⟨S2000x64, .f32⟩
  | .local _ .vmem, ⟨1, _⟩ => ⟨S2000x64, .f32⟩
  | .local _ .vmem, ⟨2, _⟩ => ⟨S64x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x10, .f32⟩
  | .local _ .vmem, ⟨23, _⟩ => ⟨S1x10, .f32⟩
  | .local _ .vmem, ⟨24, _⟩ => ⟨S2000x10, .f32⟩
  | .local _ .vmem, ⟨25, _⟩ => ⟨S2000x10, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x10 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x10 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x10 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S2000x128_S2000x128_0_0 : ∀ a, (![0, 0] : Fin 2 → Nat) a + S2000x128.size a ≤ S2000x128.size a
  h_S2000x128 : 0 < S2000x128.numel
  bcast_S1100000x1_S1100000x128_0_1 : S1100000x1.BroadcastsInDim S1100000x128 (![0, 1] : Fin 2 → Fin S1100000x128.rank)
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  shapeCasts_S10_S1x10 : S10.ShapeCasts S1x10
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S2000x10 : S1x10.Broadcasts S2000x10
  reduces_S2000x10_S2000 : S2000x10.Reduces [1] S2000
  shapeCasts_S2000_S2000x1 : S2000.ShapeCasts S2000x1
  broadcasts_S2000x1_S2000x10 : S2000x1.Broadcasts S2000x10
  inb_S2000x10_S2000x10_0_0 : ∀ a, (![0, 0] : Fin 2 → Nat) a + S2000x10.size a ≤ S2000x10.size a
  h_S2000x10 : 0 < S2000x10.numel
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S2000x64_S64x128_S2000x128_1_0_0_1_n_n_wf : DotDims.WF S2000x64 S64x128 S2000x128 [1] [0] [0] [1] [] []
  gather_S100000x128_S1100000x1_S1100000x128_1_0_n_n_0_1_1128_wf : GatherDims.WF S100000x128 S1100000x1 S1100000x128 [1] [0] [] [0] [] 1 ![1, 128]
  scatter_S100000x128_S1100000x1_S1100000x128_1_0_0_1_wf : ScatterDims.WF S100000x128 S1100000x1 S1100000x128 [1] [0] [0] 1
  dot_S2000x128_S128x128_S2000x128_1_0_0_1_n_n_wf : DotDims.WF S2000x128 S128x128 S2000x128 [1] [0] [0] [1] [] []
  dot_S2000x128_S128x10_S2000x10_1_0_0_1_n_n_wf : DotDims.WF S2000x128 S128x10 S2000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S100000x128.size a
  hwx3_2 : ∀ i : grid3.Coords, EltTy.bits .f32 = 32 ∨ (Rect.block (s := S100000x128) S2000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x10.size a ≤ S128x10.size a
  hwx4_1 : ∀ i : grid4.Coords, EltTy.bits .f32 = 32 ∨ (Rect.block (s := S128x10) S128x10.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x10.size a ≤ S1x10.size a
  hwx4_2 : ∀ i : grid4.Coords, EltTy.bits .f32 = 32 ∨ (Rect.block (s := S1x10) S1x10.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x10.size a ≤ S100000x10.size a
  hwx4_3 : ∀ i : grid4.Coords, EltTy.bits .f32 = 32 ∨ (Rect.block (s := S100000x10) S2000x10.size (cc4_transform_3 i) (hinb4_3 i)).WholeWords (EltTy.packing .f32)

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def gather_S100000x128_S1100000x1_S1100000x128_1_0_n_n_0_1_1128 : GatherDims S100000x128 S1100000x1 S1100000x128 where
  offsetDims := [1]
  collapsedSliceDims := [0]
  operandBatchingDims := []
  startIndicesBatchingDims := []
  startIndexMap := [0]
  indexVectorDim := 1
  sliceSizes := ![1, 128]
  wf := gather_S100000x128_S1100000x1_S1100000x128_1_0_n_n_0_1_1128_wf
def scatter_S100000x128_S1100000x1_S1100000x128_1_0_0_1 : ScatterDims S100000x128 S1100000x1 S1100000x128 where
  updateWindowDims := [1]
  insertedWindowDims := [0]
  scatterDimsToOperandDims := [0]
  indexVectorDim := 1
  wf := scatter_S100000x128_S1100000x1_S1100000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x10_S2000x10_1_0_0_1_n_n : DotDims S2000x128 S128x10 S2000x10 where
  lhsContracting := [1]
  rhsContracting := [0]
  lhsNonContracting := [0]
  rhsNonContracting := [1]
  lhsBatch := []
  rhsBatch := []
  wf := dot_S2000x128_S128x10_S2000x10_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x10.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S1x10.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v63) S2000x10.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S64x128 : Shape := ⟨2, ![64, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S100000 : Shape := ⟨1, ![100000]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S100000x128 : Shape := ⟨2, ![100000, 128]⟩
abbrev S1100000x128 : Shape := ⟨2, ![1100000, 128]⟩
abbrev S1x128 : Shape := ⟨2, ![1, 128]⟩
abbrev S100000x10 : Shape := ⟨2, ![100000, 10]⟩
abbrev S1x10 : Shape := ⟨2, ![1, 10]⟩
abbrev S100000x1 : Shape := ⟨2, ![100000, 1]⟩

abbrev nBuf : Space → Nat
  | .hbm => 113
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x10, .f32⟩
  | .hbm, ⟨7, _⟩ => ⟨S10, .f32⟩
  | .hbm, ⟨8, _⟩ => ⟨S100000, .i32⟩
  | .hbm, ⟨9, _⟩ => ⟨S1x1000000, .i32⟩
  | .hbm, ⟨10, _⟩ => ⟨S1000000, .i32⟩
  | .hbm, ⟨11, _⟩ => ⟨S1100000, .i32⟩
  | .hbm, ⟨12, _⟩ => ⟨S1x1000000, .i32⟩
  | .hbm, ⟨13, _⟩ => ⟨S1000000, .i32⟩
  | .hbm, ⟨14, _⟩ => ⟨S1100000, .i32⟩
  | .hbm, ⟨15, _⟩ => ⟨S_, .f32⟩
  | .hbm, ⟨16, _⟩ => ⟨S1100000, .f32⟩
  | .hbm, ⟨17, _⟩ => ⟨S_, .f32⟩
  | .hbm, ⟨18, _⟩ => ⟨S100000, .f32⟩
  | .hbm, ⟨19, _⟩ => ⟨S1100000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1100000, .i32⟩
  | .hbm, ⟨31, _⟩ => ⟨S1100000, .i1⟩
  | .hbm, ⟨32, _⟩ => ⟨S_, .i32⟩
  | .hbm, ⟨33, _⟩ => ⟨S1100000, .i32⟩
  | .hbm, ⟨34, _⟩ => ⟨S1100000, .i32⟩
  | .hbm, ⟨35, _⟩ => ⟨S1100000, .i32⟩
  | .hbm, ⟨36, _⟩ => ⟨S1100000x1, .i32⟩
  | .hbm, ⟨37, _⟩ => ⟨S1100000, .f32⟩
  | .hbm, ⟨38, _⟩ => ⟨S_, .i32⟩
  | .hbm, ⟨39, _⟩ => ⟨S1100000, .i32⟩
  | .hbm, ⟨40, _⟩ => ⟨S1100000, .i1⟩
  | .hbm, ⟨41, _⟩ => ⟨S_, .i32⟩
  | .hbm, ⟨42, _⟩ => ⟨S1100000, .i32⟩
  | .hbm, ⟨43, _⟩ => ⟨S1100000, .i32⟩
  | .hbm, ⟨44, _⟩ => ⟨S1100000, .i32⟩
  | .hbm, ⟨45, _⟩ => ⟨S1100000x1, .i32⟩
  | .hbm, ⟨46, _⟩ => ⟨S1100000, .f32⟩
  | .hbm, ⟨47, _⟩ => ⟨S1100000, .f32⟩
  | .hbm, ⟨48, _⟩ => ⟨S100000x128, .f32⟩
  | .hbm, ⟨49, _⟩ => ⟨S_, .i32⟩
  | .hbm, ⟨50, _⟩ => ⟨S1100000, .i32⟩
  | .hbm, ⟨51, _⟩ => ⟨S1100000, .i1⟩
  | .hbm, ⟨52, _⟩ => ⟨S_, .i32⟩
  | .hbm, ⟨53, _⟩ => ⟨S1100000, .i32⟩
  | .hbm, ⟨54, _⟩ => ⟨S1100000, .i32⟩
  | .hbm, ⟨55, _⟩ => ⟨S1100000, .i32⟩
  | .hbm, ⟨56, _⟩ => ⟨S1100000x1, .i32⟩
  | .hbm, ⟨57, _⟩ => ⟨S1100000x128, .f32⟩
  | .hbm, ⟨58, _⟩ => ⟨S1100000x1, .f32⟩
  | .hbm, ⟨59, _⟩ => ⟨S1100000x128, .f32⟩
  | .hbm, ⟨60, _⟩ => ⟨S1100000x128, .f32⟩
  | .hbm, ⟨61, _⟩ => ⟨S_, .f32⟩
  | .hbm, ⟨62, _⟩ => ⟨S100000x128, .f32⟩
  | .hbm, ⟨63, _⟩ => ⟨S1100000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S_, .i32⟩
  | .hbm, ⟨73, _⟩ => ⟨S1100000, .i32⟩
  | .hbm, ⟨74, _⟩ => ⟨S1100000, .i1⟩
  | .hbm, ⟨75, _⟩ => ⟨S_, .i32⟩
  | .hbm, ⟨76, _⟩ => ⟨S1100000, .i32⟩
  | .hbm, ⟨77, _⟩ => ⟨S1100000, .i32⟩
  | .hbm, ⟨78, _⟩ => ⟨S1100000, .i32⟩
  | .hbm, ⟨79, _⟩ => ⟨S1100000x1, .i32⟩
  | .hbm, ⟨80, _⟩ => ⟨S1100000x128, .f32⟩
  | .hbm, ⟨81, _⟩ => ⟨S1100000x1, .f32⟩
  | .hbm, ⟨82, _⟩ => ⟨S1100000x128, .f32⟩
  | .hbm, ⟨83, _⟩ => ⟨S1100000x128, .f32⟩
  | .hbm, ⟨84, _⟩ => ⟨S_, .f32⟩
  | .hbm, ⟨85, _⟩ => ⟨S100000x128, .f32⟩
  | .hbm, ⟨86, _⟩ => ⟨S1100000x1, .i32⟩
  | .hbm, ⟨87, _⟩ => ⟨S100000x128, .f32⟩
  | .hbm, ⟨88, _⟩ => ⟨S1x128, .f32⟩
  | .hbm, ⟨89, _⟩ => ⟨S100000x128, .f32⟩
  | .hbm, ⟨90, _⟩ => ⟨S100000x128, .f32⟩
  | .hbm, ⟨91, _⟩ => ⟨S_, .f32⟩
  | .hbm, ⟨92, _⟩ => ⟨S100000x128, .f32⟩
  | .hbm, ⟨93, _⟩ => ⟨S100000x128, .f32⟩
  | .hbm, ⟨94, _⟩ => ⟨S100000x10, .f32⟩
  | .hbm, ⟨95, _⟩ => ⟨S1x10, .f32⟩
  | .hbm, ⟨96, _⟩ => ⟨S100000x10, .f32⟩
  | .hbm, ⟨97, _⟩ => ⟨S100000x10, .f32⟩
  | .hbm, ⟨98, _⟩ => ⟨S_, .f32⟩
  | .hbm, ⟨99, _⟩ => ⟨S100000, .f32⟩
  | .hbm, ⟨100, _⟩ => ⟨S_, .f32⟩
  | .hbm, ⟨101, _⟩ => ⟨S100000, .f32⟩
  | .hbm, ⟨102, _⟩ => ⟨S100000, .f32⟩
  | .hbm, ⟨103, _⟩ => ⟨S100000x1, .f32⟩
  | .hbm, ⟨104, _⟩ => ⟨S100000x10, .f32⟩
  | .hbm, ⟨105, _⟩ => ⟨S100000x10, .f32⟩
  | .hbm, ⟨106, _⟩ => ⟨S100000x10, .f32⟩
  | .hbm, ⟨107, _⟩ => ⟨S_, .f32⟩
  | .hbm, ⟨108, _⟩ => ⟨S100000, .f32⟩
  | .hbm, ⟨109, _⟩ => ⟨S100000x1, .f32⟩
  | .hbm, ⟨110, _⟩ => ⟨S100000x1, .f32⟩
  | .hbm, ⟨111, _⟩ => ⟨S100000x10, .f32⟩
  | .hbm, ⟨112, _⟩ => ⟨S100000x10, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_call3_cst : Ref sig .tc := ⟨.hbm, 98, rfl⟩
abbrev main_call3_v0 : Ref sig .tc := ⟨.hbm, 99, rfl⟩
abbrev main_call3_cst_0 : Ref sig .tc := ⟨.hbm, 100, rfl⟩
abbrev main_call3_v1 : Ref sig .tc := ⟨.hbm, 101, rfl⟩
abbrev main_call3_v2 : Ref sig .tc := ⟨.hbm, 102, rfl⟩
abbrev main_call3_v3 : Ref sig .tc := ⟨.hbm, 103, rfl⟩
abbrev main_call3_v4 : Ref sig .tc := ⟨.hbm, 104, rfl⟩
abbrev main_call3_v5 : Ref sig .tc := ⟨.hbm, 105, rfl⟩
abbrev main_call3_v6 : Ref sig .tc := ⟨.hbm, 106, rfl⟩
abbrev main_call3_cst_1 : Ref sig .tc := ⟨.hbm, 107, rfl⟩
abbrev main_call3_v7 : Ref sig .tc := ⟨.hbm, 108, rfl⟩
abbrev main_call3_v8 : Ref sig .tc := ⟨.hbm, 109, rfl⟩
abbrev main_call3_v9 : Ref sig .tc := ⟨.hbm, 110, rfl⟩
abbrev main_call3_v10 : Ref sig .tc := ⟨.hbm, 111, rfl⟩
abbrev main_v70 : Ref sig .tc := ⟨.hbm, 112, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bcast_S1100000x1_S1100000x128_0_1 : S1100000x1.BroadcastsInDim S1100000x128 (![0, 1] : Fin 2 → Fin S1100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  reducesTo_S100000x10_S100000_d1 : S100000x10.ReducesTo [1] S100000
  h_S_ : 0 < S_.numel
  bcast_S100000_S100000x1_0 : S100000.BroadcastsInDim S100000x1 (![0] : Fin 1 → Fin S100000x1.rank)
  bcast_S100000x1_S100000x10_0_1 : S100000x1.BroadcastsInDim S100000x10 (![0, 1] : Fin 2 → Fin S100000x10.rank)
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S100000x64_S64x128_S100000x128_1_0_0_1_n_n_wf : DotDims.WF S100000x64 S64x128 S100000x128 [1] [0] [0] [1] [] []
  gather_S100000x128_S1100000x1_S1100000x128_1_0_n_n_0_1_1128_wf : GatherDims.WF S100000x128 S1100000x1 S1100000x128 [1] [0] [] [0] [] 1 ![1, 128]
  scatter_S100000x128_S1100000x1_S1100000x128_1_0_0_1_wf : ScatterDims.WF S100000x128 S1100000x1 S1100000x128 [1] [0] [0] 1
  dot_S100000x128_S128x128_S100000x128_1_0_0_1_n_n_wf : DotDims.WF S100000x128 S128x128 S100000x128 [1] [0] [0] [1] [] []
  dot_S100000x128_S128x10_S100000x10_1_0_0_1_n_n_wf : DotDims.WF S100000x128 S128x10 S100000x10 [1] [0] [0] [1] [] []

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1100000x1_S1100000x128_1_0_n_n_0_1_1128 : GatherDims S100000x128 S1100000x1 S1100000x128 where
  offsetDims := [1]
  collapsedSliceDims := [0]
  operandBatchingDims := []
  startIndicesBatchingDims := []
  startIndexMap := [0]
  indexVectorDim := 1
  sliceSizes := ![1, 128]
  wf := gather_S100000x128_S1100000x1_S1100000x128_1_0_n_n_0_1_1128_wf
def scatter_S100000x128_S1100000x1_S1100000x128_1_0_0_1 : ScatterDims S100000x128 S1100000x1 S1100000x128 where
  updateWindowDims := [1]
  insertedWindowDims := [0]
  scatterDimsToOperandDims := [0]
  indexVectorDim := 1
  wf := scatter_S100000x128_S1100000x1_S1100000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x10_S100000x10_1_0_0_1_n_n : DotDims S100000x128 S128x10 S100000x10 where
  lhsContracting := [1]
  rhsContracting := [0]
  lhsNonContracting := [0]
  rhsNonContracting := [1]
  lhsBatch := []
  rhsBatch := []
  wf := dot_S100000x128_S128x10_S100000x10_1_0_0_1_n_n_wf

class Facts : Prop extends Facts₀ where

variable [Facts]
-- ==== Proof.KRun.lean ====
/-
  The kernel's program, run: every weakly fair execution from a memory with zero counters ends, nothing faulting, and
  in every final state each buffer of the TensorCore that is not scoped to a region holds what the last segment
  boundary's contents say. Those contents are a fold through the program's eleven segments: a stretch of host
  operations applies them in order to the contents before it; a region leaves each of its arrays at what its
  write-backs accumulate over the grid and every other buffer as it found it. The value of any buffer at the end, the
  result among them, is then read off that fold.
-/
import proofs.«156194_j88519275971050_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the final contents exposed: on every core, every unscoped buffer ends at the last boundary's
    contents. -/
theorem run_final : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

end Cert.KernelIdeal.Hand

end
-- ==== Proof.Spec.lean ====
/-
  The graph network both programs compute, as one function of the argument arrays, stage by stage, on the extended
  reals, written with the host's operations on whole arrays.

  From the 2 by 1000000 edge list: the source and destination vectors with the 100000 self loops appended; the
  in-degree of every node as a scatter-add of ones at the destinations; its inverse square root where the degree is
  positive, zero elsewhere; the edge weight as the product of that quantity gathered at the source and at the
  destination (a negative index wraps around once before the gather). A graph-convolution layer multiplies the node
  features by a weight matrix, gathers the rows at the sources, scales each row by its edge weight, scatter-adds the
  rows at the destinations, adds a bias row and clamps below at zero. The output is the row-wise log-softmax of a last
  dense layer on the second layer's features.
-/
import proofs.«156194_j88519275971050_1_alg».proof.Proof.Gen.ReferenceIdeal
import Idealize.ShloMosaic.PureOps.Ideal

noncomputable section

namespace Cert.Gcn

open Idealize.ShloMosaic Cert.ReferenceIdeal Cert.ReferenceIdeal.Facts₀

/-- A 32-bit integer array and a float array of a shape, at the ideal instance. -/
abbrev IArr (s : Shape) := IVec s 32
abbrev FArr (s : Shape) := FVec Ideal s .f32

/-- Row 0 of the edge list, then 0 … 99999: where each message comes from. -/
def src (ei : IArr S2x1000000) : IArr S1100000 :=
  concatenate S1100000 0 [⟨S1000000, (shapeCast S1000000 (extractStridedSlice S1x1000000 ![0, 0] ei slices_S2x1000000_S1x1000000_0_0) shapeCasts_S1x1000000_S1000000)⟩, ⟨S100000, (iotaInDim S100000 32 0)⟩] concatenates_S1000000_S100000_S1100000_d0

/-- Row 1 of the edge list, then 0 … 99999: where each message goes. -/
def dst (ei : IArr S2x1000000) : IArr S1100000 :=
  concatenate S1100000 0 [⟨S1000000, (shapeCast S1000000 (extractStridedSlice S1x1000000 ![1, 0] ei slices_S2x1000000_S1x1000000_1_0) shapeCasts_S1x1000000_S1000000)⟩, ⟨S100000, (iotaInDim S100000 32 0)⟩] concatenates_S1000000_S100000_S1100000_d0

/-- A negative index counts from the end: 100000 is added to it. -/
def wrap (idx : IArr S1100000) : IArr S1100000 :=
  select (cmpi .slt idx (broadcastInDim S1100000 ![] bcast_S_S1100000 (constantI S_ 32 0#32))) (addi idx (broadcastInDim S1100000 ![] bcast_S_S1100000 (constantI S_ 32 100000#32))) idx

/-- The number of messages arriving at each node. -/
def degOf (d : IArr S1100000) : FArr S100000 :=
  Host.scatterAdd scatter_S100000_S1100000x1_S1100000_n_0_0_1 (broadcastInDim S100000 ![] bcast_S_S100000 (constant (F := Ideal) S_ .f32 0x00000000#32)) (broadcastInDim S1100000x1 ![0] bcast_S1100000_S1100000x1_0 d) (broadcastInDim S1100000 ![] bcast_S_S1100000 (constant (F := Ideal) S_ .f32 0x3F800000#32))

/-- Its inverse square root where positive, zero elsewhere. -/
def dinvOf (dg : FArr S100000) : FArr S100000 :=
  select (cmpf (F := Ideal) .ogt dg (broadcastInDim S100000 ![] bcast_S_S100000 (constant (F := Ideal) S_ .f32 0x00000000#32))) (Host.rsqrt dg) (broadcastInDim S100000 ![] bcast_S_S100000 (constant (F := Ideal) S_ .f32 0x00000000#32))

/-- The weight of each message: the product of that quantity at its source and at its destination. -/
def normOf (s d : IArr S1100000) (dv : FArr S100000) : FArr S1100000 :=
  mulf (Host.gather gather_S100000_S1100000x1_S1100000_n_0_n_n_0_1_1 dv (broadcastInDim S1100000x1 ![0] bcast_S1100000_S1100000x1_0 (wrap s))) (Host.gather gather_S100000_S1100000x1_S1100000_n_0_n_n_0_1_1 dv (broadcastInDim S1100000x1 ![0] bcast_S1100000_S1100000x1_0 (wrap d)))

/-- The weights from the edge list. -/
def norm (ei : IArr S2x1000000) : FArr S1100000 := normOf (src ei) (dst ei) (dinvOf (degOf (dst ei)))

/-- Gather the rows of h at the sources, scale each by its weight, add them up at the destinations. -/
def aggOf (s d : IArr S1100000) (nrm : FArr S1100000) (h : FArr S100000x128) : FArr S100000x128 :=
  Host.scatterAdd scatter_S100000x128_S1100000x1_S1100000x128_1_0_0_1 (broadcastInDim S100000x128 ![] bcast_S_S100000x128 (constant (F := Ideal) S_ .f32 0x00000000#32)) (broadcastInDim S1100000x1 ![0] bcast_S1100000_S1100000x1_0 d) (mulf (Host.gather gather_S100000x128_S1100000x1_S1100000x128_1_0_n_n_0_1_1128 h (broadcastInDim S1100000x1 ![0] bcast_S1100000_S1100000x1_0 (wrap s))) (broadcastInDim S1100000x128 ![0, 1] bcast_S1100000x1_S1100000x128_0_1 (broadcastInDim S1100000x1 ![0] bcast_S1100000_S1100000x1_0 nrm)))

/-- Add a 1 by 128 bias row to every row and clamp below at zero. -/
def biasReluRow (a : FArr S100000x128) (brow : FArr S1x128) : FArr S100000x128 :=
  maximumf (addf a (broadcastInDim S100000x128 ![0, 1] bcast_S1x128_S100000x128_0_1 brow)) (broadcastInDim S100000x128 ![] bcast_S_S100000x128 (constant (F := Ideal) S_ .f32 0x00000000#32))

/-- The same from the bias vector. -/
def biasRelu (a : FArr S100000x128) (b : FArr S128) : FArr S100000x128 :=
  biasReluRow a (broadcastInDim S1x128 ![1] bcast_S128_S1x128_1 b)

/-- The first layer (64 input features) and the second (128). -/
def layer1 (ei : IArr S2x1000000) (x : FArr S100000x64) (W : FArr S64x128) (b : FArr S128) : FArr S100000x128 :=
  biasRelu (aggOf (src ei) (dst ei) (norm ei) (Host.dotGeneral dot_S100000x64_S64x128_S100000x128_1_0_0_1_n_n none x W)) b
def layer2 (ei : IArr S2x1000000) (h : FArr S100000x128) (W : FArr S128x128) (b : FArr S128) : FArr S100000x128 :=
  biasRelu (aggOf (src ei) (dst ei) (norm ei) (Host.dotGeneral dot_S100000x128_S128x128_S100000x128_1_0_0_1_n_n none h W)) b

/-- The last dense layer against a 1 by 10 bias row, and from the bias vector. -/
def logitsRow (h : FArr S100000x128) (Wl : FArr S128x10) (brow : FArr S1x10) : FArr S100000x10 :=
  addf (Host.dotGeneral dot_S100000x128_S128x10_S100000x10_1_0_0_1_n_n none h Wl) (broadcastInDim S100000x10 ![0, 1] bcast_S1x10_S100000x10_0_1 brow)
def logits (h : FArr S100000x128) (Wl : FArr S128x10) (bl : FArr S10) : FArr S100000x10 :=
  logitsRow h Wl (broadcastInDim S1x10 ![1] bcast_S10_S1x10_1 bl)

/-- Each row's largest entry, as a column spread back over the row. -/
def rowMaxSpread (z : FArr S100000x10) : FArr S100000x10 :=
  broadcastInDim S100000x10 ![0, 1] bcast_S100000x1_S100000x10_0_1 (broadcastInDim S100000x1 ![0] bcast_S100000_S100000x1_0 (maximumf (broadcastInDim S100000 ![] bcast_S_S100000 (constant (F := Ideal) S_ .f32 0xFF800000#32)) (Host.reduce FloatOps.maximumf z (constant (F := Ideal) S_ .f32 0xFF800000#32) reducesTo_S100000x10_S100000_d1 h_S_)))

/-- The row-wise log-softmax. -/
def logSoftmax (z : FArr S100000x10) : FArr S100000x10 :=
  subf (subf z (rowMaxSpread z)) (broadcastInDim S100000x10 ![0, 1] bcast_S100000x1_S100000x10_0_1 (Host.log (broadcastInDim S100000x1 ![0] bcast_S100000_S100000x1_0 (Host.reduceAdd (Host.exp (subf z (rowMaxSpread z))) (constant (F := Ideal) S_ .f32 0x00000000#32) reducesTo_S100000x10_S100000_d1 h_S_))))

/-- The whole network. -/
def out (x : FArr S100000x64) (ei : IArr S2x1000000) (W1 : FArr S64x128) (b1 : FArr S128) (W2 : FArr S128x128) (b2 : FArr S128)
    (Wl : FArr S128x10) (bl : FArr S10) : FArr S100000x10 :=
  logSoftmax (logits (layer2 ei (layer1 ei x W1 b1) W2 b2) Wl bl)

end Cert.Gcn

end
-- ==== Proof.LibMatmulRows.lean ====
/-
  A rank-2 by rank-2 matrix product read at an index, at the ideal instance.

  For dimension numbers that contract the left operand's axis 1 with the right operand's axis 0 and have no batch
  axis, the entry (r, c) of the product into a zero accumulator is the plain sum over k of a(r, k) * b(k, c) on the
  extended reals; the same for the host's dot_general. The two side facts about the free axes (hl0, hr1) are
  decided once per literal record of dimension numbers.
-/
import Idealize.ShloMosaic.PureOps.Ideal.Laws
import Idealize.ShloMosaic.Lib.ValueIdx

noncomputable section

namespace Idealize.ShloMosaic.MatmulRows

open Idealize.ShloMosaic Idealize.ShloMosaic.ValueIdx

variable {M K N : Nat} {φ₁ φ₂ : FTy}

/-- The operand indices of such a product at output index `i` and contraction position `k` are (i 0, k) and (k, i 1). -/
theorem operand_indices
    (d : DotDims (⟨2, ![M, K]⟩ : Shape) (⟨2, ![K, N]⟩ : Shape) (⟨2, ![M, N]⟩ : Shape))
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (i : (⟨2, ![M, N]⟩ : Shape).Idx) (k : Fin K) :
    d.lhsIdx i ((contrEquiv1 d K hrk hs).symm k) = ix2 (i 0) k
    ∧ d.rhsIdx i ((contrEquiv1 d K hrk hs).symm k) = ix2 k (i 1) := by
  have hk := contrEquiv1_symm_val d K hrk hs k
  constructor
  · funext ax
    apply Fin.ext
    match ax with
    | ⟨0, _⟩ => exact hl0 _ _
    | ⟨1, _⟩ => exact (d.lhsIdx_val_of_single hcl _ _).trans hk
  · funext ax
    apply Fin.ext
    match ax with
    | ⟨0, _⟩ => exact (d.rhsIdx_val_of_single hcr _ _).trans hk
    | ⟨1, _⟩ => exact hr1 _ _

/-- A kernel's matrix product into the zero accumulator, entry by entry. -/
theorem matmul_zero_apply
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.matmul d prec a b (constant (F := Ideal) (⟨2, ![M, N]⟩ : Shape) .f32 0x00000000#32) i
      = ∑ k : Fin K, a (ix2 (i 0) k) * b (ix2 k (i 1)) := by
  rw [Ideal.matmul_constant_zero_apply, ← Equiv.sum_comp (contrEquiv1 d K hrk hs).symm]
  refine Finset.sum_congr rfl fun k _ => ?_
  obtain ⟨el, er⟩ := operand_indices d hcl hcr hrk hs hl0 hr1 i k
  rw [el, er]
  rfl

/-- The same with the factors named: whatever the left operand's row and the right operand's column are known to be. -/
theorem matmul_zero_rows
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) (L R : Fin K → EReal)
    (hl : ∀ k, a (ix2 (i 0) k) = L k) (hr : ∀ k, b (ix2 k (i 1)) = R k) :
    FloatOps.matmul d prec a b (constant (F := Ideal) (⟨2, ![M, N]⟩ : Shape) .f32 0x00000000#32) i
      = ∑ k : Fin K, L k * R k :=
  (matmul_zero_apply d prec hcl hcr hrk hs hl0 hr1 a b i).trans
    (Finset.sum_congr rfl fun k _ => by rw [hl k, hr k])

/-- The host's dot_general, entry by entry: the same sum. -/
theorem dotGeneral_apply
    (d : DotDims (⟨2, ![M, K]⟩ : Shape) (⟨2, ![K, N]⟩ : Shape) (⟨2, ![M, N]⟩ : Shape)) (prec : Option ContractPrecision)
    (sched : HostSchedule)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.dotGeneral d prec sched a b i = ∑ k : Fin K, a (ix2 (i 0) k) * b (ix2 k (i 1)) := by
  rw [Ideal.dotGeneral_apply, ← Equiv.sum_comp (contrEquiv1 d K hrk hs).symm]
  refine Finset.sum_congr rfl fun k _ => ?_
  obtain ⟨el, er⟩ := operand_indices d hcl hcr hrk hs hl0 hr1 i k
  rw [el, er]
  rfl

end Idealize.ShloMosaic.MatmulRows

end
-- ==== Proof.Region0.lean ====
/-
  Region 0 of the kernel's program is a matrix product, one block of 2000 rows per grid point.

  At a point t the body loads rows 2000 t … 2000 t + 1999 of the left operand (a 100000 by 64 array) and the whole right
  operand (64 by 128), rounds both to bf16 (the identity on the extended reals), multiplies them into a zero
  accumulator and stores the 2000 by 128 product, which is written back as rows 2000 t … 2000 t + 1999 of the
  result. Entry (p, q) of the block is the sum over k of left(2000 t + p, k) · right(k, q): entry (2000 t + p, q) of the
  host's dot_general of the two whole arrays. The 50 blocks tile the 100000 rows, so after the region the result
  array is that dot_general.
-/
import proofs.«156194_j88519275971050_1_alg».proof.Proof.Gen.KernelIdeal.Frame
import proofs.«156194_j88519275971050_1_alg».proof.Proof.Gen.ReferenceIdeal
import proofs.«156194_j88519275971050_1_alg».proof.Proof.LibMatmulRows
import Idealize.ShloMosaic.Lib.Pipeline.Value
import Idealize.ShloMosaic.Lib.ValueIdx

set_option maxRecDepth 16384

noncomputable section

namespace Cert.KernelIdeal.Hand.R0

open Cert.KernelIdeal Cert.KernelIdeal.Gen
open Idealize.ShloMosaic Idealize.ShloMosaic.TcCoe Idealize.SL.Sem Idealize.ShloMosaic.ValueIdx
open Idealize.ShloMosaic.Pipeline (Dat)

/-- The host's product of the two whole arrays: what the region's result array ends holding. -/
abbrev G (X : FVec Ideal S100000x64 .f32) (W : FVec Ideal S64x128 .f32) : FVec Ideal S100000x128 .f32 :=
  Host.dotGeneral Cert.ReferenceIdeal.dot_S100000x64_S64x128_S100000x128_1_0_0_1_n_n none X W

theorem hz2 : (![0, 0] : Fin 2 → Nat) = fun _ => 0 := funext fun a => by fin_cases a <;> rfl

/-! ## The two records of dimension numbers: the free axes -/

theorem kd_l0 (i : S2000x128.Idx) (q : dot_S2000x64_S64x128_S2000x128_1_0_0_1_n_n.contr.Idx) :
    (dot_S2000x64_S64x128_S2000x128_1_0_0_1_n_n.lhsIdx i q 0).val = (i 0).val := by
  unfold DotDims.lhsIdx
  rw [dif_neg (show ¬(0 : Fin S2000x64.rank) ∈ dot_S2000x64_S64x128_S2000x128_1_0_0_1_n_n.lhsBatch by decide),
    dif_pos (show (0 : Fin S2000x64.rank) ∈ dot_S2000x64_S64x128_S2000x128_1_0_0_1_n_n.lhsNonContracting by decide)]
  rfl

theorem kd_r1 (i : S2000x128.Idx) (q : dot_S2000x64_S64x128_S2000x128_1_0_0_1_n_n.contr.Idx) :
    (dot_S2000x64_S64x128_S2000x128_1_0_0_1_n_n.rhsIdx i q 1).val = (i 1).val := by
  unfold DotDims.rhsIdx
  rw [dif_neg (show ¬(1 : Fin S64x128.rank) ∈ dot_S2000x64_S64x128_S2000x128_1_0_0_1_n_n.rhsBatch by decide),
    dif_pos (show (1 : Fin S64x128.rank) ∈ dot_S2000x64_S64x128_S2000x128_1_0_0_1_n_n.rhsNonContracting by decide)]
  rfl

theorem hd_l0 (i : S100000x128.Idx) (q : Cert.ReferenceIdeal.dot_S100000x64_S64x128_S100000x128_1_0_0_1_n_n.contr.Idx) :
    (Cert.ReferenceIdeal.dot_S100000x64_S64x128_S100000x128_1_0_0_1_n_n.lhsIdx i q 0).val = (i 0).val := by
  unfold DotDims.lhsIdx
  rw [dif_neg (show ¬(0 : Fin S100000x64.rank) ∈ Cert.ReferenceIdeal.dot_S100000x64_S64x128_S100000x128_1_0_0_1_n_n.lhsBatch by decide),
    dif_pos (show (0 : Fin S100000x64.rank) ∈ Cert.ReferenceIdeal.dot_S100000x64_S64x128_S100000x128_1_0_0_1_n_n.lhsNonContracting by decide)]
  rfl

theorem hd_r1 (i : S100000x128.Idx) (q : Cert.ReferenceIdeal.dot_S100000x64_S64x128_S100000x128_1_0_0_1_n_n.contr.Idx) :
    (Cert.ReferenceIdeal.dot_S100000x64_S64x128_S100000x128_1_0_0_1_n_n.rhsIdx i q 1).val = (i 1).val := by
  unfold DotDims.rhsIdx
  rw [dif_neg (show ¬(1 : Fin S64x128.rank) ∈ Cert.ReferenceIdeal.dot_S100000x64_S64x128_S100000x128_1_0_0_1_n_n.rhsBatch by decide),
    dif_pos (show (1 : Fin S64x128.rank) ∈ Cert.ReferenceIdeal.dot_S100000x64_S64x128_S100000x128_1_0_0_1_n_n.rhsNonContracting by decide)]
  rfl

/-! ## One entry of a block -/

/-- Entry (p, q) of the body's product of a block whose row p is row r of X, against W, is entry (r, q) of the host's
    product of X and W: the same sum over k. -/
theorem pay_entry (x0 : Vec Ideal S2000x64 .f32) (x1 : Vec Ideal S64x128 .f32)
    (X : FVec Ideal S100000x64 .f32) (W : FVec Ideal S64x128 .f32)
    (p : Fin 2000) (q : Fin 128) (r : Fin 100000)
    (hrow : ∀ k : Fin 64, x0 (ix2 p k) = X (ix2 r k)) (hw : ∀ k : Fin 64, x1 (ix2 k q) = W (ix2 k q)) :
    k0_pay1 (F := Ideal) x0 x1 (ix2 p q) = G X W (ix2 r q) := by
  unfold k0_pay1
  refine (MatmulRows.matmul_zero_rows dot_S2000x64_S64x128_S2000x128_1_0_0_1_n_n none rfl rfl rfl rfl kd_l0 kd_r1 _ _ (ix2 p q)
    (fun k => X (ix2 r k)) (fun k => W (ix2 k q)) (fun k => hrow k) (fun k => hw k)).trans ?_
  exact (MatmulRows.dotGeneral_apply Cert.ReferenceIdeal.dot_S100000x64_S64x128_S100000x128_1_0_0_1_n_n none _ rfl rfl rfl rfl hd_l0 hd_r1 X W (ix2 r q)).symm

/-! ## From blocks to the array -/

variable (V : (c : Dev nD) → (b : Ref sig .tc) → Buf (Elt Ideal) ((c : Thread nD τ).loc b))

/-- The printed index maps, decided over the grid: the left operand's block and the result's block move together along
    the rows, every other block index is zero, and the row block index stays below 50. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 49 :=
  (by decide +kernel : ∀ t : Fin grid0.N, _)

/-- Every row block is some point's. -/
theorem idx_onto : ∀ q0 : Fin 50, ∃ t : Fin cfg0.N, win0_2.index t = ![q0.val, 0] :=
  (by decide +kernel : ∀ q0 : Fin 50, ∃ t : Fin grid0.N, win0_2.index t = ![q0.val, 0])

/-- What point t writes back is block t of the host's product of the two arrays as the region finds them. -/
theorem flushed_eq (c : Dev nD) (t : Fin cfg0.N) :
    (dat0 V c).flushed 2 t = ((cfg0.win 2).blk t).view.read (Elt Ideal) (G (V c main_arg0) (V c main_arg2)) := by
  show (cfg0.win 2).cut (grid0.coords t) ((dat0 V c).after 2 t) = _
  rw [after0_2]
  unfold out0_2
  rw [View.canon_unit_zero hz2]
  simp only [View.ld_unit_zero (S := S2000x64) hz2, View.ld_unit_zero (S := S64x128) hz2]
  obtain ⟨e0, e1, e2, e3, e4, e5⟩ := idx_facts t
  funext j
  obtain ⟨p, q, rfl⟩ : ∃ (p : Fin 2000) (q : Fin 128), j = ix2 p q := ⟨j 0, j 1, eq_ix2 j⟩
  have hr : win0_2.index t (0 : Fin 2) * 2000 + 1 * p.val < 100000 := by have := p.isLt; omega
  show k0_pay1 (iblk0 V c 0 t) (iblk0 V c 1 t) (ix2 p q) = G (V c main_arg0) (V c main_arg2) (((cfg0.win 2).blk t).view.emb (ix2 p q))
  have hemb : ((cfg0.win 2).blk t).view.emb (ix2 p q) = ix2 (⟨win0_2.index t (0 : Fin 2) * 2000 + 1 * p.val, hr⟩ : Fin 100000) q := by
    funext a; apply Fin.ext
    match a with
    | ⟨0, _⟩ => rfl
    | ⟨1, _⟩ => show win0_2.index t (1 : Fin 2) * 128 + 1 * q.val = q.val; omega
  rw [hemb]
  refine pay_entry _ _ _ _ p q _ (fun k => ?_) (fun k => ?_)
  · show V c main_arg0 (((cfg0.win 0).blk t).view.emb (ix2 p k)) = V c main_arg0 (ix2 _ k)
    refine congrArg (V c main_arg0) ?_
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 64 + 1 * k.val = k.val; omega
  · show V c main_arg2 (((cfg0.win 1).blk t).view.emb (ix2 k q)) = V c main_arg2 (ix2 k q)
    refine congrArg (V c main_arg2) ?_
    funext a; apply Fin.ext
    match a with
    | ⟨0, _⟩ => show win0_1.index t (0 : Fin 2) * 64 + 1 * k.val = k.val; omega
    | ⟨1, _⟩ => show win0_1.index t (1 : Fin 2) * 128 + 1 * q.val = q.val; omega

/-- An index of the result array is in point t's block iff each coordinate is in the block's range on its axis. -/
theorem mem_blk (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v30).slice (win0_2.rect t)).set ↔ _
  rw [View.set_slice_whole, Rect.mem_set_unit]
  exact Iff.rfl

/-- Every index of the result array lies in the block of the point whose row block holds its row. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The result array after the region: the host's product of the two operand arrays as the region finds them. -/
theorem final (c : Dev nD) : (dat0 V c).arrAt 2 cfg0.N = G (V c main_arg0) (V c main_arg2) :=
  (dat0 V c).arrAt_eq_of_cover 2 (G (V c main_arg0) (V c main_arg2)) (fun t _ => flushed_eq V c t) cover

end Cert.KernelIdeal.Hand.R0

end
-- ==== Proof.LibHostBroadcast.lean ====
/-
  The host's broadcast_in_dim in the few forms a dense layer uses, read at an index.

  A scalar spread over any shape; a length-b vector made a 1 by b row and the row repeated down a rows (a bias); a
  length-a vector made an a by 1 column and the column repeated across b columns (a per-row quantity kept as a column).
-/
import Idealize.ShloMosaic.Lib.Pipeline.Value
import Idealize.ShloMosaic.Lib.ValueIdx

namespace Idealize.ShloMosaic.HostBroadcast

open Idealize.ShloMosaic Idealize.ShloMosaic.ValueIdx Idealize.ShloMosaic.Pipeline

variable {α : Type}

/-- A scalar broadcast to any shape reads the scalar everywhere. -/
theorem scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-- A length-b vector as a 1 by b row. -/
theorem vec_row_apply {b : ℕ} (h : (⟨1, ![b]⟩ : Shape).BroadcastsInDim ⟨2, ![1, b]⟩ ![1])
    (x : (⟨1, ![b]⟩ : Shape).Idx → α) (j : (⟨2, ![1, b]⟩ : Shape).Idx) :
    broadcastInDim ⟨2, ![1, b]⟩ ![1] h x j = x (ix1 (j 1)) :=
  broadcastInDim_apply _ h x j (ix1 (j 1)) (fun a => match a with
    | ⟨0, _⟩ => by
      show (j 1).val = if b = 1 then 0 else (j 1).val
      split
      · have := (j 1).isLt; simp at this; omega
      · rfl)

/-- A 1 by b row repeated down a rows. -/
theorem row_rows_apply {a b : ℕ} (h : (⟨2, ![1, b]⟩ : Shape).BroadcastsInDim ⟨2, ![a, b]⟩ ![0, 1])
    (x : (⟨2, ![1, b]⟩ : Shape).Idx → α) (j : (⟨2, ![a, b]⟩ : Shape).Idx) :
    broadcastInDim ⟨2, ![a, b]⟩ ![0, 1] h x j = x (ix2 (0 : Fin 1) (j 1)) :=
  broadcastInDim_apply _ h x j (ix2 (0 : Fin 1) (j 1)) (fun ax => match ax with
    | ⟨0, _⟩ => by
      show 0 = if (1 : ℕ) = 1 then 0 else (j 0).val
      rw [if_pos rfl]
    | ⟨1, _⟩ => by
      show (j 1).val = if b = 1 then 0 else (j 1).val
      split
      · have := (j 1).isLt; simp at this; omega
      · rfl)

/-- A bias: the vector at the column, whatever the row. -/
theorem bias_apply {a b : ℕ} (h1 : (⟨1, ![b]⟩ : Shape).BroadcastsInDim ⟨2, ![1, b]⟩ ![1])
    (h2 : (⟨2, ![1, b]⟩ : Shape).BroadcastsInDim ⟨2, ![a, b]⟩ ![0, 1])
    (x : (⟨1, ![b]⟩ : Shape).Idx → α) (j : (⟨2, ![a, b]⟩ : Shape).Idx) :
    broadcastInDim ⟨2, ![a, b]⟩ ![0, 1] h2 (broadcastInDim ⟨2, ![1, b]⟩ ![1] h1 x) j = x (ix1 (j 1)) :=
  (row_rows_apply h2 _ j).trans (vec_row_apply h1 x _)

/-- A length-a vector as an a by 1 column. -/
theorem vec_col_apply {a : ℕ} (h : (⟨1, ![a]⟩ : Shape).BroadcastsInDim ⟨2, ![a, 1]⟩ ![0])
    (x : (⟨1, ![a]⟩ : Shape).Idx → α) (j : (⟨2, ![a, 1]⟩ : Shape).Idx) :
    broadcastInDim ⟨2, ![a, 1]⟩ ![0] h x j = x (ix1 (j 0)) :=
  broadcastInDim_apply _ h x j (ix1 (j 0)) (fun ax => match ax with
    | ⟨0, _⟩ => by
      show (j 0).val = if a = 1 then 0 else (j 0).val
      split
      · have := (j 0).isLt; simp at this; omega
      · rfl)

/-- An a by 1 column repeated across b columns. -/
theorem col_cols_apply {a b : ℕ} (h : (⟨2, ![a, 1]⟩ : Shape).BroadcastsInDim ⟨2, ![a, b]⟩ ![0, 1])
    (x : (⟨2, ![a, 1]⟩ : Shape).Idx → α) (j : (⟨2, ![a, b]⟩ : Shape).Idx) :
    broadcastInDim ⟨2, ![a, b]⟩ ![0, 1] h x j = x (ix2 (j 0) (0 : Fin 1)) :=
  broadcastInDim_apply _ h x j (ix2 (j 0) (0 : Fin 1)) (fun ax => match ax with
    | ⟨0, _⟩ => by
      show (j 0).val = if a = 1 then 0 else (j 0).val
      split
      · have := (j 0).isLt; simp at this; omega
      · rfl
    | ⟨1, _⟩ => by
      show 0 = if (1 : ℕ) = 1 then 0 else (j 1).val
      rw [if_pos rfl])

/-- A per-row quantity kept as a column and spread over the row. -/
theorem column_apply {a b : ℕ} (h1 : (⟨1, ![a]⟩ : Shape).BroadcastsInDim ⟨2, ![a, 1]⟩ ![0])
    (h2 : (⟨2, ![a, 1]⟩ : Shape).BroadcastsInDim ⟨2, ![a, b]⟩ ![0, 1])
    (x : (⟨1, ![a]⟩ : Shape).Idx → α) (j : (⟨2, ![a, b]⟩ : Shape).Idx) :
    broadcastInDim ⟨2, ![a, b]⟩ ![0, 1] h2 (broadcastInDim ⟨2, ![a, 1]⟩ ![0] h1 x) j = x (ix1 (j 0)) :=
  (col_cols_apply h2 _ j).trans (vec_col_apply h1 x _)

end Idealize.ShloMosaic.HostBroadcast
-- ==== Proof.Region1.lean ====
/-
  Region 1 of the kernel's program adds a bias row and clamps below at zero, one block of 2000 rows per grid point.

  At a point t the body loads rows 2000 t … 2000 t + 1999 of the aggregated messages (a 100000 by 128 array) and the
  bias as a 1 by 128 row, repeats the row down the 2000 rows, adds, takes the maximum with zero and stores the block,
  which is written back as rows 2000 t … 2000 t + 1999 of the result. Entry (p, q) of the block is
  max (a(2000 t + p, q) + b(0, q), 0): entry (2000 t + p, q) of the host's maximum of (a plus the row repeated down
  100000 rows) and a splat of zero. The 50 blocks tile the 100000 rows.
-/
import proofs.«156194_j88519275971050_1_alg».proof.Proof.Gen.KernelIdeal.Frame
import proofs.«156194_j88519275971050_1_alg».proof.Proof.Gen.ReferenceIdeal
import proofs.«156194_j88519275971050_1_alg».proof.Proof.LibHostBroadcast
import Idealize.ShloMosaic.Lib.Pipeline.Value
import Idealize.ShloMosaic.Lib.ValueIdx
import Idealize.ShloMosaic.Lib.ValueLayout

set_option maxRecDepth 16384

noncomputable section

namespace Cert.KernelIdeal.Hand.R1

open Cert.KernelIdeal Cert.KernelIdeal.Gen
open Idealize.ShloMosaic Idealize.ShloMosaic.TcCoe Idealize.SL.Sem Idealize.ShloMosaic.ValueIdx
open Idealize.ShloMosaic.Pipeline (Dat)

/-- The host's bias-add and clamp of a whole array A against a 1 by 128 row B: what the region's result array ends
    holding. -/
abbrev G (A : S100000x128.Idx → Elt Ideal .f32) (B : S1x128.Idx → Elt Ideal .f32) : S100000x128.Idx → Elt Ideal .f32 :=
  maximumf (addf A (broadcastInDim Cert.ReferenceIdeal.S100000x128 ![0, 1] Cert.ReferenceIdeal.Facts₀.bcast_S1x128_S100000x128_0_1 B))
    (broadcastInDim Cert.ReferenceIdeal.S100000x128 ![] Cert.ReferenceIdeal.Facts₀.bcast_S_S100000x128
      (constant (F := Ideal) Cert.ReferenceIdeal.S_ .f32 0x00000000#32))

theorem hz2 : (![0, 0] : Fin 2 → Nat) = fun _ => 0 := funext fun a => by fin_cases a <;> rfl

/-! ## One entry of a block -/

/-- Entry (p, q) of the body's result on a block whose entry (p, q) is A(r, q), against a row that is B's, is entry
    (r, q) of the host's result on A and B. -/
theorem pay_entry (x0 : Vec Ideal S2000x128 .f32) (x1 : Vec Ideal S1x128 .f32)
    (A : S100000x128.Idx → Elt Ideal .f32) (B : S1x128.Idx → Elt Ideal .f32)
    (p : Fin 2000) (q : Fin 128) (r : Fin 100000)
    (ha : x0 (ix2 p q) = A (ix2 r q)) (hb : x1 (ix2 (0 : Fin 1) q) = B (ix2 (0 : Fin 1) q)) :
    k1_pay1 (F := Ideal) x0 x1 (ix2 p q) = G A B (ix2 r q) := by
  unfold k1_pay1
  show max (shapeCast S2000x128 x0 _ (ix2 p q) + broadcastTo S2000x128 (shapeCast S1x128 x1 _) _ (ix2 p q)) (Ideal.ofBits .f32 0x00000000#32)
    = max (A (ix2 r q) + broadcastInDim Cert.ReferenceIdeal.S100000x128 ![0, 1] _ B (ix2 r q)) (Ideal.ofBits .f32 0x00000000#32)
  rw [shapeCast_self, ValueIdx.broadcastTo_1b_ab_apply, shapeCast_self, HostBroadcast.row_rows_apply, ha, hb]

/-! ## From blocks to the array -/

variable (V : (c : Dev nD) → (b : Ref sig .tc) → Buf (Elt Ideal) ((c : Thread nD τ).loc b))

/-- The printed index maps, decided over the grid: the input's block and the result's block move together along the
    rows, every other block index is zero, and the row block index stays below 50. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 49 :=
  (by decide +kernel : ∀ t : Fin grid1.N, _)

/-- Every row block is some point's. -/
theorem idx_onto : ∀ q0 : Fin 50, ∃ t : Fin cfg1.N, win1_2.index t = ![q0.val, 0] :=
  (by decide +kernel : ∀ q0 : Fin 50, ∃ t : Fin grid1.N, win1_2.index t = ![q0.val, 0])

/-- What point t writes back is block t of the host's result on the two arrays as the region finds them. -/
theorem flushed_eq (c : Dev nD) (t : Fin cfg1.N) :
    (dat1 V c).flushed 2 t = ((cfg1.win 2).blk t).view.read (Elt Ideal) (G (V c main_v43) (V c main_v44)) := by
  show (cfg1.win 2).cut (grid1.coords t) ((dat1 V c).after 2 t) = _
  rw [after1_2]
  unfold out1_2
  rw [View.canon_unit_zero hz2]
  simp only [View.ld_unit_zero (S := S2000x128) hz2, View.ld_unit_zero (S := S1x128) hz2]
  obtain ⟨e0, e1, e2, e3, e4, e5⟩ := idx_facts t
  funext j
  obtain ⟨p, q, rfl⟩ : ∃ (p : Fin 2000) (q : Fin 128), j = ix2 p q := ⟨j 0, j 1, eq_ix2 j⟩
  have hr : win1_2.index t (0 : Fin 2) * 2000 + 1 * p.val < 100000 := by have := p.isLt; omega
  show k1_pay1 (iblk1 V c 0 t) (iblk1 V c 1 t) (ix2 p q) = G (V c main_v43) (V c main_v44) (((cfg1.win 2).blk t).view.emb (ix2 p q))
  have hemb : ((cfg1.win 2).blk t).view.emb (ix2 p q) = ix2 (⟨win1_2.index t (0 : Fin 2) * 2000 + 1 * p.val, hr⟩ : Fin 100000) q := by
    funext a; apply Fin.ext
    match a with
    | ⟨0, _⟩ => rfl
    | ⟨1, _⟩ => show win1_2.index t (1 : Fin 2) * 128 + 1 * q.val = q.val; omega
  rw [hemb]
  refine pay_entry _ _ _ _ p q _ ?_ ?_
  · show V c main_v43 (((cfg1.win 0).blk t).view.emb (ix2 p q)) = V c main_v43 (ix2 _ q)
    refine congrArg (V c main_v43) ?_
    funext a; apply Fin.ext
    match a with
    | ⟨0, _⟩ => show win1_0.index t (0 : Fin 2) * 2000 + 1 * p.val = win1_2.index t (0 : Fin 2) * 2000 + 1 * p.val; omega
    | ⟨1, _⟩ => show win1_0.index t (1 : Fin 2) * 128 + 1 * q.val = q.val; omega
  · show V c main_v44 (((cfg1.win 1).blk t).view.emb (ix2 (0 : Fin 1) q)) = V c main_v44 (ix2 (0 : Fin 1) q)
    refine congrArg (V c main_v44) ?_
    funext a; apply Fin.ext
    match a with
    | ⟨0, _⟩ => show win1_1.index t (0 : Fin 2) * 1 + 1 * 0 = 0; omega
    | ⟨1, _⟩ => show win1_1.index t (1 : Fin 2) * 128 + 1 * q.val = q.val; omega

/-- An index of the result array is in point t's block iff each coordinate is in the block's range on its axis. -/
theorem mem_blk (t : Fin cfg1.N) (i : S100000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v45).slice (win1_2.rect t)).set ↔ _
  rw [View.set_slice_whole, Rect.mem_set_unit]
  exact Iff.rfl

/-- Every index of the result array lies in the block of the point whose row block holds its row. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := idx_onto ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- The result array after the region: the host's bias-add and clamp of the two arrays as the region finds them. -/
theorem final (c : Dev nD) : (dat1 V c).arrAt 2 cfg1.N = G (V c main_v43) (V c main_v44) :=
  (dat1 V c).arrAt_eq_of_cover 2 (G (V c main_v43) (V c main_v44)) (fun t _ => flushed_eq V c t) cover

end Cert.KernelIdeal.Hand.R1

end
-- ==== Proof.Region2.lean ====
/-
  Region 2 of the kernel's program is a matrix product, one block of 2000 rows per grid point.

  At a point t the body loads (through a shape cast to the same shape) rows 2000 t … 2000 t + 1999 of the left operand (a 100000 by 128 array) and the whole right
  operand (128 by 128), rounds both to bf16 (the identity on the extended reals), multiplies them into a zero
  accumulator and stores the 2000 by 128 product, which is written back as rows 2000 t … 2000 t + 1999 of the
  result. Entry (p, q) of the block is the sum over k of left(2000 t + p, k) · right(k, q): entry (2000 t + p, q) of the
  host's dot_general of the two whole arrays. The 50 blocks tile the 100000 rows, so after the region the result
  array is that dot_general.
-/
import proofs.«156194_j88519275971050_1_alg».proof.Proof.Gen.KernelIdeal.Frame
import proofs.«156194_j88519275971050_1_alg».proof.Proof.Gen.ReferenceIdeal
import proofs.«156194_j88519275971050_1_alg».proof.Proof.LibMatmulRows
import Idealize.ShloMosaic.Lib.Pipeline.Value
import Idealize.ShloMosaic.Lib.ValueIdx

set_option maxRecDepth 16384

noncomputable section

namespace Cert.KernelIdeal.Hand.R2

open Cert.KernelIdeal Cert.KernelIdeal.Gen
open Idealize.ShloMosaic Idealize.ShloMosaic.TcCoe Idealize.SL.Sem Idealize.ShloMosaic.ValueIdx
open Idealize.ShloMosaic.Pipeline (Dat)

/-- The host's product of the two whole arrays: what the region's result array ends holding. -/
abbrev G (X : FVec Ideal S100000x128 .f32) (W : FVec Ideal S128x128 .f32) : FVec Ideal S100000x128 .f32 :=
  Host.dotGeneral Cert.ReferenceIdeal.dot_S100000x128_S128x128_S100000x128_1_0_0_1_n_n none X W

theorem hz2 : (![0, 0] : Fin 2 → Nat) = fun _ => 0 := funext fun a => by fin_cases a <;> rfl

/-! ## The two records of dimension numbers: the free axes -/

theorem kd_l0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

theorem kd_r1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

theorem hd_l0 (i : S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin S100000x128.rank) ∈ Cert.ReferenceIdeal.dot_S100000x128_S128x128_S100000x128_1_0_0_1_n_n.lhsBatch by decide),
    dif_pos (show (0 : Fin S100000x128.rank) ∈ Cert.ReferenceIdeal.dot_S100000x128_S128x128_S100000x128_1_0_0_1_n_n.lhsNonContracting by decide)]
  rfl

theorem hd_r1 (i : S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin S128x128.rank) ∈ Cert.ReferenceIdeal.dot_S100000x128_S128x128_S100000x128_1_0_0_1_n_n.rhsBatch by decide),
    dif_pos (show (1 : Fin S128x128.rank) ∈ Cert.ReferenceIdeal.dot_S100000x128_S128x128_S100000x128_1_0_0_1_n_n.rhsNonContracting by decide)]
  rfl

/-! ## One entry of a block -/

/-- Entry (p, q) of the body's product of a block whose row p is row r of X, against W, is entry (r, q) of the host's
    product of X and W: the same sum over k. -/
theorem pay_entry (x0 : Vec Ideal S2000x128 .f32) (x1 : Vec Ideal S128x128 .f32)
    (X : FVec Ideal S100000x128 .f32) (W : FVec Ideal S128x128 .f32)
    (p : Fin 2000) (q : Fin 128) (r : Fin 100000)
    (hrow : ∀ k : Fin 128, x0 (ix2 p k) = X (ix2 r k)) (hw : ∀ k : Fin 128, x1 (ix2 k q) = W (ix2 k q)) :
    k2_pay1 (F := Ideal) x0 x1 (ix2 p q) = G X W (ix2 r q) := by
  unfold k2_pay1
  refine (MatmulRows.matmul_zero_rows dot_S2000x128_S128x128_S2000x128_1_0_0_1_n_n none rfl rfl rfl rfl kd_l0 kd_r1 _ _ (ix2 p q)
    (fun k => X (ix2 r k)) (fun k => W (ix2 k q)) (fun k => ?_) (fun k => hw k)).trans ?_
  · show shapeCast S2000x128 x0 _ (ix2 p k) = _
    rw [shapeCast_self]
    exact hrow k
  · exact (MatmulRows.dotGeneral_apply Cert.ReferenceIdeal.dot_S100000x128_S128x128_S100000x128_1_0_0_1_n_n none _ rfl rfl rfl rfl hd_l0 hd_r1 X W (ix2 r q)).symm

/-! ## From blocks to the array -/

variable (V : (c : Dev nD) → (b : Ref sig .tc) → Buf (Elt Ideal) ((c : Thread nD τ).loc b))

/-- The printed index maps, decided over the grid: the left operand's block and the result's block move together along
    the rows, every other block index is zero, and the row block index stays below 50. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 49 :=
  (by decide +kernel : ∀ t : Fin grid2.N, _)

/-- Every row block is some point's. -/
theorem idx_onto : ∀ q0 : Fin 50, ∃ t : Fin cfg2.N, win2_2.index t = ![q0.val, 0] :=
  (by decide +kernel : ∀ q0 : Fin 50, ∃ t : Fin grid2.N, win2_2.index t = ![q0.val, 0])

/-- What point t writes back is block t of the host's product of the two arrays as the region finds them. -/
theorem flushed_eq (c : Dev nD) (t : Fin cfg2.N) :
    (dat2 V c).flushed 2 t = ((cfg2.win 2).blk t).view.read (Elt Ideal) (G (V c main_v45) (V c main_arg4)) := by
  show (cfg2.win 2).cut (grid2.coords t) ((dat2 V c).after 2 t) = _
  rw [after2_2]
  unfold out2_2
  rw [View.canon_unit_zero hz2]
  simp only [View.ld_unit_zero (S := S2000x128) hz2, View.ld_unit_zero (S := S128x128) hz2]
  obtain ⟨e0, e1, e2, e3, e4, e5⟩ := idx_facts t
  funext j
  obtain ⟨p, q, rfl⟩ : ∃ (p : Fin 2000) (q : Fin 128), j = ix2 p q := ⟨j 0, j 1, eq_ix2 j⟩
  have hr : win2_2.index t (0 : Fin 2) * 2000 + 1 * p.val < 100000 := by have := p.isLt; omega
  show k2_pay1 (iblk2 V c 0 t) (iblk2 V c 1 t) (ix2 p q) = G (V c main_v45) (V c main_arg4) (((cfg2.win 2).blk t).view.emb (ix2 p q))
  have hemb : ((cfg2.win 2).blk t).view.emb (ix2 p q) = ix2 (⟨win2_2.index t (0 : Fin 2) * 2000 + 1 * p.val, hr⟩ : Fin 100000) q := by
    funext a; apply Fin.ext
    match a with
    | ⟨0, _⟩ => rfl
    | ⟨1, _⟩ => show win2_2.index t (1 : Fin 2) * 128 + 1 * q.val = q.val; omega
  rw [hemb]
  refine pay_entry _ _ _ _ p q _ (fun k => ?_) (fun k => ?_)
  · show V c main_v45 (((cfg2.win 0).blk t).view.emb (ix2 p k)) = V c main_v45 (ix2 _ k)
    refine congrArg (V c main_v45) ?_
    funext a; apply Fin.ext
    match a with
    | ⟨0, _⟩ => show win2_0.index t (0 : Fin 2) * 2000 + 1 * p.val = win2_2.index t (0 : Fin 2) * 2000 + 1 * p.val; omega
    | ⟨1, _⟩ => show win2_0.index t (1 : Fin 2) * 128 + 1 * k.val = k.val; omega
  · show V c main_arg4 (((cfg2.win 1).blk t).view.emb (ix2 k q)) = V c main_arg4 (ix2 k q)
    refine congrArg (V c main_arg4) ?_
    funext a; apply Fin.ext
    match a with
    | ⟨0, _⟩ => show win2_1.index t (0 : Fin 2) * 128 + 1 * k.val = k.val; omega
    | ⟨1, _⟩ => show win2_1.index t (1 : Fin 2) * 128 + 1 * q.val = q.val; omega

/-- An index of the result array is in point t's block iff each coordinate is in the block's range on its axis. -/
theorem mem_blk (t : Fin cfg2.N) (i : S100000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v46).slice (win2_2.rect t)).set ↔ _
  rw [View.set_slice_whole, Rect.mem_set_unit]
  exact Iff.rfl

/-- Every index of the result array lies in the block of the point whose row block holds its row. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := idx_onto ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 128 ≤ (i 1).val ∧ (i 1).val < win2_2.index t (1 : Fin 2) * 128 + 128; omega

/-- The result array after the region: the host's product of the two operand arrays as the region finds them. -/
theorem final (c : Dev nD) : (dat2 V c).arrAt 2 cfg2.N = G (V c main_v45) (V c main_arg4) :=
  (dat2 V c).arrAt_eq_of_cover 2 (G (V c main_v45) (V c main_arg4)) (fun t _ => flushed_eq V c t) cover

end Cert.KernelIdeal.Hand.R2

end
-- ==== Proof.Region3.lean ====
/-
  Region 3 of the kernel's program adds a bias row and clamps below at zero, one block of 2000 rows per grid point.

  At a point t the body loads rows 2000 t … 2000 t + 1999 of the aggregated messages (a 100000 by 128 array) and the
  bias as a 1 by 128 row, repeats the row down the 2000 rows, adds, takes the maximum with zero and stores the block,
  which is written back as rows 2000 t … 2000 t + 1999 of the result. Entry (p, q) of the block is
  max (a(2000 t + p, q) + b(0, q), 0): entry (2000 t + p, q) of the host's maximum of (a plus the row repeated down
  100000 rows) and a splat of zero. The 50 blocks tile the 100000 rows.
-/
import proofs.«156194_j88519275971050_1_alg».proof.Proof.Gen.KernelIdeal.Frame
import proofs.«156194_j88519275971050_1_alg».proof.Proof.Gen.ReferenceIdeal
import proofs.«156194_j88519275971050_1_alg».proof.Proof.LibHostBroadcast
import Idealize.ShloMosaic.Lib.Pipeline.Value
import Idealize.ShloMosaic.Lib.ValueIdx
import Idealize.ShloMosaic.Lib.ValueLayout

set_option maxRecDepth 16384

noncomputable section

namespace Cert.KernelIdeal.Hand.R3

open Cert.KernelIdeal Cert.KernelIdeal.Gen
open Idealize.ShloMosaic Idealize.ShloMosaic.TcCoe Idealize.SL.Sem Idealize.ShloMosaic.ValueIdx
open Idealize.ShloMosaic.Pipeline (Dat)

/-- The host's bias-add and clamp of a whole array A against a 1 by 128 row B: what the region's result array ends
    holding. -/
abbrev G (A : S100000x128.Idx → Elt Ideal .f32) (B : S1x128.Idx → Elt Ideal .f32) : S100000x128.Idx → Elt Ideal .f32 :=
  maximumf (addf A (broadcastInDim Cert.ReferenceIdeal.S100000x128 ![0, 1] Cert.ReferenceIdeal.Facts₀.bcast_S1x128_S100000x128_0_1 B))
    (broadcastInDim Cert.ReferenceIdeal.S100000x128 ![] Cert.ReferenceIdeal.Facts₀.bcast_S_S100000x128
      (constant (F := Ideal) Cert.ReferenceIdeal.S_ .f32 0x00000000#32))

theorem hz2 : (![0, 0] : Fin 2 → Nat) = fun _ => 0 := funext fun a => by fin_cases a <;> rfl

/-! ## One entry of a block -/

/-- Entry (p, q) of the body's result on a block whose entry (p, q) is A(r, q), against a row that is B's, is entry
    (r, q) of the host's result on A and B. -/
theorem pay_entry (x0 : Vec Ideal S2000x128 .f32) (x1 : Vec Ideal S1x128 .f32)
    (A : S100000x128.Idx → Elt Ideal .f32) (B : S1x128.Idx → Elt Ideal .f32)
    (p : Fin 2000) (q : Fin 128) (r : Fin 100000)
    (ha : x0 (ix2 p q) = A (ix2 r q)) (hb : x1 (ix2 (0 : Fin 1) q) = B (ix2 (0 : Fin 1) q)) :
    k3_pay1 (F := Ideal) x0 x1 (ix2 p q) = G A B (ix2 r q) := by
  unfold k3_pay1
  show max (shapeCast S2000x128 x0 _ (ix2 p q) + broadcastTo S2000x128 (shapeCast S1x128 x1 _) _ (ix2 p q)) (Ideal.ofBits .f32 0x00000000#32)
    = max (A (ix2 r q) + broadcastInDim Cert.ReferenceIdeal.S100000x128 ![0, 1] _ B (ix2 r q)) (Ideal.ofBits .f32 0x00000000#32)
  rw [shapeCast_self, ValueIdx.broadcastTo_1b_ab_apply, shapeCast_self, HostBroadcast.row_rows_apply, ha, hb]

/-! ## From blocks to the array -/

variable (V : (c : Dev nD) → (b : Ref sig .tc) → Buf (Elt Ideal) ((c : Thread nD τ).loc b))

/-- The printed index maps, decided over the grid: the input's block and the result's block move together along the
    rows, every other block index is zero, and the row block index stays below 50. -/
theorem idx_facts : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) ≤ 49 :=
  (by decide +kernel : ∀ t : Fin grid3.N, _)

/-- Every row block is some point's. -/
theorem idx_onto : ∀ q0 : Fin 50, ∃ t : Fin cfg3.N, win3_2.index t = ![q0.val, 0] :=
  (by decide +kernel : ∀ q0 : Fin 50, ∃ t : Fin grid3.N, win3_2.index t = ![q0.val, 0])

/-- What point t writes back is block t of the host's result on the two arrays as the region finds them. -/
theorem flushed_eq (c : Dev nD) (t : Fin cfg3.N) :
    (dat3 V c).flushed 2 t = ((cfg3.win 2).blk t).view.read (Elt Ideal) (G (V c main_v59) (V c main_v60)) := by
  show (cfg3.win 2).cut (grid3.coords t) ((dat3 V c).after 2 t) = _
  rw [after3_2]
  unfold out3_2
  rw [View.canon_unit_zero hz2]
  simp only [View.ld_unit_zero (S := S2000x128) hz2, View.ld_unit_zero (S := S1x128) hz2]
  obtain ⟨e0, e1, e2, e3, e4, e5⟩ := idx_facts t
  funext j
  obtain ⟨p, q, rfl⟩ : ∃ (p : Fin 2000) (q : Fin 128), j = ix2 p q := ⟨j 0, j 1, eq_ix2 j⟩
  have hr : win3_2.index t (0 : Fin 2) * 2000 + 1 * p.val < 100000 := by have := p.isLt; omega
  show k3_pay1 (iblk3 V c 0 t) (iblk3 V c 1 t) (ix2 p q) = G (V c main_v59) (V c main_v60) (((cfg3.win 2).blk t).view.emb (ix2 p q))
  have hemb : ((cfg3.win 2).blk t).view.emb (ix2 p q) = ix2 (⟨win3_2.index t (0 : Fin 2) * 2000 + 1 * p.val, hr⟩ : Fin 100000) q := by
    funext a; apply Fin.ext
    match a with
    | ⟨0, _⟩ => rfl
    | ⟨1, _⟩ => show win3_2.index t (1 : Fin 2) * 128 + 1 * q.val = q.val; omega
  rw [hemb]
  refine pay_entry _ _ _ _ p q _ ?_ ?_
  · show V c main_v59 (((cfg3.win 0).blk t).view.emb (ix2 p q)) = V c main_v59 (ix2 _ q)
    refine congrArg (V c main_v59) ?_
    funext a; apply Fin.ext
    match a with
    | ⟨0, _⟩ => show win3_0.index t (0 : Fin 2) * 2000 + 1 * p.val = win3_2.index t (0 : Fin 2) * 2000 + 1 * p.val; omega
    | ⟨1, _⟩ => show win3_0.index t (1 : Fin 2) * 128 + 1 * q.val = q.val; omega
  · show V c main_v60 (((cfg3.win 1).blk t).view.emb (ix2 (0 : Fin 1) q)) = V c main_v60 (ix2 (0 : Fin 1) q)
    refine congrArg (V c main_v60) ?_
    funext a; apply Fin.ext
    match a with
    | ⟨0, _⟩ => show win3_1.index t (0 : Fin 2) * 1 + 1 * 0 = 0; omega
    | ⟨1, _⟩ => show win3_1.index t (1 : Fin 2) * 128 + 1 * q.val = q.val; omega

/-- An index of the result array is in point t's block iff each coordinate is in the block's range on its axis. -/
theorem mem_blk (t : Fin cfg3.N) (i : S100000x128.Idx) :
    i ∈ ((cfg3.win 2).blk t).view.set ↔ ∀ a : Fin 2, win3_2.index t a * S2000x128.size a ≤ (i a).val ∧ (i a).val < win3_2.index t a * S2000x128.size a + S2000x128.size a := by
  show i ∈ ((View.whole main_v61).slice (win3_2.rect t)).set ↔ _
  rw [View.set_slice_whole, Rect.mem_set_unit]
  exact Iff.rfl

/-- Every index of the result array lies in the block of the point whose row block holds its row. -/
theorem cover (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ := idx_onto ⟨(i 0).val / 2000, by omega⟩
  have q0 : win3_2.index t (0 : Fin 2) = (i 0).val / 2000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 128 ≤ (i 1).val ∧ (i 1).val < win3_2.index t (1 : Fin 2) * 128 + 128; omega

/-- The result array after the region: the host's bias-add and clamp of the two arrays as the region finds them. -/
theorem final (c : Dev nD) : (dat3 V c).arrAt 2 cfg3.N = G (V c main_v59) (V c main_v60) :=
  (dat3 V c).arrAt_eq_of_cover 2 (G (V c main_v59) (V c main_v60)) (fun t _ => flushed_eq V c t) cover

end Cert.KernelIdeal.Hand.R3

end
-- ==== Proof.LibKeepdims.lean ====
/-
  The two "keepdims" column forms of a row reduction's result, read at an index.

  A length-a vector cast to an a by 1 column reads, at (i, u), the vector at i; an a by 1 column broadcast to a by b
  reads, at (p, c), the column at p. Together: a per-row quantity (a row's maximum, a row's sum) spread back over the
  row's entries.
-/
import Idealize.ShloMosaic.Lib.Pipeline.Value
import Idealize.ShloMosaic.Lib.ValueIdx

namespace Idealize.ShloMosaic.Keepdims

open Idealize.ShloMosaic Idealize.ShloMosaic.ValueIdx Idealize.ShloMosaic.Pipeline

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a per-row quantity spread over the row. -/
theorem column_spread {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

end Idealize.ShloMosaic.Keepdims
-- ==== Proof.LibRowMax.lean ====
/-
  A row's maximum read at an index, at the ideal instance.

  For an a by b array, a kernel's reduction with maximum along axis 1 holds, at row i, the fold of max over the
  column coordinate j of the entries at (i, j), started from the accumulator's value. The fold is over the whole
  finite type of columns, in no particular order.
-/
import Idealize.ShloMosaic.PureOps.Ideal.Laws
import Idealize.ShloMosaic.Lib.ValueIdx

noncomputable section

namespace Idealize.ShloMosaic.RowMax

open Idealize.ShloMosaic Idealize.ShloMosaic.ValueIdx

variable {a b : ℕ} {φ : FTy}

/-- The index a reduction along axis 1 puts back: row i, column j. -/
theorem lift_row (h : (⟨2, ![a, b]⟩ : Shape).Reduces [(1 : Fin 2)] ⟨1, ![a]⟩) (i : Fin a) (j : Fin b) :
    h.lift (ix1 i) j = ix2 i j := by
  funext ax
  apply Fin.ext
  match ax with
  | ⟨0, _⟩ => rfl
  | ⟨1, _⟩ => rfl

/-- A row's maximum, from the accumulator's value. -/
theorem row_max_apply (v : FVec Ideal (⟨2, ![a, b]⟩ : Shape) φ) (acc : BitVec φ.bits)
    (h : (⟨2, ![a, b]⟩ : Shape).Reduces [(1 : Fin 2)] ⟨1, ![a]⟩) (hφ : FKind.Formats φ)
    (hacc : acc = FKind.maximumf.neutral φ hφ) (i : Fin a) :
    multiReduction .maximumf [(1 : Fin 2)] ⟨1, ![a]⟩ v acc h hφ hacc (ix1 i)
      = (Finset.univ : Finset (Fin b)).fold max (Ideal.ofBits φ acc) (fun j => v (ix2 i j)) := by
  rw [Ideal.multiReduction_maximumf_single]
  have e : (v ∘ h.lift (ix1 i)) = fun j : Fin b => v (ix2 i j) := funext fun j => congrArg v (lift_row h i j)
  rw [e]
  rfl

end Idealize.ShloMosaic.RowMax

end
-- ==== Proof.LibReduceAt.lean ====
/-
  Reductions over one axis read at an index of the result, at the ideal instance, with the reduced index named by
  its coordinates.

  For an a by b array: a row's sum, a row's minimum and a column's maximum (a kernel's vector reductions) are the sum,
  the fold of min and the fold of max over the coordinate that was reduced away, of the array's entries at (i, j).
  For an n by a by b array the host's one-operand reduce with a commutative associative operation, along the last axis
  or along the middle axis, is likewise the fold from its initial value over that coordinate of the entries at
  (n, i, j). The folds are over the whole finite type of the reduced coordinate, in no particular order.
-/
import Idealize.ShloMosaic.PureOps.Ideal.Laws
import Idealize.ShloMosaic.PureOps.Reduce
import Idealize.ShloMosaic.Lib.ValueIdx

noncomputable section

namespace Idealize.ShloMosaic.ReduceAt

open Idealize.ShloMosaic Idealize.ShloMosaic.ValueIdx

variable {a b n : ℕ} {φ : FTy}

/-! ### Rank 2: the index put back by a reduction along the columns' axis, or along the rows' axis -/

theorem lift_along_row (h : (⟨2, ![a, b]⟩ : Shape).Reduces [(1 : Fin 2)] ⟨1, ![a]⟩) (i : Fin a) (j : Fin b) :
    h.lift (ix1 i) j = ix2 i j := by
  funext ax
  apply Fin.ext
  match ax with
  | ⟨0, _⟩ => rfl
  | ⟨1, _⟩ => rfl

theorem lift_along_col (h : (⟨2, ![a, b]⟩ : Shape).Reduces [(0 : Fin 2)] ⟨1, ![b]⟩) (j : Fin b) (i : Fin a) :
    h.lift (ix1 j) i = ix2 i j := by
  funext ax
  apply Fin.ext
  match ax with
  | ⟨0, _⟩ => rfl
  | ⟨1, _⟩ => rfl

/-- A row's sum. -/
theorem row_sum_apply (v : FVec Ideal (⟨2, ![a, b]⟩ : Shape) φ) (acc : BitVec φ.bits)
    (h : (⟨2, ![a, b]⟩ : Shape).Reduces [(1 : Fin 2)] ⟨1, ![a]⟩) (hφ : FKind.Formats φ) (hacc : acc = FKind.add.neutral φ hφ)
    (i : Fin a) :
    multiReduction .add [(1 : Fin 2)] ⟨1, ![a]⟩ v acc h hφ hacc (ix1 i) = ∑ j : Fin b, v (ix2 i j) :=
  (Ideal.multiReduction_add_single v acc h hφ hacc (ix1 i)).trans
    (Finset.sum_congr rfl fun j _ => congrArg v (lift_along_row h i j))

/-- A column's sum. -/
theorem col_sum_apply (v : FVec Ideal (⟨2, ![a, b]⟩ : Shape) φ) (acc : BitVec φ.bits)
    (h : (⟨2, ![a, b]⟩ : Shape).Reduces [(0 : Fin 2)] ⟨1, ![b]⟩) (hφ : FKind.Formats φ) (hacc : acc = FKind.add.neutral φ hφ)
    (j : Fin b) :
    multiReduction .add [(0 : Fin 2)] ⟨1, ![b]⟩ v acc h hφ hacc (ix1 j) = ∑ i : Fin a, v (ix2 i j) :=
  (Ideal.multiReduction_add_single v acc h hφ hacc (ix1 j)).trans
    (Finset.sum_congr rfl fun i _ => congrArg v (lift_along_col h j i))

/-- A row's minimum, from the accumulator's value. -/
theorem row_min_apply (v : FVec Ideal (⟨2, ![a, b]⟩ : Shape) φ) (acc : BitVec φ.bits)
    (h : (⟨2, ![a, b]⟩ : Shape).Reduces [(1 : Fin 2)] ⟨1, ![a]⟩) (hφ : FKind.Formats φ) (hacc : acc = FKind.minimumf.neutral φ hφ)
    (i : Fin a) :
    multiReduction .minimumf [(1 : Fin 2)] ⟨1, ![a]⟩ v acc h hφ hacc (ix1 i)
      = (Finset.univ : Finset (Fin b)).fold min (Ideal.ofBits φ acc) (fun j => v (ix2 i j)) := by
  rw [multiReduction_minimumf_eq_fold, h.fold_filter_drop_single]
  have e : (v ∘ h.lift (ix1 i)) = fun j : Fin b => v (ix2 i j) := funext fun j => congrArg v (lift_along_row h i j)
  rw [e]
  rfl

/-- A column's maximum, from the accumulator's value. -/
theorem col_max_apply (v : FVec Ideal (⟨2, ![a, b]⟩ : Shape) φ) (acc : BitVec φ.bits)
    (h : (⟨2, ![a, b]⟩ : Shape).Reduces [(0 : Fin 2)] ⟨1, ![b]⟩) (hφ : FKind.Formats φ) (hacc : acc = FKind.maximumf.neutral φ hφ)
    (j : Fin b) :
    multiReduction .maximumf [(0 : Fin 2)] ⟨1, ![b]⟩ v acc h hφ hacc (ix1 j)
      = (Finset.univ : Finset (Fin a)).fold max (Ideal.ofBits φ acc) (fun i => v (ix2 i j)) := by
  rw [Ideal.multiReduction_maximumf_single]
  have e : (v ∘ h.lift (ix1 j)) = fun i : Fin a => v (ix2 i j) := funext fun i => congrArg v (lift_along_col h j i)
  rw [e]
  rfl

/-! ### Rank 3: the host's reduce along the last axis, or along the middle axis -/

theorem lift_along_last (h : (⟨3, ![n, a, b]⟩ : Shape).Reduces [(2 : Fin 3)] ⟨2, ![n, a]⟩) (p : Fin n) (i : Fin a) (j : Fin b) :
    h.lift (ix2 p i) j = ix3 p i j := by
  funext ax
  apply Fin.ext
  match ax with
  | ⟨0, _⟩ => rfl
  | ⟨1, _⟩ => rfl
  | ⟨2, _⟩ => rfl

theorem lift_along_middle (h : (⟨3, ![n, a, b]⟩ : Shape).Reduces [(1 : Fin 3)] ⟨2, ![n, b]⟩) (p : Fin n) (j : Fin b) (i : Fin a) :
    h.lift (ix2 p j) i = ix3 p i j := by
  funext ax
  apply Fin.ext
  match ax with
  | ⟨0, _⟩ => rfl
  | ⟨1, _⟩ => rfl
  | ⟨2, _⟩ => rfl

/-- The host's reduce along the last axis. -/
theorem host_reduce_last_apply {u : Shape} (f : EReal → EReal → EReal) [Std.Commutative f] [Std.Associative f]
    (x : (⟨3, ![n, a, b]⟩ : Shape).Idx → EReal) (init : u.Idx → EReal)
    (h' : (⟨3, ![n, a, b]⟩ : Shape).ReducesTo [(2 : Fin 3)] ⟨2, ![n, a]⟩) (hu : 0 < u.numel)
    (h : (⟨3, ![n, a, b]⟩ : Shape).Reduces [(2 : Fin 3)] ⟨2, ![n, a]⟩) (p : Fin n) (i : Fin a) :
    Host.reduce f x init h' hu (ix2 p i)
      = (Finset.univ : Finset (Fin b)).fold f (init (Shape.Idx.first hu)) (fun j => x (ix3 p i j)) := by
  rw [Host.reduce_eq_fold, Shape.ReducesTo.drop_eq_drop h' h, h.fold_filter_drop_single]
  have e : (x ∘ h.lift (ix2 p i)) = fun j : Fin b => x (ix3 p i j) := funext fun j => congrArg x (lift_along_last h p i j)
  rw [e]
  rfl

/-- The host's reduce along the middle axis. -/
theorem host_reduce_middle_apply {u : Shape} (f : EReal → EReal → EReal) [Std.Commutative f] [Std.Associative f]
    (x : (⟨3, ![n, a, b]⟩ : Shape).Idx → EReal) (init : u.Idx → EReal)
    (h' : (⟨3, ![n, a, b]⟩ : Shape).ReducesTo [(1 : Fin 3)] ⟨2, ![n, b]⟩) (hu : 0 < u.numel)
    (h : (⟨3, ![n, a, b]⟩ : Shape).Reduces [(1 : Fin 3)] ⟨2, ![n, b]⟩) (p : Fin n) (j : Fin b) :
    Host.reduce f x init h' hu (ix2 p j)
      = (Finset.univ : Finset (Fin a)).fold f (init (Shape.Idx.first hu)) (fun i => x (ix3 p i j)) := by
  rw [Host.reduce_eq_fold, Shape.ReducesTo.drop_eq_drop h' h, h.fold_filter_drop_single]
  have e : (x ∘ h.lift (ix2 p j)) = fun i : Fin a => x (ix3 p i j) := funext fun i => congrArg x (lift_along_middle h p j i)
  rw [e]
  rfl

end Idealize.ShloMosaic.ReduceAt

end
-- ==== Proof.LibHostReduceRow.lean ====
/-
  The host's one-operand reduce along the rows of a rank-2 array, read at a row, at the ideal instance.

  For an a by b array of extended reals and a commutative associative operation f, the reduce along the second axis
  with an initial value is, at row i, the fold of f from the initial value over the b entries of the row, in no
  particular order: a row's maximum or minimum as a reference's softmax or normalisation takes it (the sum has its
  own reading as a finite sum).
-/
import Idealize.ShloMosaic.PureOps.Ideal.Laws
import Idealize.ShloMosaic.PureOps.Reduce
import Idealize.ShloMosaic.Lib.ValueIdx

noncomputable section

namespace Idealize.ShloMosaic.HostReduceRow

open Idealize.ShloMosaic Idealize.ShloMosaic.ValueIdx

variable {a b : ℕ}

/-- The index a reduction along the second axis puts back: row i, entry j. -/
theorem lift_row (h : (⟨2, ![a, b]⟩ : Shape).Reduces [(1 : Fin 2)] ⟨1, ![a]⟩) (i : Fin a) (j : Fin b) :
    h.lift (ix1 i) j = ix2 i j := by
  funext ax
  apply Fin.ext
  match ax with
  | ⟨0, _⟩ => rfl
  | ⟨1, _⟩ => rfl

/-- The host's reduce of an a by b array along its second axis is, at row i, the fold from the initial value over
    the b entries of the row. -/
theorem host_reduce_row_apply {u : Shape} (f : EReal → EReal → EReal) [Std.Commutative f] [Std.Associative f]
    (x : (⟨2, ![a, b]⟩ : Shape).Idx → EReal) (init : u.Idx → EReal)
    (h' : (⟨2, ![a, b]⟩ : Shape).ReducesTo [(1 : Fin 2)] ⟨1, ![a]⟩) (hu : 0 < u.numel)
    (h : (⟨2, ![a, b]⟩ : Shape).Reduces [(1 : Fin 2)] ⟨1, ![a]⟩) (i : Fin a) :
    Host.reduce f x init h' hu (ix1 i)
      = (Finset.univ : Finset (Fin b)).fold f (init (Shape.Idx.first hu)) (fun j => x (ix2 i j)) := by
  rw [Host.reduce_eq_fold, Shape.ReducesTo.drop_eq_drop h' h, h.fold_filter_drop_single]
  have e : (x ∘ h.lift (ix1 i)) = fun j : Fin b => x (ix2 i j) :=
    funext fun j => congrArg x (lift_row h i j)
  rw [e]
  rfl

end Idealize.ShloMosaic.HostReduceRow

end
-- ==== Proof.LibLogSoftmaxRow.lean ====
/-
  A row-wise log-softmax read at an entry, at the ideal instance, in a kernel's spelling and in the host's.

  For a row z of b extended reals write M for the fold of max over the row from the word 0xFF800000 (minus infinity).
  The log-softmax of the row at entry j is (z j - M) - log (sum over j' of exp (z j' - M)).

  A kernel takes the row maximum and the row sum of an a by b block by reductions along axis 1, keeps each as an
  a by 1 column and spreads it back over the row. The host takes them by stablehlo.reduce along axis 1 from a rank-0
  initial value, joins the maximum once more with minus infinity, and spreads each back by two broadcasts in
  dimensions. Both read, at (i, j), the log-softmax of row i at j: the host's extra max with the word the fold started
  from changes nothing (the fold is at least its start), and its sum starts from the word of zero.
-/
import Idealize.ShloMosaic.PureOps.Ideal.Laws
import Idealize.ShloMosaic.PureOps.Reduce
import Idealize.ShloMosaic.Lib.ValueIdx
import Idealize.ShloMosaic.Lib.IdealHost
import Idealize.ShloMosaic.Lib.Pipeline.Value
import proofs.«156194_j88519275971050_1_alg».proof.Proof.LibKeepdims
import proofs.«156194_j88519275971050_1_alg».proof.Proof.LibRowMax
import proofs.«156194_j88519275971050_1_alg».proof.Proof.LibReduceAt
import proofs.«156194_j88519275971050_1_alg».proof.Proof.LibHostReduceRow
import proofs.«156194_j88519275971050_1_alg».proof.Proof.LibHostBroadcast

noncomputable section

namespace Idealize.ShloMosaic.LogSoftmaxRow

open Idealize.ShloMosaic Idealize.ShloMosaic.ValueIdx

/-- A row's largest entry: the fold of max over the row from minus infinity's word. -/
def rowMax {b : ℕ} (z : Fin b → EReal) : EReal :=
  (Finset.univ : Finset (Fin b)).fold max (Ideal.ofBits .f32 0xFF800000#32) z

/-- The log-softmax of a row at entry j. -/
def lsm {b : ℕ} (z : Fin b → EReal) (j : Fin b) : EReal :=
  (z j - rowMax z) - Ideal.log (∑ j' : Fin b, Ideal.exp (z j' - rowMax z))

/-- The fold of max is at least the value it starts from, so joining it with that value again changes nothing. -/
theorem max_start_rowMax {b : ℕ} (z : Fin b → EReal) :
    max (Ideal.ofBits .f32 0xFF800000#32) (rowMax z) = rowMax z :=
  max_eq_right ((Finset.le_fold_max _).2 (Or.inl le_rfl))

/-- The host's sum along the rows of an n by b array, at row i: the initial value plus the row's entries. -/
theorem host_row_sum {n b : ℕ} (x : FVec Ideal (⟨2, ![n, b]⟩ : Shape) .f32)
    (init : (⟨0, ![]⟩ : Shape).Idx → Ideal .f32)
    (hrt : (⟨2, ![n, b]⟩ : Shape).ReducesTo [(1 : Fin 2)] ⟨1, ![n]⟩) (hu : 0 < (⟨0, ![]⟩ : Shape).numel)
    (hr : (⟨2, ![n, b]⟩ : Shape).Reduces [(1 : Fin 2)] ⟨1, ![n]⟩) (i : Fin n) :
    Host.reduceAdd x init hrt hu (ix1 i) = init (Shape.Idx.first hu) + ∑ j : Fin b, x (ix2 i j) :=
  (Ideal.hostReduceAdd_single hrt hr x (init (Shape.Idx.first hu)) (ix1 i)).trans
    (congrArg (init (Shape.Idx.first hu) + ·)
      (Finset.sum_congr rfl fun j _ => congrArg x (ReduceAt.lift_along_row hr i j)))

/-- A kernel's log-softmax along the rows of an a by b block, at (p, j). -/
theorem kernel_row {a b : ℕ} (v : FVec Ideal (⟨2, ![a, b]⟩ : Shape) .f32)
    (hr : (⟨2, ![a, b]⟩ : Shape).Reduces [(1 : Fin 2)] ⟨1, ![a]⟩) (hφ : FKind.Formats FTy.f32)
    (hmax : (0xFF800000#32 : BitVec FTy.f32.bits) = FKind.maximumf.neutral .f32 hφ)
    (hadd : (0x00000000#32 : BitVec FTy.f32.bits) = FKind.add.neutral .f32 hφ)
    (hc : (⟨1, ![a]⟩ : Shape).ShapeCasts ⟨2, ![a, 1]⟩) (hb : (⟨2, ![a, 1]⟩ : Shape).Broadcasts ⟨2, ![a, b]⟩)
    (p : Fin a) (j : Fin b) :
    subf (subf v (broadcastTo ⟨2, ![a, b]⟩ (shapeCast ⟨2, ![a, 1]⟩
          (multiReduction .maximumf [(1 : Fin 2)] ⟨1, ![a]⟩ v 0xFF800000#32 hr hφ hmax) hc) hb))
        (broadcastTo ⟨2, ![a, b]⟩ (log (shapeCast ⟨2, ![a, 1]⟩
          (multiReduction .add [(1 : Fin 2)] ⟨1, ![a]⟩
            (exp (subf v (broadcastTo ⟨2, ![a, b]⟩ (shapeCast ⟨2, ![a, 1]⟩
              (multiReduction .maximumf [(1 : Fin 2)] ⟨1, ![a]⟩ v 0xFF800000#32 hr hφ hmax) hc) hb)))
            0x00000000#32 hr hφ hadd) hc)) hb) (ix2 p j)
      = lsm (fun j' => v (ix2 p j')) j := by
  have hM : ∀ j' : Fin b, broadcastTo ⟨2, ![a, b]⟩ (shapeCast ⟨2, ![a, 1]⟩
        (multiReduction .maximumf [(1 : Fin 2)] ⟨1, ![a]⟩ v 0xFF800000#32 hr hφ hmax) hc) hb (ix2 p j')
      = rowMax (fun j' => v (ix2 p j')) := fun j' =>
    (Keepdims.column_spread _ hc hb p j').trans (RowMax.row_max_apply v _ hr hφ hmax p)
  show (v (ix2 p j) - _) - _ = _
  rw [hM j, Keepdims.broadcastTo_a1_ab_apply _ hb p j]
  show _ - Ideal.log (shapeCast ⟨2, ![a, 1]⟩ _ hc (ix2 p (0 : Fin 1))) = _
  rw [Keepdims.shapeCast_a_a1_apply _ hc p 0, ReduceAt.row_sum_apply _ _ hr hφ hadd p]
  unfold lsm
  refine congrArg (fun s => (v (ix2 p j) - rowMax fun j' => v (ix2 p j')) - Ideal.log s)
    (Finset.sum_congr rfl fun j' _ => ?_)
  show Ideal.exp (v (ix2 p j') - _) = _
  rw [hM j']

/-- The logarithm of a per-row quantity, kept as a column and spread over the row, at (i, j). -/
theorem log_column_apply {n b : ℕ} (h1 : (⟨1, ![n]⟩ : Shape).BroadcastsInDim ⟨2, ![n, 1]⟩ ![0])
    (h2 : (⟨2, ![n, 1]⟩ : Shape).BroadcastsInDim ⟨2, ![n, b]⟩ ![0, 1])
    (s : FVec Ideal (⟨1, ![n]⟩ : Shape) .f32) (i : Fin n) (j : Fin b) :
    broadcastInDim ⟨2, ![n, b]⟩ ![0, 1] h2 (Host.log (broadcastInDim ⟨2, ![n, 1]⟩ ![0] h1 s)) (ix2 i j) = Ideal.log (s (ix1 i)) :=
  (HostBroadcast.col_cols_apply h2 _ (ix2 i j)).trans (congrArg Ideal.log (HostBroadcast.vec_col_apply h1 s _))

/-- The host's log-softmax along the rows of an n by b array, at (i, j). -/
theorem host_row {n b : ℕ} (z : FVec Ideal (⟨2, ![n, b]⟩ : Shape) .f32)
    (h0 : (⟨0, ![]⟩ : Shape).BroadcastsInDim ⟨1, ![n]⟩ ![])
    (hrt : (⟨2, ![n, b]⟩ : Shape).ReducesTo [(1 : Fin 2)] ⟨1, ![n]⟩) (hu : 0 < (⟨0, ![]⟩ : Shape).numel)
    (hr : (⟨2, ![n, b]⟩ : Shape).Reduces [(1 : Fin 2)] ⟨1, ![n]⟩)
    (h1 : (⟨1, ![n]⟩ : Shape).BroadcastsInDim ⟨2, ![n, 1]⟩ ![0])
    (h2 : (⟨2, ![n, 1]⟩ : Shape).BroadcastsInDim ⟨2, ![n, b]⟩ ![0, 1])
    (i : Fin n) (j : Fin b) :
    subf (subf z (broadcastInDim ⟨2, ![n, b]⟩ ![0, 1] h2 (broadcastInDim ⟨2, ![n, 1]⟩ ![0] h1
          (maximumf (broadcastInDim ⟨1, ![n]⟩ ![] h0 (constant (F := Ideal) ⟨0, ![]⟩ .f32 0xFF800000#32))
            (Host.reduce FloatOps.maximumf z (constant (F := Ideal) ⟨0, ![]⟩ .f32 0xFF800000#32) hrt hu)))))
        (broadcastInDim ⟨2, ![n, b]⟩ ![0, 1] h2 (Host.log (broadcastInDim ⟨2, ![n, 1]⟩ ![0] h1
          (Host.reduceAdd
            (Host.exp (subf z (broadcastInDim ⟨2, ![n, b]⟩ ![0, 1] h2 (broadcastInDim ⟨2, ![n, 1]⟩ ![0] h1
              (maximumf (broadcastInDim ⟨1, ![n]⟩ ![] h0 (constant (F := Ideal) ⟨0, ![]⟩ .f32 0xFF800000#32))
                (Host.reduce FloatOps.maximumf z (constant (F := Ideal) ⟨0, ![]⟩ .f32 0xFF800000#32) hrt hu))))))
            (constant (F := Ideal) ⟨0, ![]⟩ .f32 0x00000000#32) hrt hu)))) (ix2 i j)
      = lsm (fun j' => z (ix2 i j')) j := by
  have hR : Host.reduce FloatOps.maximumf z (constant (F := Ideal) ⟨0, ![]⟩ .f32 0xFF800000#32) hrt hu (ix1 i)
      = rowMax (fun j' => z (ix2 i j')) :=
    HostReduceRow.host_reduce_row_apply (max : EReal → EReal → EReal) z _ hrt hu hr i
  have hX : maximumf (broadcastInDim ⟨1, ![n]⟩ ![] h0 (constant (F := Ideal) ⟨0, ![]⟩ .f32 0xFF800000#32))
        (Host.reduce FloatOps.maximumf z (constant (F := Ideal) ⟨0, ![]⟩ .f32 0xFF800000#32) hrt hu) (ix1 i)
      = rowMax (fun j' => z (ix2 i j')) := by
    show max (Ideal.ofBits .f32 0xFF800000#32) _ = _
    rw [hR]
    exact max_start_rowMax _
  have hM : ∀ j' : Fin b, broadcastInDim ⟨2, ![n, b]⟩ ![0, 1] h2 (broadcastInDim ⟨2, ![n, 1]⟩ ![0] h1
        (maximumf (broadcastInDim ⟨1, ![n]⟩ ![] h0 (constant (F := Ideal) ⟨0, ![]⟩ .f32 0xFF800000#32))
          (Host.reduce FloatOps.maximumf z (constant (F := Ideal) ⟨0, ![]⟩ .f32 0xFF800000#32) hrt hu))) (ix2 i j')
      = rowMax (fun j' => z (ix2 i j')) := fun j' =>
    (HostBroadcast.column_apply h1 h2 _ (ix2 i j')).trans hX
  show (z (ix2 i j) - _) - _ = _
  rw [hM j, log_column_apply h1 h2 _ i j, host_row_sum _ _ hrt hu hr i]
  show _ - Ideal.log (Ideal.ofBits .f32 0x00000000#32 + _) = _
  rw [Ideal.ofBits_zero_f32, zero_add]
  unfold lsm
  refine congrArg (fun s => (z (ix2 i j) - rowMax fun j' => z (ix2 i j')) - Ideal.log s)
    (Finset.sum_congr rfl fun j' _ => ?_)
  show Ideal.exp (z (ix2 i j') - _) = _
  rw [hM j']

end Idealize.ShloMosaic.LogSoftmaxRow

end
-- ==== Proof.Region4.lean ====
/-
  Region 4 of the kernel's program is the last dense layer followed by a row-wise log-softmax, one block of 2000 rows
  per grid point.

  At a point t the body loads rows 2000 t … 2000 t + 1999 of the features (100000 by 128), the whole weight matrix
  (128 by 10) and the bias as a 1 by 10 row; the logits of the block are the product (operands rounded to bf16, the
  identity on the extended reals, into a zero accumulator) plus the bias row repeated down the block. Each row's
  maximum and the sum of its shifted exponentials are taken along the row, kept as columns and spread back, and the
  block of shifted logits minus the logarithm of that sum is written back as rows 2000 t … 2000 t + 1999 of the
  result. A row of the block depends only on the same row of the features, so entry (p, j) of the block is entry
  (2000 t + p, j) of the host's log-softmax of the host's logits of the whole arrays. The 50 blocks tile the 100000 rows.
-/
import proofs.«156194_j88519275971050_1_alg».proof.Proof.Gen.KernelIdeal.Frame
import proofs.«156194_j88519275971050_1_alg».proof.Proof.Gen.ReferenceIdeal
import proofs.«156194_j88519275971050_1_alg».proof.Proof.Spec
import proofs.«156194_j88519275971050_1_alg».proof.Proof.LibMatmulRows
import proofs.«156194_j88519275971050_1_alg».proof.Proof.LibHostBroadcast
import proofs.«156194_j88519275971050_1_alg».proof.Proof.LibLogSoftmaxRow
import Idealize.ShloMosaic.Lib.Pipeline.Value
import Idealize.ShloMosaic.Lib.ValueIdx
import Idealize.ShloMosaic.Lib.ValueLayout

set_option maxRecDepth 16384

noncomputable section

namespace Cert.KernelIdeal.Hand.R4

open Cert.KernelIdeal Cert.KernelIdeal.Gen
open Idealize.ShloMosaic Idealize.ShloMosaic.TcCoe Idealize.SL.Sem Idealize.ShloMosaic.ValueIdx
open Idealize.ShloMosaic.Pipeline (Dat)

/-- The host's log-softmax of the host's logits of features H, weights Wl and a 1 by 10 bias row B: what the region's
    result array ends holding. -/
abbrev G (H : FVec Ideal S100000x128 .f32) (Wl : FVec Ideal S128x10 .f32) (B : FVec Ideal S1x10 .f32) : FVec Ideal S100000x10 .f32 :=
  Cert.Gcn.logSoftmax (Cert.Gcn.logitsRow H Wl B)

theorem hz2 : (![0, 0] : Fin 2 → Nat) = fun _ => 0 := funext fun a => by fin_cases a <;> rfl

/-! ## The two records of dimension numbers: the free axes -/

theorem kd_l0 (i : S2000x10.Idx) (q : dot_S2000x128_S128x10_S2000x10_1_0_0_1_n_n.contr.Idx) :
    (dot_S2000x128_S128x10_S2000x10_1_0_0_1_n_n.lhsIdx i q 0).val = (i 0).val := by
  unfold DotDims.lhsIdx
  rw [dif_neg (show ¬(0 : Fin S2000x128.rank) ∈ dot_S2000x128_S128x10_S2000x10_1_0_0_1_n_n.lhsBatch by decide),
    dif_pos (show (0 : Fin S2000x128.rank) ∈ dot_S2000x128_S128x10_S2000x10_1_0_0_1_n_n.lhsNonContracting by decide)]
  rfl

theorem kd_r1 (i : S2000x10.Idx) (q : dot_S2000x128_S128x10_S2000x10_1_0_0_1_n_n.contr.Idx) :
    (dot_S2000x128_S128x10_S2000x10_1_0_0_1_n_n.rhsIdx i q 1).val = (i 1).val := by
  unfold DotDims.rhsIdx
  rw [dif_neg (show ¬(1 : Fin S128x10.rank) ∈ dot_S2000x128_S128x10_S2000x10_1_0_0_1_n_n.rhsBatch by decide),
    dif_pos (show (1 : Fin S128x10.rank) ∈ dot_S2000x128_S128x10_S2000x10_1_0_0_1_n_n.rhsNonContracting by decide)]
  rfl

theorem hd_l0 (i : S100000x10.Idx) (q : Cert.ReferenceIdeal.dot_S100000x128_S128x10_S100000x10_1_0_0_1_n_n.contr.Idx) :
    (Cert.ReferenceIdeal.dot_S100000x128_S128x10_S100000x10_1_0_0_1_n_n.lhsIdx i q 0).val = (i 0).val := by
  unfold DotDims.lhsIdx
  rw [dif_neg (show ¬(0 : Fin S100000x128.rank) ∈ Cert.ReferenceIdeal.dot_S100000x128_S128x10_S100000x10_1_0_0_1_n_n.lhsBatch by decide),
    dif_pos (show (0 : Fin S100000x128.rank) ∈ Cert.ReferenceIdeal.dot_S100000x128_S128x10_S100000x10_1_0_0_1_n_n.lhsNonContracting by decide)]
  rfl

theorem hd_r1 (i : S100000x10.Idx) (q : Cert.ReferenceIdeal.dot_S100000x128_S128x10_S100000x10_1_0_0_1_n_n.contr.Idx) :
    (Cert.ReferenceIdeal.dot_S100000x128_S128x10_S100000x10_1_0_0_1_n_n.rhsIdx i q 1).val = (i 1).val := by
  unfold DotDims.rhsIdx
  rw [dif_neg (show ¬(1 : Fin S128x10.rank) ∈ Cert.ReferenceIdeal.dot_S100000x128_S128x10_S100000x10_1_0_0_1_n_n.rhsBatch by decide),
    dif_pos (show (1 : Fin S128x10.rank) ∈ Cert.ReferenceIdeal.dot_S100000x128_S128x10_S100000x10_1_0_0_1_n_n.rhsNonContracting by decide)]
  rfl

/-- The host's shape condition for a reduction along the rows, in the kernel operation's form. -/
theorem hostReduces : Cert.ReferenceIdeal.S100000x10.Reduces [1] Cert.ReferenceIdeal.S100000 := by decide

/-! ## One entry of a block -/

/-- The block's logits: the body's product plus the bias row repeated down the block. -/
abbrev blockLogits (x0 : Vec Ideal S2000x128 .f32) (x1 : Vec Ideal S128x10 .f32) (x2 : Vec Ideal S1x10 .f32) : FVec Ideal S2000x10 .f32 :=
  addf (matmul dot_S2000x128_S128x10_S2000x10_1_0_0_1_n_n none
      (truncf .bf16 (shapeCast S2000x128 x0 Facts₀.shapeCasts_S2000x128_S2000x128) bitsLt_bf16_f32) (truncf .bf16 x1 bitsLt_bf16_f32)
      (constant S2000x10 .f32 0x00000000#32))
    (broadcastTo S2000x10 (shapeCast S1x10 x2 Facts₀.shapeCasts_S1x10_S1x10) Facts₀.broadcasts_S1x10_S2000x10)

/-- A logit of the block, whose row p is row r of H, is the host's logit at row r. -/
theorem logit_entry (x0 : Vec Ideal S2000x128 .f32) (x1 : Vec Ideal S128x10 .f32) (x2 : Vec Ideal S1x10 .f32)
    (H : FVec Ideal S100000x128 .f32) (Wl : FVec Ideal S128x10 .f32) (B : FVec Ideal S1x10 .f32)
    (p : Fin 2000) (r : Fin 100000) (j : Fin 10)
    (hrow : ∀ k : Fin 128, x0 (ix2 p k) = H (ix2 r k)) (hw : ∀ (k : Fin 128) (j' : Fin 10), x1 (ix2 k j') = Wl (ix2 k j'))
    (hb : ∀ j' : Fin 10, x2 (ix2 (0 : Fin 1) j') = B (ix2 (0 : Fin 1) j')) :
    blockLogits x0 x1 x2 (ix2 p j) = Cert.Gcn.logitsRow H Wl B (ix2 r j) := by
  unfold Cert.Gcn.logitsRow
  dsimp only [blockLogits]
  rw [ValueIdx.addf_apply, ValueIdx.broadcastTo_1b_ab_apply, shapeCast_self, shapeCast_self, ValueIdx.addf_apply,
    HostBroadcast.row_rows_apply, hb j]
  refine congrArg (· + B (ix2 (0 : Fin 1) j)) ?_
  refine (MatmulRows.matmul_zero_rows dot_S2000x128_S128x10_S2000x10_1_0_0_1_n_n none rfl rfl rfl rfl kd_l0 kd_r1 _ _ (ix2 p j)
    (fun k => H (ix2 r k)) (fun k => Wl (ix2 k j)) (fun k => hrow k) (fun k => hw k j)).trans ?_
  exact (MatmulRows.dotGeneral_apply Cert.ReferenceIdeal.dot_S100000x128_S128x10_S100000x10_1_0_0_1_n_n none _ rfl rfl rfl rfl hd_l0 hd_r1 H Wl (ix2 r j)).symm

/-- Entry (p, j) of the body's result on a block whose row p is row r of H is entry (r, j) of the host's result. -/
theorem pay_entry (x0 : Vec Ideal S2000x128 .f32) (x1 : Vec Ideal S128x10 .f32) (x2 : Vec Ideal S1x10 .f32)
    (H : FVec Ideal S100000x128 .f32) (Wl : FVec Ideal S128x10 .f32) (B : FVec Ideal S1x10 .f32)
    (p : Fin 2000) (r : Fin 100000) (j : Fin 10)
    (hrow : ∀ k : Fin 128, x0 (ix2 p k) = H (ix2 r k)) (hw : ∀ (k : Fin 128) (j' : Fin 10), x1 (ix2 k j') = Wl (ix2 k j'))
    (hb : ∀ j' : Fin 10, x2 (ix2 (0 : Fin 1) j') = B (ix2 (0 : Fin 1) j')) :
    k4_pay1 (F := Ideal) x0 x1 x2 (ix2 p j) = G H Wl B (ix2 r j) := by
  unfold k4_pay1
  refine (LogSoftmaxRow.kernel_row (blockLogits x0 x1 x2) Facts₀.reduces_S2000x10_S2000 (.inl rfl) rfl rfl
    Facts₀.shapeCasts_S2000_S2000x1 Facts₀.broadcasts_S2000x1_S2000x10 p j).trans ?_
  refine Eq.trans ?_ (LogSoftmaxRow.host_row (Cert.Gcn.logitsRow H Wl B) Cert.ReferenceIdeal.Facts₀.bcast_S_S100000
    Cert.ReferenceIdeal.Facts₀.reducesTo_S100000x10_S100000_d1 Cert.ReferenceIdeal.Facts₀.h_S_ hostReduces
    Cert.ReferenceIdeal.Facts₀.bcast_S100000_S100000x1_0 Cert.ReferenceIdeal.Facts₀.bcast_S100000x1_S100000x10_0_1 r j).symm
  exact congrArg (fun z => LogSoftmaxRow.lsm z j) (funext fun j' => logit_entry x0 x1 x2 H Wl B p r j' hrow hw hb)

/-! ## From blocks to the array -/

variable (V : (c : Dev nD) → (b : Ref sig .tc) → Buf (Elt Ideal) ((c : Thread nD τ).loc b))

/-- The printed index maps, decided over the grid: the features' block and the result's block move together along the
    rows, every other block index is zero, and the row block index stays below 50. -/
theorem idx_facts : ∀ t : Fin cfg4.N, win4_0.index t (0 : Fin 2) = win4_3.index t (0 : Fin 2)
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (1 : Fin 2) = 0
    ∧ win4_3.index t (0 : Fin 2) ≤ 49 :=
  (by decide +kernel : ∀ t : Fin grid4.N, _)

/-- Every row block is some point's. -/
theorem idx_onto : ∀ q0 : Fin 50, ∃ t : Fin cfg4.N, win4_3.index t = ![q0.val, 0] :=
  (by decide +kernel : ∀ q0 : Fin 50, ∃ t : Fin grid4.N, win4_3.index t = ![q0.val, 0])

/-- What point t writes back is block t of the host's result on the three arrays as the region finds them. -/
theorem flushed_eq (c : Dev nD) (t : Fin cfg4.N) :
    (dat4 V c).flushed 3 t = ((cfg4.win 3).blk t).view.read (Elt Ideal) (G (V c main_v61) (V c main_arg6) (V c main_v62)) := by
  show (cfg4.win 3).cut (grid4.coords t) ((dat4 V c).after 3 t) = _
  rw [after4_3]
  unfold out4_3
  rw [View.canon_unit_zero hz2]
  simp only [View.ld_unit_zero (S := S2000x128) hz2, View.ld_unit_zero (S := S128x10) hz2, View.ld_unit_zero (S := S1x10) hz2]
  obtain ⟨e0, e1, e2, e3, e4, e5, e6, e7⟩ := idx_facts t
  funext jj
  obtain ⟨p, j, rfl⟩ : ∃ (p : Fin 2000) (j : Fin 10), jj = ix2 p j := ⟨jj 0, jj 1, eq_ix2 jj⟩
  have hr : win4_3.index t (0 : Fin 2) * 2000 + 1 * p.val < 100000 := by have := p.isLt; omega
  show k4_pay1 (iblk4 V c 0 t) (iblk4 V c 1 t) (iblk4 V c 2 t) (ix2 p j)
    = G (V c main_v61) (V c main_arg6) (V c main_v62) (((cfg4.win 3).blk t).view.emb (ix2 p j))
  have hemb : ((cfg4.win 3).blk t).view.emb (ix2 p j) = ix2 (⟨win4_3.index t (0 : Fin 2) * 2000 + 1 * p.val, hr⟩ : Fin 100000) j := by
    funext a; apply Fin.ext
    match a with
    | ⟨0, _⟩ => rfl
    | ⟨1, _⟩ => show win4_3.index t (1 : Fin 2) * 10 + 1 * j.val = j.val; omega
  rw [hemb]
  refine pay_entry _ _ _ _ _ _ p _ j (fun k => ?_) (fun k j' => ?_) (fun j' => ?_)
  · show V c main_v61 (((cfg4.win 0).blk t).view.emb (ix2 p k)) = V c main_v61 (ix2 _ k)
    refine congrArg (V c main_v61) ?_
    funext a; apply Fin.ext
    match a with
    | ⟨0, _⟩ => show win4_0.index t (0 : Fin 2) * 2000 + 1 * p.val = win4_3.index t (0 : Fin 2) * 2000 + 1 * p.val; omega
    | ⟨1, _⟩ => show win4_0.index t (1 : Fin 2) * 128 + 1 * k.val = k.val; omega
  · show V c main_arg6 (((cfg4.win 1).blk t).view.emb (ix2 k j')) = V c main_arg6 (ix2 k j')
    refine congrArg (V c main_arg6) ?_
    funext a; apply Fin.ext
    match a with
    | ⟨0, _⟩ => show win4_1.index t (0 : Fin 2) * 128 + 1 * k.val = k.val; omega
    | ⟨1, _⟩ => show win4_1.index t (1 : Fin 2) * 10 + 1 * j'.val = j'.val; omega
  · show V c main_v62 (((cfg4.win 2).blk t).view.emb (ix2 (0 : Fin 1) j')) = V c main_v62 (ix2 (0 : Fin 1) j')
    refine congrArg (V c main_v62) ?_
    funext a; apply Fin.ext
    match a with
    | ⟨0, _⟩ => show win4_2.index t (0 : Fin 2) * 1 + 1 * 0 = 0; omega
    | ⟨1, _⟩ => show win4_2.index t (1 : Fin 2) * 10 + 1 * j'.val = j'.val; omega

/-- An index of the result array is in point t's block iff each coordinate is in the block's range on its axis. -/
theorem mem_blk (t : Fin cfg4.N) (i : S100000x10.Idx) :
    i ∈ ((cfg4.win 3).blk t).view.set ↔ ∀ a : Fin 2, win4_3.index t a * S2000x10.size a ≤ (i a).val ∧ (i a).val < win4_3.index t a * S2000x10.size a + S2000x10.size a := by
  show i ∈ ((View.whole main_v63).slice (win4_3.rect t)).set ↔ _
  rw [View.set_slice_whole, Rect.mem_set_unit]
  exact Iff.rfl

/-- Every index of the result array lies in the block of the point whose row block holds its row. -/
theorem cover (i : S100000x10.Idx) :
    ∃ t : Fin cfg4.N, (cfg4.win 3).flush t = true ∧ i ∈ ((cfg4.win 3).blk t).view.set := by
  have hi0 : (i 0).val < 100000 := (i 0).isLt
  have hi1 : (i 1).val < 10 := (i 1).isLt
  obtain ⟨t, ht⟩ := idx_onto ⟨(i 0).val / 2000, by omega⟩
  have q0 : win4_3.index t (0 : Fin 2) = (i 0).val / 2000 := congrFun ht 0
  have q1 : win4_3.index t (1 : Fin 2) = 0 := congrFun ht 1
  refine ⟨t, flush4_3 t, ?_⟩
  rw [mem_blk]
  intro a
  match a with
  | ⟨0, _⟩ => show win4_3.index t (0 : Fin 2) * 2000 ≤ (i 0).val ∧ (i 0).val < win4_3.index t (0 : Fin 2) * 2000 + 2000; omega
  | ⟨1, _⟩ => show win4_3.index t (1 : Fin 2) * 10 ≤ (i 1).val ∧ (i 1).val < win4_3.index t (1 : Fin 2) * 10 + 10; omega

/-- The result array after the region: the host's log-softmax of the host's logits of the three arrays as the region
    finds them. -/
theorem final (c : Dev nD) : (dat4 V c).arrAt 3 cfg4.N = G (V c main_v61) (V c main_arg6) (V c main_v62) :=
  (dat4 V c).arrAt_eq_of_cover 3 (G (V c main_v61) (V c main_arg6) (V c main_v62)) (fun t _ => flushed_eq V c t) cover

end Cert.KernelIdeal.Hand.R4

end
-- ==== Proof.LibVectorAsMatrix.lean ====
/-
  A length-n vector reshaped to a 1 × n row or to an n × 1 column, read at an index.

  A reshape keeps row-major positions. Entry (0, q) of the row has position q, and entry (r, 0) of the column has
  position r, so each reads the vector at its free coordinate. This is what a bias `b.reshape(1, n)` or a per-row
  scale `s.reshape(n, 1)` holds, for any element type.
-/
import Idealize.ShloMosaic.Lib.Pipeline.Value
import Idealize.ShloMosaic.Lib.ValueIdx

noncomputable section

namespace Idealize.ShloMosaic.VectorAsMatrix

open Idealize.ShloMosaic Idealize.ShloMosaic.ValueIdx

variable {α : Type} {n : Nat}

/-- [n] reshaped to [1, n]: entry (0, q) is the vector's entry q. -/
theorem row_apply (v : (⟨1, ![n]⟩ : Shape).Idx → α) (h : (⟨1, ![n]⟩ : Shape).ShapeCasts ⟨2, ![1, n]⟩) (p : Fin 1)
    (q : Fin n) : shapeCast ⟨2, ![1, n]⟩ v h (ix2 p q) = v (ix1 q) :=
  shapeCast_apply v h (ix2 p q) (ix1 q) (by
    rw [Shape.rowMajor_val_one, Shape.rowMajor_val_two]
    have hp : p = 0 := Fin.ext (by have := p.isLt; omega)
    subst hp
    show q.val = 0 * n + q.val
    omega)

/-- [n] reshaped to [n, 1]: entry (r, 0) is the vector's entry r. -/
theorem col_apply (v : (⟨1, ![n]⟩ : Shape).Idx → α) (h : (⟨1, ![n]⟩ : Shape).ShapeCasts ⟨2, ![n, 1]⟩) (r : Fin n)
    (q : Fin 1) : shapeCast ⟨2, ![n, 1]⟩ v h (ix2 r q) = v (ix1 r) :=
  shapeCast_apply v h (ix2 r q) (ix1 r) (by
    rw [Shape.rowMajor_val_one, Shape.rowMajor_val_two]
    have hq : q = 0 := Fin.ext (by have := q.isLt; omega)
    subst hq
    show r.val = r.val * 1 + 0
    omega)

end Idealize.ShloMosaic.VectorAsMatrix

end
-- ==== Proof.KChain.lean ====
/-
  The kernel's program, read: what its result buffer holds at the end, as the network's function of the argument arrays.

  The contents at the eleven segment boundaries are followed buffer by buffer. A buffer that a stretch of host
  operations does not write, and that is not an array of a region, keeps its contents across it; so the argument
  arrays, the two endpoint vectors and the edge weights reach the segments that read them unchanged. The first three
  stretches compute the endpoint vectors and the edge weights; region 0 leaves the first product; the next stretch the
  first aggregation and the bias as a row; region 1 the first layer; region 2 the second product; the next stretch
  the second aggregation; region 3 the second layer; region 4 the log-softmax of the last dense layer. A bias vector
  reshaped to a one-row matrix is the vector broadcast along the row, which is how the reference spells it.
-/
import proofs.«156194_j88519275971050_1_alg».proof.Proof.KRun
import proofs.«156194_j88519275971050_1_alg».proof.Proof.Spec
import proofs.«156194_j88519275971050_1_alg».proof.Proof.Region0
import proofs.«156194_j88519275971050_1_alg».proof.Proof.Region1
import proofs.«156194_j88519275971050_1_alg».proof.Proof.Region2
import proofs.«156194_j88519275971050_1_alg».proof.Proof.Region3
import proofs.«156194_j88519275971050_1_alg».proof.Proof.Region4
import proofs.«156194_j88519275971050_1_alg».proof.Proof.LibVectorAsMatrix
import proofs.«156194_j88519275971050_1_alg».proof.Proof.LibHostBroadcast
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx Idealize.ShloMosaic.StableHlo

/-- A buffer that no operation of a stretch writes keeps its contents across the stretch: the stretch's operations'
    written buffers are listed and each differs from it. -/
macro "stretch_keeps " ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- A length-n vector reshaped to a one-row matrix is the vector broadcast along the row. -/
theorem row_cast_eq_broadcast {α : Type} {n : ℕ} (v : (⟨1, ![n]⟩ : Shape).Idx → α)
    (h : (⟨1, ![n]⟩ : Shape).ShapeCasts ⟨2, ![1, n]⟩) (h' : (⟨1, ![n]⟩ : Shape).BroadcastsInDim ⟨2, ![1, n]⟩ ![1]) :
    shapeCast ⟨2, ![1, n]⟩ v h = broadcastInDim ⟨2, ![1, n]⟩ ![1] h' v := by
  funext j
  obtain ⟨p, q, rfl⟩ : ∃ (p : Fin 1) (q : Fin n), j = ix2 p q := ⟨j 0, j 1, eq_ix2 j⟩
  rw [VectorAsMatrix.row_apply, HostBroadcast.vec_row_apply]
  rfl

variable (m : (ℓ : Loc nD τ sig) → Buf (Elt Ideal) ℓ) (ρ : Dev nD → PrngReg)

/-! ## Buffers carried unchanged -/

/-- The node features reach region 0 as launched. -/
theorem arg0_3 (c : Dev nD) : W3 m ρ c (Proc.devRef .tc main_arg0) = W0 m ρ c (Proc.devRef .tc main_arg0) :=
  calc W3 m ρ c (Proc.devRef .tc main_arg0)
    _ = W2 m ρ c (Proc.devRef .tc main_arg0) := by stretch_keeps hostOps0_2
    _ = W1 m ρ c (Proc.devRef .tc main_arg0) := by stretch_keeps hostOps0_1
    _ = W0 m ρ c (Proc.devRef .tc main_arg0) := by stretch_keeps hostOps0
/-- The first weight matrix reaches region 0 as launched. -/
theorem arg2_3 (c : Dev nD) : W3 m ρ c (Proc.devRef .tc main_arg2) = W0 m ρ c (Proc.devRef .tc main_arg2) :=
  calc W3 m ρ c (Proc.devRef .tc main_arg2)
    _ = W2 m ρ c (Proc.devRef .tc main_arg2) := by stretch_keeps hostOps0_2
    _ = W1 m ρ c (Proc.devRef .tc main_arg2) := by stretch_keeps hostOps0_1
    _ = W0 m ρ c (Proc.devRef .tc main_arg2) := by stretch_keeps hostOps0
/-- The first bias reaches the stretch after region 0 as launched. -/
theorem arg3_4 (c : Dev nD) : W4 m ρ c (Proc.devRef .tc main_arg3) = W0 m ρ c (Proc.devRef .tc main_arg3) :=
  calc W4 m ρ c (Proc.devRef .tc main_arg3)
    _ = W3 m ρ c (Proc.devRef .tc main_arg3) := W4_of_ne m ρ c main_arg3 (by decide)
    _ = W2 m ρ c (Proc.devRef .tc main_arg3) := by stretch_keeps hostOps0_2
    _ = W1 m ρ c (Proc.devRef .tc main_arg3) := by stretch_keeps hostOps0_1
    _ = W0 m ρ c (Proc.devRef .tc main_arg3) := by stretch_keeps hostOps0
/-- The second weight matrix reaches region 2 as launched. -/
theorem arg4_6 (c : Dev nD) : W6 m ρ c (Proc.devRef .tc main_arg4) = W0 m ρ c (Proc.devRef .tc main_arg4) :=
  calc W6 m ρ c (Proc.devRef .tc main_arg4)
    _ = W5 m ρ c (Proc.devRef .tc main_arg4) := W6_of_ne m ρ c main_arg4 (by decide)
    _ = W4 m ρ c (Proc.devRef .tc main_arg4) := by stretch_keeps hostOps1
    _ = W3 m ρ c (Proc.devRef .tc main_arg4) := W4_of_ne m ρ c main_arg4 (by decide)
    _ = W2 m ρ c (Proc.devRef .tc main_arg4) := by stretch_keeps hostOps0_2
    _ = W1 m ρ c (Proc.devRef .tc main_arg4) := by stretch_keeps hostOps0_1
    _ = W0 m ρ c (Proc.devRef .tc main_arg4) := by stretch_keeps hostOps0
/-- The second bias reaches the stretch after region 2 as launched. -/
theorem arg5_7 (c : Dev nD) : W7 m ρ c (Proc.devRef .tc main_arg5) = W0 m ρ c (Proc.devRef .tc main_arg5) :=
  calc W7 m ρ c (Proc.devRef .tc main_arg5)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := by stretch_keeps hostOps1
    _ = W3 m ρ c (Proc.devRef .tc main_arg5) := W4_of_ne m ρ c main_arg5 (by decide)
    _ = W2 m ρ c (Proc.devRef .tc main_arg5) := by stretch_keeps hostOps0_2
    _ = W1 m ρ c (Proc.devRef .tc main_arg5) := by stretch_keeps hostOps0_1
    _ = W0 m ρ c (Proc.devRef .tc main_arg5) := by stretch_keeps hostOps0
/-- The last bias reaches the stretch after region 3 as launched. -/
theorem arg7_9 (c : Dev nD) : W9 m ρ c (Proc.devRef .tc main_arg7) = W0 m ρ c (Proc.devRef .tc main_arg7) :=
  calc W9 m ρ c (Proc.devRef .tc main_arg7)
    _ = W8 m ρ c (Proc.devRef .tc main_arg7) := W9_of_ne m ρ c main_arg7 (by decide)
    _ = W7 m ρ c (Proc.devRef .tc main_arg7) := by stretch_keeps hostOps3
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := by stretch_keeps hostOps1
    _ = W3 m ρ c (Proc.devRef .tc main_arg7) := W4_of_ne m ρ c main_arg7 (by decide)
    _ = W2 m ρ c (Proc.devRef .tc main_arg7) := by stretch_keeps hostOps0_2
    _ = W1 m ρ c (Proc.devRef .tc main_arg7) := by stretch_keeps hostOps0_1
    _ = W0 m ρ c (Proc.devRef .tc main_arg7) := by stretch_keeps hostOps0
/-- The last weight matrix reaches region 4 as launched. -/
theorem arg6_10 (c : Dev nD) : W10 m ρ c (Proc.devRef .tc main_arg6) = W0 m ρ c (Proc.devRef .tc main_arg6) :=
  calc W10 m ρ c (Proc.devRef .tc main_arg6)
    _ = W9 m ρ c (Proc.devRef .tc main_arg6) := by stretch_keeps hostOps4
    _ = W8 m ρ c (Proc.devRef .tc main_arg6) := W9_of_ne m ρ c main_arg6 (by decide)
    _ = W7 m ρ c (Proc.devRef .tc main_arg6) := by stretch_keeps hostOps3
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := by stretch_keeps hostOps1
    _ = W3 m ρ c (Proc.devRef .tc main_arg6) := W4_of_ne m ρ c main_arg6 (by decide)
    _ = W2 m ρ c (Proc.devRef .tc main_arg6) := by stretch_keeps hostOps0_2
    _ = W1 m ρ c (Proc.devRef .tc main_arg6) := by stretch_keeps hostOps0_1
    _ = W0 m ρ c (Proc.devRef .tc main_arg6) := by stretch_keeps hostOps0
/-- The source vector after region 0. -/
theorem v3_4 (c : Dev nD) : W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)
/-- The destination vector after region 0. -/
theorem v6_4 (c : Dev nD) : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)
/-- The edge weights after region 0. -/
theorem v29_4 (c : Dev nD) : W4 m ρ c (Proc.devRef .tc main_v29) = W3 m ρ c (Proc.devRef .tc main_v29) :=
  calc W4 m ρ c (Proc.devRef .tc main_v29)
    _ = W3 m ρ c (Proc.devRef .tc main_v29) := W4_of_ne m ρ c main_v29 (by decide)
/-- The source vector after region 2. -/
theorem v3_7 (c : Dev nD) : W7 m ρ c (Proc.devRef .tc main_v3) = W3 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := by stretch_keeps hostOps1
    _ = W3 m ρ c (Proc.devRef .tc main_v3) := W4_of_ne m ρ c main_v3 (by decide)
/-- The destination vector after region 2. -/
theorem v6_7 (c : Dev nD) : W7 m ρ c (Proc.devRef .tc main_v6) = W3 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := by stretch_keeps hostOps1
    _ = W3 m ρ c (Proc.devRef .tc main_v6) := W4_of_ne m ρ c main_v6 (by decide)
/-- The edge weights after region 2. -/
theorem v29_7 (c : Dev nD) : W7 m ρ c (Proc.devRef .tc main_v29) = W3 m ρ c (Proc.devRef .tc main_v29) :=
  calc W7 m ρ c (Proc.devRef .tc main_v29)
    _ = W6 m ρ c (Proc.devRef .tc main_v29) := W7_of_ne m ρ c main_v29 (by decide)
    _ = W5 m ρ c (Proc.devRef .tc main_v29) := W6_of_ne m ρ c main_v29 (by decide)
    _ = W4 m ρ c (Proc.devRef .tc main_v29) := by stretch_keeps hostOps1
    _ = W3 m ρ c (Proc.devRef .tc main_v29) := W4_of_ne m ρ c main_v29 (by decide)
/-- The second layer's features reach region 4 as region 3 left them. -/
theorem v61_10 (c : Dev nD) : W10 m ρ c (Proc.devRef .tc main_v61) = W9 m ρ c (Proc.devRef .tc main_v61) :=
  calc W10 m ρ c (Proc.devRef .tc main_v61)
    _ = W9 m ρ c (Proc.devRef .tc main_v61) := by stretch_keeps hostOps4

/-! ## The first three stretches: the endpoint vectors and the edge weights -/

section Plain
variable {F : FTy → Type} [FloatOps F]

/-- The three operations of the select that the program calls as a function, on plain references. An operation of a
    called function reads and writes its buffers through a transport along each buffer's declared type; at each of
    the call's buffers that type is the value's own and the transports are identities. -/
abbrev whereOps : List (HloOp τ sig (Elt F)) :=
  [ unary main_cst_2 main_call0_v0 (id : (⟨S_, .f32⟩ : BufTy).Contents (Elt F) → (⟨S_, .f32⟩ : BufTy).Contents (Elt F)),
    unary main_call0_v0 main_call0_v1 (broadcastInDim S100000 ![] Facts₀.bcast_S_S100000 : (⟨S_, .f32⟩ : BufTy).Contents (Elt F) → (⟨S100000, .f32⟩ : BufTy).Contents (Elt F)),
    ternary main_v12 main_v13 main_call0_v1 main_v14 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) ]

theorem where_ops_eq : (hostOps0_1 : List (HloOp τ sig (Elt F))) = whereOps := rfl

end Plain

theorem v3_3 (c : Dev nD) : W3 m ρ c (Proc.devRef .tc main_v3) = Cert.Gcn.src (m ((c : Thread nD τ).loc main_arg1)) := by
  dsimp only [W3, W2, W1, hostOps0, hostOps0_1, hostOps0_2]
  after_results_simp
  rfl

theorem v6_3 (c : Dev nD) : W3 m ρ c (Proc.devRef .tc main_v6) = Cert.Gcn.dst (m ((c : Thread nD τ).loc main_arg1)) := by
  dsimp only [W3, W2, W1, hostOps0, hostOps0_1, hostOps0_2]
  after_results_simp
  rfl

theorem v29_3 (c : Dev nD) : W3 m ρ c (Proc.devRef .tc main_v29) = Cert.Gcn.norm (m ((c : Thread nD τ).loc main_arg1)) := by
  dsimp only [W3, W2, W1]
  rw [where_ops_eq]
  dsimp only [hostOps0, whereOps, hostOps0_2]
  after_results_simp
  rfl

/-! ## The stretches between the regions -/

theorem v43_5 (c : Dev nD) : W5 m ρ c (Proc.devRef .tc main_v43)
    = Cert.Gcn.aggOf (W4 m ρ c (Proc.devRef .tc main_v3)) (W4 m ρ c (Proc.devRef .tc main_v6)) (W4 m ρ c (Proc.devRef .tc main_v29)) (W4 m ρ c (Proc.devRef .tc main_v30)) := by
  dsimp only [W5, hostOps1]
  after_results_simp
  rfl

theorem v44_5 (c : Dev nD) : W5 m ρ c (Proc.devRef .tc main_v44)
    = shapeCast S1x128 (W4 m ρ c (Proc.devRef .tc main_arg3)) Facts₀.shapeCasts_S128_S1x128 := by
  dsimp only [W5, hostOps1]
  after_results_simp
  rfl

theorem v59_8 (c : Dev nD) : W8 m ρ c (Proc.devRef .tc main_v59)
    = Cert.Gcn.aggOf (W7 m ρ c (Proc.devRef .tc main_v3)) (W7 m ρ c (Proc.devRef .tc main_v6)) (W7 m ρ c (Proc.devRef .tc main_v29)) (W7 m ρ c (Proc.devRef .tc main_v46)) := by
  dsimp only [W8, hostOps3]
  after_results_simp
  rfl

theorem v60_8 (c : Dev nD) : W8 m ρ c (Proc.devRef .tc main_v60)
    = shapeCast S1x128 (W7 m ρ c (Proc.devRef .tc main_arg5)) Facts₀.shapeCasts_S128_S1x128 := by
  dsimp only [W8, hostOps3]
  after_results_simp
  rfl

theorem v62_10 (c : Dev nD) : W10 m ρ c (Proc.devRef .tc main_v62)
    = shapeCast S1x10 (W9 m ρ c (Proc.devRef .tc main_arg7)) Facts₀.shapeCasts_S10_S1x10 := by
  dsimp only [W10, hostOps4]
  after_results_simp
  rfl

/-! ## The regions -/

theorem v30_4 (c : Dev nD) : W4 m ρ c (Proc.devRef .tc main_v30)
    = R0.G (W3 m ρ c (Proc.devRef .tc main_arg0)) (W3 m ρ c (Proc.devRef .tc main_arg2)) :=
  (W4_arr m ρ c 2).trans (R0.final (V3 m ρ) c)

theorem v45_6 (c : Dev nD) : W6 m ρ c (Proc.devRef .tc main_v45)
    = R1.G (W5 m ρ c (Proc.devRef .tc main_v43)) (W5 m ρ c (Proc.devRef .tc main_v44)) :=
  (W6_arr m ρ c 2).trans (R1.final (V5 m ρ) c)

theorem v46_7 (c : Dev nD) : W7 m ρ c (Proc.devRef .tc main_v46)
    = R2.G (W6 m ρ c (Proc.devRef .tc main_v45)) (W6 m ρ c (Proc.devRef .tc main_arg4)) :=
  (W7_arr m ρ c 2).trans (R2.final (V6 m ρ) c)

theorem v61_9 (c : Dev nD) : W9 m ρ c (Proc.devRef .tc main_v61)
    = R3.G (W8 m ρ c (Proc.devRef .tc main_v59)) (W8 m ρ c (Proc.devRef .tc main_v60)) :=
  (W9_arr m ρ c 2).trans (R3.final (V8 m ρ) c)

theorem v63_11 (c : Dev nD) : W11 m ρ c (Proc.devRef .tc main_v63)
    = R4.G (W10 m ρ c (Proc.devRef .tc main_v61)) (W10 m ρ c (Proc.devRef .tc main_arg6)) (W10 m ρ c (Proc.devRef .tc main_v62)) :=
  (W11_arr m ρ c 3).trans (R4.final (V10 m ρ) c)

/-! ## The result -/

/-- The first layer's features, as region 1 leaves them. -/
theorem layer1_6 (c : Dev nD) : W6 m ρ c (Proc.devRef .tc main_v45)
    = Cert.Gcn.layer1 (m ((c : Thread nD τ).loc main_arg1)) (m ((c : Thread nD τ).loc main_arg0))
        (m ((c : Thread nD τ).loc main_arg2)) (m ((c : Thread nD τ).loc main_arg3)) := by
  rw [v45_6, v43_5, v44_5, v3_4, v6_4, v29_4, v30_4, v3_3, v6_3, v29_3, arg0_3, arg2_3, arg3_4]
  rw [row_cast_eq_broadcast _ _ Cert.ReferenceIdeal.Facts₀.bcast_S128_S1x128_1]
  rfl

/-- The second layer's features, as region 3 leaves them. -/
theorem layer2_9 (c : Dev nD) : W9 m ρ c (Proc.devRef .tc main_v61)
    = Cert.Gcn.layer2 (m ((c : Thread nD τ).loc main_arg1))
        (Cert.Gcn.layer1 (m ((c : Thread nD τ).loc main_arg1)) (m ((c : Thread nD τ).loc main_arg0))
          (m ((c : Thread nD τ).loc main_arg2)) (m ((c : Thread nD τ).loc main_arg3)))
        (m ((c : Thread nD τ).loc main_arg4)) (m ((c : Thread nD τ).loc main_arg5)) := by
  rw [v61_9, v59_8, v60_8, v3_7, v6_7, v29_7, v46_7, layer1_6, v3_3, v6_3, v29_3, arg4_6, arg5_7]
  rw [row_cast_eq_broadcast _ _ Cert.ReferenceIdeal.Facts₀.bcast_S128_S1x128_1]
  rfl

/-- The result buffer at the end of the kernel's program is the network's output of the argument arrays. -/
theorem result_11 (c : Dev nD) : W11 m ρ c (Proc.devRef .tc main_v63)
    = Cert.Gcn.out (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7)) := by
  rw [v63_11, v61_10, layer2_9, v62_10, arg6_10, arg7_9]
  rw [row_cast_eq_broadcast _ _ Cert.ReferenceIdeal.Facts₀.bcast_S10_S1x10_1]
  rfl

end Cert.KernelIdeal.Hand

end
-- ==== Proof.RefRun.lean ====
/-
  The reference program, run. Its @main is a straight line of 105 host operations (the four functions it calls, a
  select, two clamps at zero and a row-wise log-softmax, stand inline in their calls' places), so every weakly fair
  execution ends with each buffer at the fold of the operations' results over the launch contents. The line is cut
  into six consecutive stretches, one per stage of the network: the edge weights; a layer's product, gather, scale and
  scatter-add; its bias and clamp; the same two for the second layer; and the last dense layer with the log-softmax.
  The fold over the whole line is the fold over the stretches in turn.
-/
import proofs.«156194_j88519275971050_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The six stretches -/

/-- Operations 1 … 40 of @main. -/
abbrev opsA : List (HloOp τ sig (Elt F)) :=
  [ nullary main_v0 (iotaInDim S100000 32 0),
    unary main_arg1 main_v1 ((extractStridedSlice S1x1000000 ![0, 0] · slices_S2x1000000_S1x1000000_0_0) : (⟨S2x1000000, .i32⟩ : BufTy).Contents (Elt F) → (⟨S1x1000000, .i32⟩ : BufTy).Contents (Elt F)),
    reshape main_v1 main_v2 rfl shapeCasts_S1x1000000_S1000000,
    binary main_v2 main_v0 main_v3 ((fun a b => concatenate S1100000 0 [⟨S1000000, a⟩, ⟨S100000, b⟩] concatenates_S1000000_S100000_S1100000_d0) : (⟨S1000000, .i32⟩ : BufTy).Contents (Elt F) → (⟨S100000, .i32⟩ : BufTy).Contents (Elt F) → (⟨S1100000, .i32⟩ : BufTy).Contents (Elt F)),
    unary main_arg1 main_v4 ((extractStridedSlice S1x1000000 ![1, 0] · slices_S2x1000000_S1x1000000_1_0) : (⟨S2x1000000, .i32⟩ : BufTy).Contents (Elt F) → (⟨S1x1000000, .i32⟩ : BufTy).Contents (Elt F)),
    reshape main_v4 main_v5 rfl shapeCasts_S1x1000000_S1000000,
    binary main_v5 main_v0 main_v6 ((fun a b => concatenate S1100000 0 [⟨S1000000, a⟩, ⟨S100000, b⟩] concatenates_S1000000_S100000_S1100000_d0) : (⟨S1000000, .i32⟩ : BufTy).Contents (Elt F) → (⟨S100000, .i32⟩ : BufTy).Contents (Elt F) → (⟨S1100000, .i32⟩ : BufTy).Contents (Elt F)),
    nullary main_cst (constant S_ .f32 0x3F800000#32),
    unary main_cst main_v7 (broadcastInDim S1100000 ![] bcast_S_S1100000 : (⟨S_, .f32⟩ : BufTy).Contents (Elt F) → (⟨S1100000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1100000x1 ![0] bcast_S1100000_S1100000x1_0 : (⟨S1100000, .i32⟩ : BufTy).Contents (Elt F) → (⟨S1100000x1, .i32⟩ : BufTy).Contents (Elt F)),
    ternary main_v8 main_v9 main_v7 main_v10 ((fun x i u => Host.scatterAdd scatter_S100000_S1100000x1_S1100000_n_0_0_1 x i u) : (⟨S100000, .f32⟩ : BufTy).Contents (Elt F) → (⟨S1100000x1, .i32⟩ : BufTy).Contents (Elt F) → (⟨S1100000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S1100000 ![] bcast_S_S1100000 : (⟨S_, .i32⟩ : BufTy).Contents (Elt F) → (⟨S1100000, .i32⟩ : BufTy).Contents (Elt F)),
    binary main_v3 main_v15 main_v16 (cmpi .slt : (⟨S1100000, .i32⟩ : BufTy).Contents (Elt F) → (⟨S1100000, .i32⟩ : BufTy).Contents (Elt F) → (⟨S1100000, .i1⟩ : BufTy).Contents (Elt F)),
    nullary main_c_3 (constantI S_ 32 100000#32),
    unary main_c_3 main_v17 (broadcastInDim S1100000 ![] bcast_S_S1100000 : (⟨S_, .i32⟩ : BufTy).Contents (Elt F) → (⟨S1100000, .i32⟩ : BufTy).Contents (Elt F)),
    binary main_v3 main_v17 main_v18 (addi : (⟨S1100000, .i32⟩ : BufTy).Contents (Elt F) → (⟨S1100000, .i32⟩ : BufTy).Contents (Elt F) → (⟨S1100000, .i32⟩ : BufTy).Contents (Elt F)),
    ternary main_v16 main_v18 main_v3 main_v19 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    unary main_v19 main_v20 (broadcastInDim S1100000x1 ![0] bcast_S1100000_S1100000x1_0 : (⟨S1100000, .i32⟩ : BufTy).Contents (Elt F) → (⟨S1100000x1, .i32⟩ : BufTy).Contents (Elt F)),
    binary main_v14 main_v20 main_v21 ((fun x i => Host.gather gather_S100000_S1100000x1_S1100000_n_0_n_n_0_1_1 x i) : (⟨S100000, .f32⟩ : BufTy).Contents (Elt F) → (⟨S1100000x1, .i32⟩ : BufTy).Contents (Elt F) → (⟨S1100000, .f32⟩ : BufTy).Contents (Elt F)),
    nullary main_c_4 (constantI S_ 32 0#32),
    unary main_c_4 main_v22 (broadcastInDim S1100000 ![] bcast_S_S1100000 : (⟨S_, .i32⟩ : BufTy).Contents (Elt F) → (⟨S1100000, .i32⟩ : BufTy).Contents (Elt F)),
    binary main_v6 main_v22 main_v23 (cmpi .slt : (⟨S1100000, .i32⟩ : BufTy).Contents (Elt F) → (⟨S1100000, .i32⟩ : BufTy).Contents (Elt F) → (⟨S1100000, .i1⟩ : BufTy).Contents (Elt F)),
    nullary main_c_5 (constantI S_ 32 100000#32),
    unary main_c_5 main_v24 (broadcastInDim S1100000 ![] bcast_S_S1100000 : (⟨S_, .i32⟩ : BufTy).Contents (Elt F) → (⟨S1100000, .i32⟩ : BufTy).Contents (Elt F)),
    binary main_v6 main_v24 main_v25 (addi : (⟨S1100000, .i32⟩ : BufTy).Contents (Elt F) → (⟨S1100000, .i32⟩ : BufTy).Contents (Elt F) → (⟨S1100000, .i32⟩ : BufTy).Contents (Elt F)),
    ternary main_v23 main_v25 main_v6 main_v26 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    unary main_v26 main_v27 (broadcastInDim S1100000x1 ![0] bcast_S1100000_S1100000x1_0 : (⟨S1100000, .i32⟩ : BufTy).Contents (Elt F) → (⟨S1100000x1, .i32⟩ : BufTy).Contents (Elt F)),
    binary main_v14 main_v27 main_v28 ((fun x i => Host.gather gather_S100000_S1100000x1_S1100000_n_0_n_n_0_1_1 x i) : (⟨S100000, .f32⟩ : BufTy).Contents (Elt F) → (⟨S1100000x1, .i32⟩ : BufTy).Contents (Elt F) → (⟨S1100000, .f32⟩ : BufTy).Contents (Elt F)),
    binary main_v21 main_v28 main_v29 (mulf : (⟨S1100000, .f32⟩ : BufTy).Contents (Elt F) → (⟨S1100000, .f32⟩ : BufTy).Contents (Elt F) → (⟨S1100000, .f32⟩ : BufTy).Contents (Elt F)) ]
theorem opsA_sub : (opsA : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

/-- Operations 41 … 57 of @main. -/
abbrev opsB : List (HloOp τ sig (Elt F)) :=
  [ binary main_arg0 main_arg2 main_v30 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    nullary main_c_6 (constantI S_ 32 0#32),
    unary main_c_6 main_v31 (broadcastInDim S1100000 ![] bcast_S_S1100000 : (⟨S_, .i32⟩ : BufTy).Contents (Elt F) → (⟨S1100000, .i32⟩ : BufTy).Contents (Elt F)),
    binary main_v3 main_v31 main_v32 (cmpi .slt : (⟨S1100000, .i32⟩ : BufTy).Contents (Elt F) → (⟨S1100000, .i32⟩ : BufTy).Contents (Elt F) → (⟨S1100000, .i1⟩ : BufTy).Contents (Elt F)),
    nullary main_c_7 (constantI S_ 32 100000#32),
    unary main_c_7 main_v33 (broadcastInDim S1100000 ![] bcast_S_S1100000 : (⟨S_, .i32⟩ : BufTy).Contents (Elt F) → (⟨S1100000, .i32⟩ : BufTy).Contents (Elt F)),
    binary main_v3 main_v33 main_v34 (addi : (⟨S1100000, .i32⟩ : BufTy).Contents (Elt F) → (⟨S1100000, .i32⟩ : BufTy).Contents (Elt F) → (⟨S1100000, .i32⟩ : BufTy).Contents (Elt F)),
    ternary main_v32 main_v34 main_v3 main_v35 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    unary main_v35 main_v36 (broadcastInDim S1100000x1 ![0] bcast_S1100000_S1100000x1_0 : (⟨S1100000, .i32⟩ : BufTy).Contents (Elt F) → (⟨S1100000x1, .i32⟩ : BufTy).Contents (Elt F)),
    binary main_v30 main_v36 main_v37 ((fun x i => Host.gather gather_S100000x128_S1100000x1_S1100000x128_1_0_n_n_0_1_1128 x i) : (⟨S100000x128, .f32⟩ : BufTy).Contents (Elt F) → (⟨S1100000x1, .i32⟩ : BufTy).Contents (Elt F) → (⟨S1100000x128, .f32⟩ : BufTy).Contents (Elt F)),
    unary main_v29 main_v38 (broadcastInDim S1100000x1 ![0] bcast_S1100000_S1100000x1_0 : (⟨S1100000, .f32⟩ : BufTy).Contents (Elt F) → (⟨S1100000x1, .f32⟩ : BufTy).Contents (Elt F)),
    unary main_v38 main_v39 (broadcastInDim S1100000x128 ![0, 1] bcast_S1100000x1_S1100000x128_0_1 : (⟨S1100000x1, .f32⟩ : BufTy).Contents (Elt F) → (⟨S1100000x128, .f32⟩ : BufTy).Contents (Elt F)),
    binary main_v37 main_v39 main_v40 (mulf : (⟨S1100000x128, .f32⟩ : BufTy).Contents (Elt F) → (⟨S1100000x128, .f32⟩ : BufTy).Contents (Elt F) → (⟨S1100000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S1100000x1 ![0] bcast_S1100000_S1100000x1_0 : (⟨S1100000, .i32⟩ : BufTy).Contents (Elt F) → (⟨S1100000x1, .i32⟩ : BufTy).Contents (Elt F)),
    ternary main_v41 main_v42 main_v40 main_v43 ((fun x i u => Host.scatterAdd scatter_S100000x128_S1100000x1_S1100000x128_1_0_0_1 x i u) : (⟨S100000x128, .f32⟩ : BufTy).Contents (Elt F) → (⟨S1100000x1, .i32⟩ : BufTy).Contents (Elt F) → (⟨S1100000x128, .f32⟩ : BufTy).Contents (Elt F) → (⟨S100000x128, .f32⟩ : BufTy).Contents (Elt F)) ]
theorem opsB_sub : (opsB : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩

/-- Operations 58 … 63 of @main. -/
abbrev opsC : List (HloOp τ sig (Elt F)) :=
  [ unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf ]
theorem opsC_sub : (opsC : List (HloOp τ sig (Elt F))).Forall fun op => op.bufs ⊆ tcRefs τ sig :=
  ⟨unary_bufs_sub .., unary_bufs_sub .., binary_bufs_sub .., nullary_bufs_sub .., unary_bufs_sub .., binary_bufs_sub ..⟩

/-- Operations 64 … 80 of @main. -/
abbrev opsD : List (HloOp τ sig (Elt F)) :=
  [ binary main_v47 main_arg4 main_v48 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_9 (constantI S_ 32 0#32),
    unary main_c_9 main_v49 (broadcastInDim S1100000 ![] bcast_S_S1100000 : (⟨S_, .i32⟩ : BufTy).Contents (Elt F) → (⟨S1100000, .i32⟩ : BufTy).Contents (Elt F)),
    binary main_v3 main_v49 main_v50 (cmpi .slt : (⟨S1100000, .i32⟩ : BufTy).Contents (Elt F) → (⟨S1100000, .i32⟩ : BufTy).Contents (Elt F) → (⟨S1100000, .i1⟩ : BufTy).Contents (Elt F)),
    nullary main_c_10 (constantI S_ 32 100000#32),
    unary main_c_10 main_v51 (broadcastInDim S1100000 ![] bcast_S_S1100000 : (⟨S_, .i32⟩ : BufTy).Contents (Elt F) → (⟨S1100000, .i32⟩ : BufTy).Contents (Elt F)),
    binary main_v3 main_v51 main_v52 (addi : (⟨S1100000, .i32⟩ : BufTy).Contents (Elt F) → (⟨S1100000, .i32⟩ : BufTy).Contents (Elt F) → (⟨S1100000, .i32⟩ : BufTy).Contents (Elt F)),
    ternary main_v50 main_v52 main_v3 main_v53 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    unary main_v53 main_v54 (broadcastInDim S1100000x1 ![0] bcast_S1100000_S1100000x1_0 : (⟨S1100000, .i32⟩ : BufTy).Contents (Elt F) → (⟨S1100000x1, .i32⟩ : BufTy).Contents (Elt F)),
    binary main_v48 main_v54 main_v55 ((fun x i => Host.gather gather_S100000x128_S1100000x1_S1100000x128_1_0_n_n_0_1_1128 x i) : (⟨S100000x128, .f32⟩ : BufTy).Contents (Elt F) → (⟨S1100000x1, .i32⟩ : BufTy).Contents (Elt F) → (⟨S1100000x128, .f32⟩ : BufTy).Contents (Elt F)),
    unary main_v29 main_v56 (broadcastInDim S1100000x1 ![0] bcast_S1100000_S1100000x1_0 : (⟨S1100000, .f32⟩ : BufTy).Contents (Elt F) → (⟨S1100000x1, .f32⟩ : BufTy).Contents (Elt F)),
    unary main_v56 main_v57 (broadcastInDim S1100000x128 ![0, 1] bcast_S1100000x1_S1100000x128_0_1 : (⟨S1100000x1, .f32⟩ : BufTy).Contents (Elt F) → (⟨S1100000x128, .f32⟩ : BufTy).Contents (Elt F)),
    binary main_v55 main_v57 main_v58 (mulf : (⟨S1100000x128, .f32⟩ : BufTy).Contents (Elt F) → (⟨S1100000x128, .f32⟩ : BufTy).Contents (Elt F) → (⟨S1100000x128, .f32⟩ : BufTy).Contents (Elt F)),
    nullary main_cst_11 (constant S_ .f32 0x00000000#32),
    unary main_cst_11 main_v59 (broadcastInDim S100000x128 ![] bcast_S_S100000x128 : (⟨S_, .f32⟩ : BufTy).Contents (Elt F) → (⟨S100000x128, .f32⟩ : BufTy).Contents (Elt F)),
    unary main_v6 main_v60 (broadcastInDim S1100000x1 ![0] bcast_S1100000_S1100000x1_0 : (⟨S1100000, .i32⟩ : BufTy).Contents (Elt F) → (⟨S1100000x1, .i32⟩ : BufTy).Contents (Elt F)),
    ternary main_v59 main_v60 main_v58 main_v61 ((fun x i u => Host.scatterAdd scatter_S100000x128_S1100000x1_S1100000x128_1_0_0_1 x i u) : (⟨S100000x128, .f32⟩ : BufTy).Contents (Elt F) → (⟨S1100000x1, .i32⟩ : BufTy).Contents (Elt F) → (⟨S1100000x128, .f32⟩ : BufTy).Contents (Elt F) → (⟨S100000x128, .f32⟩ : BufTy).Contents (Elt F)) ]
theorem opsD_sub : (opsD : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩

/-- Operations 81 … 86 of @main. -/
abbrev opsE : List (HloOp τ sig (Elt F)) :=
  [ unary main_arg5 main_v62 (broadcastInDim S1x128 ![1] bcast_S128_S1x128_1 : (⟨S128, .f32⟩ : BufTy).Contents (Elt F) → (⟨S1x128, .f32⟩ : BufTy).Contents (Elt F)),
    unary main_v62 main_v63 (broadcastInDim S100000x128 ![0, 1] bcast_S1x128_S100000x128_0_1 : (⟨S1x128, .f32⟩ : BufTy).Contents (Elt F) → (⟨S100000x128, .f32⟩ : BufTy).Contents (Elt F)),
    binary main_v61 main_v63 main_v64 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v64) (TRef.of (T := ⟨S100000x128, .f32⟩) main_call2_v0) (TRef.of (T := ⟨S100000x128, .f32⟩) main_v65) maximumf ]
theorem opsE_sub : (opsE : List (HloOp τ sig (Elt F))).Forall fun op => op.bufs ⊆ tcRefs τ sig :=
  ⟨unary_bufs_sub .., unary_bufs_sub .., binary_bufs_sub .., nullary_bufs_sub .., unary_bufs_sub .., binary_bufs_sub ..⟩

/-- Operations 87 … 105 of @main. -/
abbrev opsG : List (HloOp τ sig (Elt F)) :=
  [ binary main_v65 main_arg6 main_v66 ((fun l r => Host.dotGeneral dot_S100000x128_S128x10_S100000x10_1_0_0_1_n_n none l r) : (⟨S100000x128, .f32⟩ : BufTy).Contents (Elt F) → (⟨S128x10, .f32⟩ : BufTy).Contents (Elt F) → (⟨S100000x10, .f32⟩ : BufTy).Contents (Elt F)),
    unary main_arg7 main_v67 (broadcastInDim S1x10 ![1] bcast_S10_S1x10_1 : (⟨S10, .f32⟩ : BufTy).Contents (Elt F) → (⟨S1x10, .f32⟩ : BufTy).Contents (Elt F)),
    unary main_v67 main_v68 (broadcastInDim S100000x10 ![0, 1] bcast_S1x10_S100000x10_0_1 : (⟨S1x10, .f32⟩ : BufTy).Contents (Elt F) → (⟨S100000x10, .f32⟩ : BufTy).Contents (Elt F)),
    binary main_v66 main_v68 main_v69 (addf : (⟨S100000x10, .f32⟩ : BufTy).Contents (Elt F) → (⟨S100000x10, .f32⟩ : BufTy).Contents (Elt F) → (⟨S100000x10, .f32⟩ : BufTy).Contents (Elt F)),
    TRef.nullary (TRef.of (T := ⟨S_, .f32⟩) main_call3_cst) (constant S_ .f32 0xFF800000#32),
    TRef.binary (TRef.of (T := ⟨S100000x10, .f32⟩) main_v69) (TRef.of (T := ⟨S_, .f32⟩) main_call3_cst) (TRef.of (T := ⟨S100000, .f32⟩) main_call3_v0) (fun x v => Host.reduce FloatOps.maximumf x v reducesTo_S100000x10_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x10, .f32⟩) main_call3_v4) (broadcastInDim S100000x10 ![0, 1] bcast_S100000x1_S100000x10_0_1),
    TRef.binary (TRef.of (T := ⟨S100000x10, .f32⟩) main_v69) (TRef.of (T := ⟨S100000x10, .f32⟩) main_call3_v4) (TRef.of (T := ⟨S100000x10, .f32⟩) main_call3_v5) subf,
    TRef.unary (TRef.of (T := ⟨S100000x10, .f32⟩) main_call3_v5) (TRef.of (T := ⟨S100000x10, .f32⟩) main_call3_v6) Host.exp,
    TRef.nullary (TRef.of (T := ⟨S_, .f32⟩) main_call3_cst_1) (constant S_ .f32 0x00000000#32),
    TRef.binary (TRef.of (T := ⟨S100000x10, .f32⟩) main_call3_v6) (TRef.of (T := ⟨S_, .f32⟩) main_call3_cst_1) (TRef.of (T := ⟨S100000, .f32⟩) main_call3_v7) (fun x v => Host.reduceAdd x v reducesTo_S100000x10_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x10, .f32⟩) main_call3_v10) (broadcastInDim S100000x10 ![0, 1] bcast_S100000x1_S100000x10_0_1),
    TRef.binary (TRef.of (T := ⟨S100000x10, .f32⟩) main_call3_v5) (TRef.of (T := ⟨S100000x10, .f32⟩) main_call3_v10) (TRef.of (T := ⟨S100000x10, .f32⟩) main_v70) subf ]
theorem opsG_sub : (opsG : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- @main's 105 operations, in order. -/
abbrev ops : List (HloOp τ sig (Elt F)) := opsA ++ (opsB ++ (opsC ++ (opsD ++ (opsE ++ opsG))))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem forall_append {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

theorem ops_sub : (ops : List (HloOp τ sig (Elt F))).Forall fun op => op.bufs ⊆ tcRefs τ sig :=
  forall_append opsA_sub (forall_append opsB_sub (forall_append opsC_sub (forall_append opsD_sub (forall_append opsE_sub opsG_sub))))

/-- No operation allocates a buffer: each determines its results. -/
theorem ops_fresh : ∀ op ∈ (ops : List (HloOp τ sig (Elt F))), op.fresh = ∅ := by
  have hA : ∀ op ∈ (opsA : List (HloOp τ sig (Elt F))), op.fresh = ∅ := by
    intro _ h; (repeat (cases h with | head => rfl | tail _ h => ?_)); exact nomatch h
  have hB : ∀ op ∈ (opsB : List (HloOp τ sig (Elt F))), op.fresh = ∅ := by
    intro _ h; (repeat (cases h with | head => rfl | tail _ h => ?_)); exact nomatch h
  have hC : ∀ op ∈ (opsC : List (HloOp τ sig (Elt F))), op.fresh = ∅ := by
    intro _ h; (repeat (cases h with | head => rfl | tail _ h => ?_)); exact nomatch h
  have hD : ∀ op ∈ (opsD : List (HloOp τ sig (Elt F))), op.fresh = ∅ := by
    intro _ h; (repeat (cases h with | head => rfl | tail _ h => ?_)); exact nomatch h
  have hE : ∀ op ∈ (opsE : List (HloOp τ sig (Elt F))), op.fresh = ∅ := by
    intro _ h; (repeat (cases h with | head => rfl | tail _ h => ?_)); exact nomatch h
  have hG : ∀ op ∈ (opsG : List (HloOp τ sig (Elt F))), op.fresh = ∅ := by
    intro _ h; (repeat (cases h with | head => rfl | tail _ h => ?_)); exact nomatch h
  intro op h
  rcases List.mem_append.mp h with h | h
  · exact hA op h
  rcases List.mem_append.mp h with h | h
  · exact hB op h
  rcases List.mem_append.mp h with h | h
  · exact hC op h
  rcases List.mem_append.mp h with h | h
  · exact hD op h
  rcases List.mem_append.mp h with h | h
  · exact hE op h
  · exact hG op h

/-- The fold over a line cut in two is the fold over the second part of the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The contents after each stretch, from contents V before the first. -/
def UA (V : Valuation τ sig (Elt F)) : Valuation τ sig (Elt F) := after opsA V
def UB (V : Valuation τ sig (Elt F)) : Valuation τ sig (Elt F) := after opsB (UA V)
def UC (V : Valuation τ sig (Elt F)) : Valuation τ sig (Elt F) := after opsC (UB V)
def UD (V : Valuation τ sig (Elt F)) : Valuation τ sig (Elt F) := after opsD (UC V)
def UE (V : Valuation τ sig (Elt F)) : Valuation τ sig (Elt F) := after opsE (UD V)
def UG (V : Valuation τ sig (Elt F)) : Valuation τ sig (Elt F) := after opsG (UE V)

theorem after_ops (V : Valuation τ sig (Elt F)) : after ops V = UG V := by
  unfold UG UE UD UC UB UA
  rw [after_append, after_append, after_append, after_append, after_append]

/-- On every device, from any memory with zero counters: every weakly fair execution of @main terminates with each
    buffer at the fold of the operations over its launch contents. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.Hand

end
-- ==== Proof.RefValue.lean ====
/-
  The reference program, read: what its result buffer holds at the end, as the network's function of the argument
  arrays. The contents after each of the six stretches of its line are followed buffer by buffer: the first stretch
  leaves the endpoint vectors and the edge weights; the second the first layer's product aggregated; the third its
  bias and clamp; the fourth and fifth the same for the second layer; the sixth the log-softmax of the last dense
  layer. A buffer a stretch does not write keeps its contents across it.
-/
import proofs.«156194_j88519275971050_1_alg».proof.Proof.RefRun
import proofs.«156194_j88519275971050_1_alg».proof.Proof.Spec

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

/-- A buffer that no operation of a stretch writes keeps its contents across the stretch: the stretch's operations'
    written buffers are listed and each differs from it. -/
macro "stretch_keeps " ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

variable (V : Valuation τ sig (Elt Ideal))

/-! ## The inlined calls' operations on plain references

An operation of a called function reads and writes its buffers through a transport along each buffer's declared type.
At every buffer of this program that type is the value's own, the transports are identities, and the operation is
the plain operation on the same buffers. The four stretches that hold such operations are restated with the plain
operations; a stretch restated is the same list. -/

section Plain
variable {F : FTy → Type} [FloatOps F]

abbrev opsA' : List (HloOp τ sig (Elt F)) :=
  [ nullary main_v0 (iotaInDim S100000 32 0),
    unary main_arg1 main_v1 ((extractStridedSlice S1x1000000 ![0, 0] · slices_S2x1000000_S1x1000000_0_0) : (⟨S2x1000000, .i32⟩ : BufTy).Contents (Elt F) → (⟨S1x1000000, .i32⟩ : BufTy).Contents (Elt F)),
    reshape main_v1 main_v2 rfl shapeCasts_S1x1000000_S1000000,
    binary main_v2 main_v0 main_v3 ((fun a b => concatenate S1100000 0 [⟨S1000000, a⟩, ⟨S100000, b⟩] concatenates_S1000000_S100000_S1100000_d0) : (⟨S1000000, .i32⟩ : BufTy).Contents (Elt F) → (⟨S100000, .i32⟩ : BufTy).Contents (Elt F) → (⟨S1100000, .i32⟩ : BufTy).Contents (Elt F)),
    unary main_arg1 main_v4 ((extractStridedSlice S1x1000000 ![1, 0] · slices_S2x1000000_S1x1000000_1_0) : (⟨S2x1000000, .i32⟩ : BufTy).Contents (Elt F) → (⟨S1x1000000, .i32⟩ : BufTy).Contents (Elt F)),
    reshape main_v4 main_v5 rfl shapeCasts_S1x1000000_S1000000,
    binary main_v5 main_v0 main_v6 ((fun a b => concatenate S1100000 0 [⟨S1000000, a⟩, ⟨S100000, b⟩] concatenates_S1000000_S100000_S1100000_d0) : (⟨S1000000, .i32⟩ : BufTy).Contents (Elt F) → (⟨S100000, .i32⟩ : BufTy).Contents (Elt F) → (⟨S1100000, .i32⟩ : BufTy).Contents (Elt F)),
    nullary main_cst (constant S_ .f32 0x3F800000#32),
    unary main_cst main_v7 (broadcastInDim S1100000 ![] bcast_S_S1100000 : (⟨S_, .f32⟩ : BufTy).Contents (Elt F) → (⟨S1100000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1100000x1 ![0] bcast_S1100000_S1100000x1_0 : (⟨S1100000, .i32⟩ : BufTy).Contents (Elt F) → (⟨S1100000x1, .i32⟩ : BufTy).Contents (Elt F)),
    ternary main_v8 main_v9 main_v7 main_v10 ((fun x i u => Host.scatterAdd scatter_S100000_S1100000x1_S1100000_n_0_0_1 x i u) : (⟨S100000, .f32⟩ : BufTy).Contents (Elt F) → (⟨S1100000x1, .i32⟩ : BufTy).Contents (Elt F) → (⟨S1100000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    unary main_cst_2 main_call0_v0 ((id) : (⟨S_, .f32⟩ : BufTy).Contents (Elt F) → (⟨S_, .f32⟩ : BufTy).Contents (Elt F)),
    unary main_call0_v0 main_call0_v1 (((broadcastInDim S100000 ![] bcast_S_S100000)) : (⟨S_, .f32⟩ : BufTy).Contents (Elt F) → (⟨S100000, .f32⟩ : BufTy).Contents (Elt F)),
    ternary main_v12 main_v13 main_call0_v1 main_v14 ((select) : (⟨S100000, .i1⟩ : BufTy).Contents (Elt F) → (⟨S100000, .f32⟩ : BufTy).Contents (Elt F) → (⟨S100000, .f32⟩ : BufTy).Contents (Elt F) → (⟨S100000, .f32⟩ : BufTy).Contents (Elt F)),
    nullary main_c (constantI S_ 32 0#32),
    unary main_c main_v15 (broadcastInDim S1100000 ![] bcast_S_S1100000 : (⟨S_, .i32⟩ : BufTy).Contents (Elt F) → (⟨S1100000, .i32⟩ : BufTy).Contents (Elt F)),
    binary main_v3 main_v15 main_v16 (cmpi .slt : (⟨S1100000, .i32⟩ : BufTy).Contents (Elt F) → (⟨S1100000, .i32⟩ : BufTy).Contents (Elt F) → (⟨S1100000, .i1⟩ : BufTy).Contents (Elt F)),
    nullary main_c_3 (constantI S_ 32 100000#32),
    unary main_c_3 main_v17 (broadcastInDim S1100000 ![] bcast_S_S1100000 : (⟨S_, .i32⟩ : BufTy).Contents (Elt F) → (⟨S1100000, .i32⟩ : BufTy).Contents (Elt F)),
    binary main_v3 main_v17 main_v18 (addi : (⟨S1100000, .i32⟩ : BufTy).Contents (Elt F) → (⟨S1100000, .i32⟩ : BufTy).Contents (Elt F) → (⟨S1100000, .i32⟩ : BufTy).Contents (Elt F)),
    ternary main_v16 main_v18 main_v3 main_v19 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    unary main_v19 main_v20 (broadcastInDim S1100000x1 ![0] bcast_S1100000_S1100000x1_0 : (⟨S1100000, .i32⟩ : BufTy).Contents (Elt F) → (⟨S1100000x1, .i32⟩ : BufTy).Contents (Elt F)),
    binary main_v14 main_v20 main_v21 ((fun x i => Host.gather gather_S100000_S1100000x1_S1100000_n_0_n_n_0_1_1 x i) : (⟨S100000, .f32⟩ : BufTy).Contents (Elt F) → (⟨S1100000x1, .i32⟩ : BufTy).Contents (Elt F) → (⟨S1100000, .f32⟩ : BufTy).Contents (Elt F)),
    nullary main_c_4 (constantI S_ 32 0#32),
    unary main_c_4 main_v22 (broadcastInDim S1100000 ![] bcast_S_S1100000 : (⟨S_, .i32⟩ : BufTy).Contents (Elt F) → (⟨S1100000, .i32⟩ : BufTy).Contents (Elt F)),
    binary main_v6 main_v22 main_v23 (cmpi .slt : (⟨S1100000, .i32⟩ : BufTy).Contents (Elt F) → (⟨S1100000, .i32⟩ : BufTy).Contents (Elt F) → (⟨S1100000, .i1⟩ : BufTy).Contents (Elt F)),
    nullary main_c_5 (constantI S_ 32 100000#32),
    unary main_c_5 main_v24 (broadcastInDim S1100000 ![] bcast_S_S1100000 : (⟨S_, .i32⟩ : BufTy).Contents (Elt F) → (⟨S1100000, .i32⟩ : BufTy).Contents (Elt F)),
    binary main_v6 main_v24 main_v25 (addi : (⟨S1100000, .i32⟩ : BufTy).Contents (Elt F) → (⟨S1100000, .i32⟩ : BufTy).Contents (Elt F) → (⟨S1100000, .i32⟩ : BufTy).Contents (Elt F)),
    ternary main_v23 main_v25 main_v6 main_v26 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    unary main_v26 main_v27 (broadcastInDim S1100000x1 ![0] bcast_S1100000_S1100000x1_0 : (⟨S1100000, .i32⟩ : BufTy).Contents (Elt F) → (⟨S1100000x1, .i32⟩ : BufTy).Contents (Elt F)),
    binary main_v14 main_v27 main_v28 ((fun x i => Host.gather gather_S100000_S1100000x1_S1100000_n_0_n_n_0_1_1 x i) : (⟨S100000, .f32⟩ : BufTy).Contents (Elt F) → (⟨S1100000x1, .i32⟩ : BufTy).Contents (Elt F) → (⟨S1100000, .f32⟩ : BufTy).Contents (Elt F)),
    binary main_v21 main_v28 main_v29 (mulf : (⟨S1100000, .f32⟩ : BufTy).Contents (Elt F) → (⟨S1100000, .f32⟩ : BufTy).Contents (Elt F) → (⟨S1100000, .f32⟩ : BufTy).Contents (Elt F)) ]
abbrev opsC' : List (HloOp τ sig (Elt F)) :=
  [ unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    nullary main_call1_cst (constant S_ .f32 0x00000000#32),
    unary main_call1_cst main_call1_v0 (((broadcastInDim S100000x128 ![] bcast_S_S100000x128)) : (⟨S_, .f32⟩ : BufTy).Contents (Elt F) → (⟨S100000x128, .f32⟩ : BufTy).Contents (Elt F)),
    binary main_v46 main_call1_v0 main_v47 ((maximumf) : (⟨S100000x128, .f32⟩ : BufTy).Contents (Elt F) → (⟨S100000x128, .f32⟩ : BufTy).Contents (Elt F) → (⟨S100000x128, .f32⟩ : BufTy).Contents (Elt F)) ]
abbrev opsE' : List (HloOp τ sig (Elt F)) :=
  [ unary main_arg5 main_v62 (broadcastInDim S1x128 ![1] bcast_S128_S1x128_1 : (⟨S128, .f32⟩ : BufTy).Contents (Elt F) → (⟨S1x128, .f32⟩ : BufTy).Contents (Elt F)),
    unary main_v62 main_v63 (broadcastInDim S100000x128 ![0, 1] bcast_S1x128_S100000x128_0_1 : (⟨S1x128, .f32⟩ : BufTy).Contents (Elt F) → (⟨S100000x128, .f32⟩ : BufTy).Contents (Elt F)),
    binary main_v61 main_v63 main_v64 (addf : (⟨S100000x128, .f32⟩ : BufTy).Contents (Elt F) → (⟨S100000x128, .f32⟩ : BufTy).Contents (Elt F) → (⟨S100000x128, .f32⟩ : BufTy).Contents (Elt F)),
    nullary main_call2_cst (constant S_ .f32 0x00000000#32),
    unary main_call2_cst main_call2_v0 (((broadcastInDim S100000x128 ![] bcast_S_S100000x128)) : (⟨S_, .f32⟩ : BufTy).Contents (Elt F) → (⟨S100000x128, .f32⟩ : BufTy).Contents (Elt F)),
    binary main_v64 main_call2_v0 main_v65 ((maximumf) : (⟨S100000x128, .f32⟩ : BufTy).Contents (Elt F) → (⟨S100000x128, .f32⟩ : BufTy).Contents (Elt F) → (⟨S100000x128, .f32⟩ : BufTy).Contents (Elt F)) ]
abbrev opsG' : List (HloOp τ sig (Elt F)) :=
  [ binary main_v65 main_arg6 main_v66 ((fun l r => Host.dotGeneral dot_S100000x128_S128x10_S100000x10_1_0_0_1_n_n none l r) : (⟨S100000x128, .f32⟩ : BufTy).Contents (Elt F) → (⟨S128x10, .f32⟩ : BufTy).Contents (Elt F) → (⟨S100000x10, .f32⟩ : BufTy).Contents (Elt F)),
    unary main_arg7 main_v67 (broadcastInDim S1x10 ![1] bcast_S10_S1x10_1 : (⟨S10, .f32⟩ : BufTy).Contents (Elt F) → (⟨S1x10, .f32⟩ : BufTy).Contents (Elt F)),
    unary main_v67 main_v68 (broadcastInDim S100000x10 ![0, 1] bcast_S1x10_S100000x10_0_1 : (⟨S1x10, .f32⟩ : BufTy).Contents (Elt F) → (⟨S100000x10, .f32⟩ : BufTy).Contents (Elt F)),
    binary main_v66 main_v68 main_v69 (addf : (⟨S100000x10, .f32⟩ : BufTy).Contents (Elt F) → (⟨S100000x10, .f32⟩ : BufTy).Contents (Elt F) → (⟨S100000x10, .f32⟩ : BufTy).Contents (Elt F)),
    nullary main_call3_cst (constant S_ .f32 0xFF800000#32),
    binary main_v69 main_call3_cst main_call3_v0 (((fun x v => Host.reduce FloatOps.maximumf x v reducesTo_S100000x10_S100000_d1 h_S_)) : (⟨S100000x10, .f32⟩ : BufTy).Contents (Elt F) → (⟨S_, .f32⟩ : BufTy).Contents (Elt F) → (⟨S100000, .f32⟩ : BufTy).Contents (Elt F)),
    nullary main_call3_cst_0 (constant S_ .f32 0xFF800000#32),
    unary main_call3_cst_0 main_call3_v1 (((broadcastInDim S100000 ![] bcast_S_S100000)) : (⟨S_, .f32⟩ : BufTy).Contents (Elt F) → (⟨S100000, .f32⟩ : BufTy).Contents (Elt F)),
    binary main_call3_v1 main_call3_v0 main_call3_v2 ((maximumf) : (⟨S100000, .f32⟩ : BufTy).Contents (Elt F) → (⟨S100000, .f32⟩ : BufTy).Contents (Elt F) → (⟨S100000, .f32⟩ : BufTy).Contents (Elt F)),
    unary main_call3_v2 main_call3_v3 (((broadcastInDim S100000x1 ![0] bcast_S100000_S100000x1_0)) : (⟨S100000, .f32⟩ : BufTy).Contents (Elt F) → (⟨S100000x1, .f32⟩ : BufTy).Contents (Elt F)),
    unary main_call3_v3 main_call3_v4 (((broadcastInDim S100000x10 ![0, 1] bcast_S100000x1_S100000x10_0_1)) : (⟨S100000x1, .f32⟩ : BufTy).Contents (Elt F) → (⟨S100000x10, .f32⟩ : BufTy).Contents (Elt F)),
    binary main_v69 main_call3_v4 main_call3_v5 ((subf) : (⟨S100000x10, .f32⟩ : BufTy).Contents (Elt F) → (⟨S100000x10, .f32⟩ : BufTy).Contents (Elt F) → (⟨S100000x10, .f32⟩ : BufTy).Contents (Elt F)),
    unary main_call3_v5 main_call3_v6 ((Host.exp) : (⟨S100000x10, .f32⟩ : BufTy).Contents (Elt F) → (⟨S100000x10, .f32⟩ : BufTy).Contents (Elt F)),
    nullary main_call3_cst_1 (constant S_ .f32 0x00000000#32),
    binary main_call3_v6 main_call3_cst_1 main_call3_v7 (((fun x v => Host.reduceAdd x v reducesTo_S100000x10_S100000_d1 h_S_)) : (⟨S100000x10, .f32⟩ : BufTy).Contents (Elt F) → (⟨S_, .f32⟩ : BufTy).Contents (Elt F) → (⟨S100000, .f32⟩ : BufTy).Contents (Elt F)),
    unary main_call3_v7 main_call3_v8 (((broadcastInDim S100000x1 ![0] bcast_S100000_S100000x1_0)) : (⟨S100000, .f32⟩ : BufTy).Contents (Elt F) → (⟨S100000x1, .f32⟩ : BufTy).Contents (Elt F)),
    unary main_call3_v8 main_call3_v9 ((Host.log) : (⟨S100000x1, .f32⟩ : BufTy).Contents (Elt F) → (⟨S100000x1, .f32⟩ : BufTy).Contents (Elt F)),
    unary main_call3_v9 main_call3_v10 (((broadcastInDim S100000x10 ![0, 1] bcast_S100000x1_S100000x10_0_1)) : (⟨S100000x1, .f32⟩ : BufTy).Contents (Elt F) → (⟨S100000x10, .f32⟩ : BufTy).Contents (Elt F)),
    binary main_call3_v5 main_call3_v10 main_v70 ((subf) : (⟨S100000x10, .f32⟩ : BufTy).Contents (Elt F) → (⟨S100000x10, .f32⟩ : BufTy).Contents (Elt F) → (⟨S100000x10, .f32⟩ : BufTy).Contents (Elt F)) ]

theorem opsA_eq : (opsA : List (HloOp τ sig (Elt F))) = opsA' := rfl
theorem opsC_eq : (opsC : List (HloOp τ sig (Elt F))) = opsC' := rfl
theorem opsE_eq : (opsE : List (HloOp τ sig (Elt F))) = opsE' := rfl

/-- The row maximum's operation, whatever function it applies: the transports cancel before the function is looked at. -/
theorem rowmax_op_eq (f : (⟨S100000x10, .f32⟩ : BufTy).Contents (Elt F) → (⟨S_, .f32⟩ : BufTy).Contents (Elt F) → (⟨S100000, .f32⟩ : BufTy).Contents (Elt F)) :
    TRef.binary (TRef.of (T := ⟨S100000x10, .f32⟩) main_v69) (TRef.of (T := ⟨S_, .f32⟩) main_call3_cst) (TRef.of (T := ⟨S100000, .f32⟩) main_call3_v0) f
      = (binary main_v69 main_call3_cst main_call3_v0 f : HloOp τ sig (Elt F)) := rfl

theorem opsG_eq : (opsG : List (HloOp τ sig (Elt F))) = opsG' := by
  dsimp only [opsG, opsG']
  rw [rowmax_op_eq]
  rfl

end Plain

/-! ## The first stretch: the endpoint vectors and the edge weights -/

theorem A_v3 : UA V (Proc.devRef .tc main_v3) = Cert.Gcn.src (V (Proc.devRef .tc main_arg1)) := by
  unfold UA; rw [opsA_eq]; dsimp only [opsA']; after_results_simp; rfl
theorem A_v6 : UA V (Proc.devRef .tc main_v6) = Cert.Gcn.dst (V (Proc.devRef .tc main_arg1)) := by
  unfold UA; rw [opsA_eq]; dsimp only [opsA']; after_results_simp; rfl
theorem A_v29 : UA V (Proc.devRef .tc main_v29) = Cert.Gcn.norm (V (Proc.devRef .tc main_arg1)) := by
  unfold UA; rw [opsA_eq]; dsimp only [opsA']; after_results_simp; rfl
theorem A_arg0 : UA V (Proc.devRef .tc main_arg0) = V (Proc.devRef .tc main_arg0) := by
  unfold UA
  stretch_keeps opsA
theorem A_arg2 : UA V (Proc.devRef .tc main_arg2) = V (Proc.devRef .tc main_arg2) := by
  unfold UA
  stretch_keeps opsA
theorem A_arg3 : UA V (Proc.devRef .tc main_arg3) = V (Proc.devRef .tc main_arg3) := by
  unfold UA
  stretch_keeps opsA
theorem A_arg4 : UA V (Proc.devRef .tc main_arg4) = V (Proc.devRef .tc main_arg4) := by
  unfold UA
  stretch_keeps opsA
theorem A_arg5 : UA V (Proc.devRef .tc main_arg5) = V (Proc.devRef .tc main_arg5) := by
  unfold UA
  stretch_keeps opsA
theorem A_arg6 : UA V (Proc.devRef .tc main_arg6) = V (Proc.devRef .tc main_arg6) := by
  unfold UA
  stretch_keeps opsA
theorem A_arg7 : UA V (Proc.devRef .tc main_arg7) = V (Proc.devRef .tc main_arg7) := by
  unfold UA
  stretch_keeps opsA

/-! ## The first layer -/

theorem B_v43 : UB V (Proc.devRef .tc main_v43)
    = Cert.Gcn.aggOf (UA V (Proc.devRef .tc main_v3)) (UA V (Proc.devRef .tc main_v6)) (UA V (Proc.devRef .tc main_v29))
        (Host.dotGeneral (F := Ideal) (φ₁ := .f32) (φ₂ := .f32) dot_S100000x64_S64x128_S100000x128_1_0_0_1_n_n none (UA V (Proc.devRef .tc main_arg0) : FVec Ideal S100000x64 .f32) (UA V (Proc.devRef .tc main_arg2) : FVec Ideal S64x128 .f32)) := by
  unfold UB; dsimp only [opsB]; after_results_simp; rfl
theorem B_v3 : UB V (Proc.devRef .tc main_v3) = UA V (Proc.devRef .tc main_v3) := by
  unfold UB
  stretch_keeps opsB
theorem B_v6 : UB V (Proc.devRef .tc main_v6) = UA V (Proc.devRef .tc main_v6) := by
  unfold UB
  stretch_keeps opsB
theorem B_v29 : UB V (Proc.devRef .tc main_v29) = UA V (Proc.devRef .tc main_v29) := by
  unfold UB
  stretch_keeps opsB
theorem B_arg3 : UB V (Proc.devRef .tc main_arg3) = UA V (Proc.devRef .tc main_arg3) := by
  unfold UB
  stretch_keeps opsB
theorem B_arg4 : UB V (Proc.devRef .tc main_arg4) = UA V (Proc.devRef .tc main_arg4) := by
  unfold UB
  stretch_keeps opsB
theorem B_arg5 : UB V (Proc.devRef .tc main_arg5) = UA V (Proc.devRef .tc main_arg5) := by
  unfold UB
  stretch_keeps opsB
theorem B_arg6 : UB V (Proc.devRef .tc main_arg6) = UA V (Proc.devRef .tc main_arg6) := by
  unfold UB
  stretch_keeps opsB
theorem B_arg7 : UB V (Proc.devRef .tc main_arg7) = UA V (Proc.devRef .tc main_arg7) := by
  unfold UB
  stretch_keeps opsB

theorem C_v47 : UC V (Proc.devRef .tc main_v47) = Cert.Gcn.biasRelu (UB V (Proc.devRef .tc main_v43)) (UB V (Proc.devRef .tc main_arg3)) := by
  unfold UC; rw [opsC_eq]; dsimp only [opsC']; after_results_simp; rfl
theorem C_v3 : UC V (Proc.devRef .tc main_v3) = UB V (Proc.devRef .tc main_v3) := by
  unfold UC
  stretch_keeps opsC
theorem C_v6 : UC V (Proc.devRef .tc main_v6) = UB V (Proc.devRef .tc main_v6) := by
  unfold UC
  stretch_keeps opsC
theorem C_v29 : UC V (Proc.devRef .tc main_v29) = UB V (Proc.devRef .tc main_v29) := by
  unfold UC
  stretch_keeps opsC
theorem C_arg4 : UC V (Proc.devRef .tc main_arg4) = UB V (Proc.devRef .tc main_arg4) := by
  unfold UC
  stretch_keeps opsC
theorem C_arg5 : UC V (Proc.devRef .tc main_arg5) = UB V (Proc.devRef .tc main_arg5) := by
  unfold UC
  stretch_keeps opsC
theorem C_arg6 : UC V (Proc.devRef .tc main_arg6) = UB V (Proc.devRef .tc main_arg6) := by
  unfold UC
  stretch_keeps opsC
theorem C_arg7 : UC V (Proc.devRef .tc main_arg7) = UB V (Proc.devRef .tc main_arg7) := by
  unfold UC
  stretch_keeps opsC

/-! ## The second layer -/

theorem D_v61 : UD V (Proc.devRef .tc main_v61)
    = Cert.Gcn.aggOf (UC V (Proc.devRef .tc main_v3)) (UC V (Proc.devRef .tc main_v6)) (UC V (Proc.devRef .tc main_v29))
        (Host.dotGeneral (F := Ideal) (φ₁ := .f32) (φ₂ := .f32) dot_S100000x128_S128x128_S100000x128_1_0_0_1_n_n none (UC V (Proc.devRef .tc main_v47) : FVec Ideal S100000x128 .f32) (UC V (Proc.devRef .tc main_arg4) : FVec Ideal S128x128 .f32)) := by
  unfold UD; dsimp only [opsD]; after_results_simp; rfl
theorem D_arg5 : UD V (Proc.devRef .tc main_arg5) = UC V (Proc.devRef .tc main_arg5) := by
  unfold UD
  stretch_keeps opsD
theorem D_arg6 : UD V (Proc.devRef .tc main_arg6) = UC V (Proc.devRef .tc main_arg6) := by
  unfold UD
  stretch_keeps opsD
theorem D_arg7 : UD V (Proc.devRef .tc main_arg7) = UC V (Proc.devRef .tc main_arg7) := by
  unfold UD
  stretch_keeps opsD

theorem E_v65 : UE V (Proc.devRef .tc main_v65) = Cert.Gcn.biasRelu (UD V (Proc.devRef .tc main_v61)) (UD V (Proc.devRef .tc main_arg5)) := by
  unfold UE; rw [opsE_eq]; dsimp only [opsE']; after_results_simp; rfl
theorem E_arg6 : UE V (Proc.devRef .tc main_arg6) = UD V (Proc.devRef .tc main_arg6) := by
  unfold UE
  stretch_keeps opsE
theorem E_arg7 : UE V (Proc.devRef .tc main_arg7) = UD V (Proc.devRef .tc main_arg7) := by
  unfold UE
  stretch_keeps opsE

/-! ## The last dense layer and the log-softmax -/

theorem G_v70 : UG V (Proc.devRef .tc main_v70)
    = Cert.Gcn.logSoftmax (Cert.Gcn.logits (UE V (Proc.devRef .tc main_v65)) (UE V (Proc.devRef .tc main_arg6)) (UE V (Proc.devRef .tc main_arg7))) := by
  unfold UG; rw [opsG_eq]; dsimp only [opsG']; after_results_simp; rfl

/-! ## The result, and the arguments -/

/-- The result buffer after the whole line is the network's output of the argument arrays. -/
theorem result : after ops V (Proc.devRef .tc main_v70)
    = Cert.Gcn.out (V (Proc.devRef .tc main_arg0)) (V (Proc.devRef .tc main_arg1)) (V (Proc.devRef .tc main_arg2)) (V (Proc.devRef .tc main_arg3))
        (V (Proc.devRef .tc main_arg4)) (V (Proc.devRef .tc main_arg5)) (V (Proc.devRef .tc main_arg6)) (V (Proc.devRef .tc main_arg7)) := by
  rw [after_ops, G_v70, E_v65, E_arg6, E_arg7, D_v61, D_arg5, D_arg6, D_arg7, C_v47, C_v3, C_v6, C_v29, C_arg4, C_arg5, C_arg6, C_arg7,
    B_v43, B_v3, B_v6, B_v29, B_arg3, B_arg4, B_arg5, B_arg6, B_arg7, A_v3, A_v6, A_v29, A_arg0, A_arg2, A_arg3, A_arg4, A_arg5, A_arg6, A_arg7]
  rfl

/-- A buffer no operation of the whole line writes keeps its contents: stretch by stretch. -/
macro "line_keeps" : tactic => `(tactic| (
  rw [after_ops]
  unfold UG; refine Eq.trans (by stretch_keeps opsG) ?_
  unfold UE; refine Eq.trans (by stretch_keeps opsE) ?_
  unfold UD; refine Eq.trans (by stretch_keeps opsD) ?_
  unfold UC; refine Eq.trans (by stretch_keeps opsC) ?_
  unfold UB; refine Eq.trans (by stretch_keeps opsB) ?_
  unfold UA; stretch_keeps opsA))

theorem kept_arg0 : after ops V (Proc.devRef .tc main_arg0) = V (Proc.devRef .tc main_arg0) := by line_keeps
theorem kept_arg1 : after ops V (Proc.devRef .tc main_arg1) = V (Proc.devRef .tc main_arg1) := by line_keeps
theorem kept_arg2 : after ops V (Proc.devRef .tc main_arg2) = V (Proc.devRef .tc main_arg2) := by line_keeps
theorem kept_arg3 : after ops V (Proc.devRef .tc main_arg3) = V (Proc.devRef .tc main_arg3) := by line_keeps
theorem kept_arg4 : after ops V (Proc.devRef .tc main_arg4) = V (Proc.devRef .tc main_arg4) := by line_keeps
theorem kept_arg5 : after ops V (Proc.devRef .tc main_arg5) = V (Proc.devRef .tc main_arg5) := by line_keeps
theorem kept_arg6 : after ops V (Proc.devRef .tc main_arg6) = V (Proc.devRef .tc main_arg6) := by line_keeps
theorem kept_arg7 : after ops V (Proc.devRef .tc main_arg7) = V (Proc.devRef .tc main_arg7) := by line_keeps

end Cert.ReferenceIdeal.Hand

end
-- ==== Proof.lean ====
/-
  The certificate of a two-layer graph-convolution network with a log-softmax head: a program of five kernel regions
  among stretches of host operations against a reference of host operations alone, equal as functions of the argument
  arrays on the extended reals.

  Both programs compute, from the edge list, the same endpoint vectors (self loops appended), in-degrees, inverse
  square roots and edge weights with the same host operations; they differ only in that the kernel's program runs
  each dense stage as a grid of 50 blocks of 2000 rows. A block of a matrix product is the matching block of rows of
  the host's dot_general (the same sum over the contracted axis, the bf16 rounding of the operands being the identity
  at the ideal instance, the zero accumulator adding nothing); a block of the bias-add and clamp is pointwise, the bias
  reshaped to a row in one program and broadcast to a row in the other; a block of the log-softmax head depends row by
  row on the same row of the features only, each row's maximum and sum being folds over its ten entries in both
  programs (the reference's second maximum with minus infinity and its sum's zero start change nothing). The blocks
  tile the rows, so each region leaves the host operation's whole array, and the two programs then apply the same
  gather, scale and scatter-add to equal arrays. No finiteness of the inputs is used.

  The ideal pass rewrote nothing, so the kernel's idealization is its own text read at the ideal instance.
-/
import proofs.«156194_j88519275971050_1_alg».proof.Defs
import proofs.«156194_j88519275971050_1_alg».proof.Proof.Gen.Kernel
import proofs.«156194_j88519275971050_1_alg».proof.Proof.Gen.Kernel.Skeleton
import proofs.«156194_j88519275971050_1_alg».proof.Proof.Gen.Kernel.Launch
import proofs.«156194_j88519275971050_1_alg».proof.Proof.Gen.Kernel.Points
import proofs.«156194_j88519275971050_1_alg».proof.Proof.Gen.Kernel.Frame
import proofs.«156194_j88519275971050_1_alg».proof.Proof.Gen.KernelIdeal
import proofs.«156194_j88519275971050_1_alg».proof.Proof.Gen.KernelIdeal.Skeleton
import proofs.«156194_j88519275971050_1_alg».proof.Proof.Gen.KernelIdeal.Launch
import proofs.«156194_j88519275971050_1_alg».proof.Proof.Gen.KernelIdeal.Points
import proofs.«156194_j88519275971050_1_alg».proof.Proof.Gen.KernelIdeal.Frame
import proofs.«156194_j88519275971050_1_alg».proof.Proof.Gen.ReferenceIdeal
import proofs.«156194_j88519275971050_1_alg».proof.Proof.Gen.Pre_finite_inputs
import proofs.«156194_j88519275971050_1_alg».proof.Proof.KChain
import proofs.«156194_j88519275971050_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

/-- The kernel's program as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs, and no operation of its line writes an argument. -/
theorem frame_referenceIdeal : Cert.frame_ReferenceIdeal := fun m ρ _ =>
  (θ_run Cert.ReferenceIdeal.defs _ _).mono (fun _ h c =>
    ⟨(h c Cert.ReferenceIdeal.main_arg0).trans (Cert.ReferenceIdeal.Hand.kept_arg0 _),
     (h c Cert.ReferenceIdeal.main_arg1).trans (Cert.ReferenceIdeal.Hand.kept_arg1 _),
     (h c Cert.ReferenceIdeal.main_arg2).trans (Cert.ReferenceIdeal.Hand.kept_arg2 _),
     (h c Cert.ReferenceIdeal.main_arg3).trans (Cert.ReferenceIdeal.Hand.kept_arg3 _),
     (h c Cert.ReferenceIdeal.main_arg4).trans (Cert.ReferenceIdeal.Hand.kept_arg4 _),
     (h c Cert.ReferenceIdeal.main_arg5).trans (Cert.ReferenceIdeal.Hand.kept_arg5 _),
     (h c Cert.ReferenceIdeal.main_arg6).trans (Cert.ReferenceIdeal.Hand.kept_arg6 _),
     (h c Cert.ReferenceIdeal.main_arg7).trans (Cert.ReferenceIdeal.Hand.kept_arg7 _)⟩)
    (Cert.ReferenceIdeal.Hand.run (F := Ideal) m ρ)

/-- The ledger of the ideal pass is empty. -/
theorem preserves : Cert.preserves_Kernel_KernelIdeal := trivial

/-- Both idealized programs end with the network's output of the argument arrays in their result buffers. -/
theorem algebraic : Cert.algebraic_KernelIdeal_ReferenceIdeal := by
  intro m ρ m' ρ' _ hagree
  refine ⟨fun c => Cert.Gcn.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c =>
      ⟨(h c _ (Cert.KernelIdeal.Gen.mem_uc Cert.KernelIdeal.main_v63 (by decide))).trans (Cert.KernelIdeal.Hand.result_11 m ρ c),
       (h c _ (Cert.KernelIdeal.Gen.mem_uc Cert.KernelIdeal.main_arg0 (by decide))).trans (Cert.KernelIdeal.Gen.W11_main_arg0 m ρ c),
       (h c _ (Cert.KernelIdeal.Gen.mem_uc Cert.KernelIdeal.main_arg1 (by decide))).trans (Cert.KernelIdeal.Gen.W11_main_arg1 m ρ c),
       (h c _ (Cert.KernelIdeal.Gen.mem_uc Cert.KernelIdeal.main_arg2 (by decide))).trans (Cert.KernelIdeal.Gen.W11_main_arg2 m ρ c),
       (h c _ (Cert.KernelIdeal.Gen.mem_uc Cert.KernelIdeal.main_arg3 (by decide))).trans (Cert.KernelIdeal.Gen.W11_main_arg3 m ρ c),
       (h c _ (Cert.KernelIdeal.Gen.mem_uc Cert.KernelIdeal.main_arg4 (by decide))).trans (Cert.KernelIdeal.Gen.W11_main_arg4 m ρ c),
       (h c _ (Cert.KernelIdeal.Gen.mem_uc Cert.KernelIdeal.main_arg5 (by decide))).trans (Cert.KernelIdeal.Gen.W11_main_arg5 m ρ c),
       (h c _ (Cert.KernelIdeal.Gen.mem_uc Cert.KernelIdeal.main_arg6 (by decide))).trans (Cert.KernelIdeal.Gen.W11_main_arg6 m ρ c),
       (h c _ (Cert.KernelIdeal.Gen.mem_uc Cert.KernelIdeal.main_arg7 (by decide))).trans (Cert.KernelIdeal.Gen.W11_main_arg7 m ρ c)⟩)
      (Cert.KernelIdeal.Hand.run_final m ρ)
  · refine (θ_run Cert.ReferenceIdeal.defs _ _).mono (fun r h c =>
      ⟨(h c Cert.ReferenceIdeal.main_v70).trans ((Cert.ReferenceIdeal.Hand.result (launchContents m' c)).trans ?_),
       (h c Cert.ReferenceIdeal.main_arg0).trans (Cert.ReferenceIdeal.Hand.kept_arg0 _),
       (h c Cert.ReferenceIdeal.main_arg1).trans (Cert.ReferenceIdeal.Hand.kept_arg1 _),
       (h c Cert.ReferenceIdeal.main_arg2).trans (Cert.ReferenceIdeal.Hand.kept_arg2 _),
       (h c Cert.ReferenceIdeal.main_arg3).trans (Cert.ReferenceIdeal.Hand.kept_arg3 _),
       (h c Cert.ReferenceIdeal.main_arg4).trans (Cert.ReferenceIdeal.Hand.kept_arg4 _),
       (h c Cert.ReferenceIdeal.main_arg5).trans (Cert.ReferenceIdeal.Hand.kept_arg5 _),
       (h c Cert.ReferenceIdeal.main_arg6).trans (Cert.ReferenceIdeal.Hand.kept_arg6 _),
       (h c Cert.ReferenceIdeal.main_arg7).trans (Cert.ReferenceIdeal.Hand.kept_arg7 _)⟩)
      (Cert.ReferenceIdeal.Hand.run (F := Ideal) m' ρ')
    obtain ⟨e0, e1, e2, e3, e4, e5, e6, e7⟩ := hagree c
    rw [show launchContents m' c (Proc.devRef .tc Cert.ReferenceIdeal.main_arg0) = _ from e0,
      show launchContents m' c (Proc.devRef .tc Cert.ReferenceIdeal.main_arg1) = _ from e1,
      show launchContents m' c (Proc.devRef .tc Cert.ReferenceIdeal.main_arg2) = _ from e2,
      show launchContents m' c (Proc.devRef .tc Cert.ReferenceIdeal.main_arg3) = _ from e3,
      show launchContents m' c (Proc.devRef .tc Cert.ReferenceIdeal.main_arg4) = _ from e4,
      show launchContents m' c (Proc.devRef .tc Cert.ReferenceIdeal.main_arg5) = _ from e5,
      show launchContents m' c (Proc.devRef .tc Cert.ReferenceIdeal.main_arg6) = _ from e6,
      show launchContents m' c (Proc.devRef .tc Cert.ReferenceIdeal.main_arg7) = _ from e7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
